-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x224x224 : Shape := ⟨4, ![8, 3, 224, 224]⟩
abbrev S8x128x224x224 : Shape := ⟨4, ![8, 128, 224, 224]⟩
abbrev S2x2048 : Shape := ⟨2, ![2, 2048]⟩
abbrev S_ : Shape := ⟨0, ![]⟩

class Facts : Prop where
  bcast_S_S8x3x224x224 : S_.BroadcastsInDim S8x3x224x224 (![] : Fin 0 → Fin S8x3x224x224.rank)
  reducesTo_S8x3x224x224_S_d0_1_2_3 : S8x3x224x224.ReducesTo [0, 1, 2, 3] S_
  h_S_ : 0 < S_.numel
  bcast_S_S8x128x224x224 : S_.BroadcastsInDim S8x128x224x224 (![] : Fin 0 → Fin S8x128x224x224.rank)
  reducesTo_S8x128x224x224_S_d0_1_2_3 : S8x128x224x224.ReducesTo [0, 1, 2, 3] S_

variable [Facts]

def fn {F : FTy → Type} [FloatOps F] (main_arg0 : FVec F S8x3x224x224 .f32) (main_arg1 : FVec F S8x128x224x224 .f32) (main_arg2 : IVec S2x2048 32) : IVec S_ 1 :=
  let main_v0 : FVec F S8x3x224x224 .f32 := Host.absf main_arg0
  let main_cst : FVec F S_ .f32 := constant S_ .f32 0x7F800000#32
  let main_v1 : FVec F S8x3x224x224 .f32 := broadcastInDim S8x3x224x224 ![] bcast_S_S8x3x224x224 main_cst
  let main_v2 : IVec S8x3x224x224 1 := cmpf .olt main_v0 main_v1
  let main_c : IVec S_ 1 := constantI S_ 1 1#1
  let main_v3 : IVec S_ 1 := (fun x v => Host.reduce IntOp.andi x v reducesTo_S8x3x224x224_S_d0_1_2_3 h_S_) main_v2 main_c
  let main_v4 : FVec F S8x128x224x224 .f32 := Host.absf main_arg1
  let main_cst_0 : FVec F S_ .f32 := constant S_ .f32 0x7F800000#32
  let main_v5 : FVec F S8x128x224x224 .f32 := broadcastInDim S8x128x224x224 ![] bcast_S_S8x128x224x224 main_cst_0
  let main_v6 : IVec S8x128x224x224 1 := cmpf .olt main_v4 main_v5
  let main_c_1 : IVec S_ 1 := constantI S_ 1 1#1
  let main_v7 : IVec S_ 1 := (fun x v => Host.reduce IntOp.andi x v reducesTo_S8x128x224x224_S_d0_1_2_3 h_S_) main_v6 main_c_1
  let main_v8 : IVec S_ 1 := andi main_v3 main_v7
  main_v8
-- ==== Kernel.lean ====
abbrev S8x3x224x224 : Shape := ⟨4, ![8, 3, 224, 224]⟩
abbrev S8x128x224x224 : Shape := ⟨4, ![8, 128, 224, 224]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S2048x2 : Shape := ⟨2, ![2048, 2]⟩
abbrev S8x3x2048 : Shape := ⟨3, ![8, 3, 2048]⟩
abbrev S8x128x2048 : Shape := ⟨3, ![8, 128, 2048]⟩
abbrev S8x2048x3 : Shape := ⟨3, ![8, 2048, 3]⟩
abbrev S8x2048x128 : Shape := ⟨3, ![8, 2048, 128]⟩
abbrev S1x1 : Shape := ⟨2, ![1, 1]⟩
abbrev S8x256x128 : Shape := ⟨3, ![8, 256, 128]⟩
abbrev S8x256x3 : Shape := ⟨3, ![8, 256, 3]⟩
abbrev S256x2 : Shape := ⟨2, ![256, 2]⟩
abbrev S8x256 : Shape := ⟨2, ![8, 256]⟩
abbrev S256 : Shape := ⟨1, ![256]⟩
abbrev S8x256x256 : Shape := ⟨3, ![8, 256, 256]⟩
abbrev S256x256 : Shape := ⟨2, ![256, 256]⟩
abbrev S8x256x1 : Shape := ⟨3, ![8, 256, 1]⟩
abbrev S8x1x256 : Shape := ⟨3, ![8, 1, 256]⟩
abbrev S256x1 : Shape := ⟨2, ![256, 1]⟩
abbrev S1x256 : Shape := ⟨2, ![1, 256]⟩
abbrev S1x256x256 : Shape := ⟨3, ![1, 256, 256]⟩
abbrev S8x1 : Shape := ⟨2, ![8, 1]⟩
abbrev S8x1x1 : Shape := ⟨3, ![8, 1, 1]⟩
abbrev S1x1x1 : Shape := ⟨3, ![1, 1, 1]⟩

abbrev nBuf : Space → Nat
  | .hbm => 66
  | .vmem => 13
  | .smem => 0
  | _ => 0

abbrev bufTy : (tb : Table) → Fin (tcTables nBuf tb) → BufTy
  | .hbm, ⟨0, _⟩ => ⟨S8x3x224x224, .f32⟩
  | .hbm, ⟨1, _⟩ => ⟨S8x128x224x224, .f32⟩
  | .hbm, ⟨2, _⟩ => ⟨S2x2048, .i32⟩
  | .hbm, ⟨3, _⟩ => ⟨S1x2048, .i32⟩
  | .hbm, ⟨4, _⟩ => ⟨S2048, .i32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S1x2048, .i32⟩
  | .hbm, ⟨10, _⟩ => ⟨S2048, .i32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S2048x1, .f32⟩
  | .hbm, ⟨16, _⟩ => ⟨S2048x1, .f32⟩
  | .hbm, ⟨17, _⟩ => ⟨S2048x2, .f32⟩
  | .hbm, ⟨18, _⟩ => ⟨S1x2048, .i32⟩
  | .hbm, ⟨19, _⟩ => ⟨S2048, .i32⟩
  | .hbm, ⟨20, _⟩ => ⟨S1x2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S2048x1, .i32⟩
  | .hbm, ⟨37, _⟩ => ⟨S2048x1, .i32⟩
  | .hbm, ⟨38, _⟩ => ⟨S2048x2, .i32⟩
  | .hbm, ⟨39, _⟩ => ⟨S8x3x2048, .f32⟩
  | .hbm, ⟨40, _⟩ => ⟨S1x2048, .i32⟩
  | .hbm, ⟨41, _⟩ => ⟨S2048, .i32⟩
  | .hbm, ⟨42, _⟩ => ⟨S1x2048, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S2048, .i32⟩
  | .hbm, ⟨58, _⟩ => ⟨S2048x1, .i32⟩
  | .hbm, ⟨59, _⟩ => ⟨S2048x1, .i32⟩
  | .hbm, ⟨60, _⟩ => ⟨S2048x2, .i32⟩
  | .hbm, ⟨61, _⟩ => ⟨S8x128x2048, .f32⟩
  | .hbm, ⟨62, _⟩ => ⟨S8x2048x3, .f32⟩
  | .hbm, ⟨63, _⟩ => ⟨S8x2048x128, .f32⟩
  | .hbm, ⟨64, _⟩ => ⟨S1x1, .f32⟩
  | .hbm, ⟨65, _⟩ => ⟨S_, .f32⟩
  | .local _ .vmem, ⟨0, _⟩ => ⟨S8x256x128, .f32⟩
  | .local _ .vmem, ⟨1, _⟩ => ⟨S8x256x128, .f32⟩
  | .local _ .vmem, ⟨2, _⟩ => ⟨S8x256x128, .f32⟩
  | .local _ .vmem, ⟨3, _⟩ => ⟨S8x256x128, .f32⟩
  | .local _ .vmem, ⟨4, _⟩ => ⟨S8x256x3, .f32⟩
  | .local _ .vmem, ⟨5, _⟩ => ⟨S8x256x3, .f32⟩
  | .local _ .vmem, ⟨6, _⟩ => ⟨S8x256x3, .f32⟩
  | .local _ .vmem, ⟨7, _⟩ => ⟨S8x256x3, .f32⟩
  | .local _ .vmem, ⟨8, _⟩ => ⟨S256x2, .f32⟩
  | .local _ .vmem, ⟨9, _⟩ => ⟨S256x2, .f32⟩
  | .local _ .vmem, ⟨10, _⟩ => ⟨S256x2, .f32⟩
  | .local _ .vmem, ⟨11, _⟩ => ⟨S256x2, .f32⟩
  | .local _ .vmem, ⟨12, _⟩ => ⟨S1x1, .f32⟩
  | _, _ => ⟨S8x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_4 : Ref sig .tc := ⟨.hbm, 44, rfl⟩
abbrev main_v35 : Ref sig .tc := ⟨.hbm, 45, rfl⟩
abbrev main_v36 : Ref sig .tc := ⟨.hbm, 46, rfl⟩
abbrev main_c_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_6 : Ref sig .tc := ⟨.hbm, 51, rfl⟩
abbrev main_v40 : Ref sig .tc := ⟨.hbm, 52, rfl⟩
abbrev main_v41 : Ref sig .tc := ⟨.hbm, 53, rfl⟩
abbrev main_c_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x256x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x256x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  slices_S2x2048_S1x2048_0_0 : S2x2048.Slices ![0, 0] S1x2048
  shapeCasts_S1x2048_S2048 : S1x2048.ShapeCasts S2048
  bcast_S_S2048 : S_.BroadcastsInDim S2048 (![] : Fin 0 → Fin S2048.rank)
  slices_S2x2048_S1x2048_1_0 : S2x2048.Slices ![1, 0] S1x2048
  bcast_S2048_S2048x1_0 : S2048.BroadcastsInDim S2048x1 (![0] : Fin 1 → Fin S2048x1.rank)
  concatenates_S2048x1_S2048x1_S2048x2_d1 : Shape.Concatenates [S2048x1, S2048x1] S2048x2 1
  transposes_S8x3x2048_S8x2048x3_0_2_1 : S8x3x2048.Transposes [0, 2, 1] S8x2048x3
  transposes_S8x128x2048_S8x2048x128_0_2_1 : S8x128x2048.Transposes [0, 2, 1] S8x2048x128
  inb_S1x1_S1x1_0_0 : ∀ a, (![0, 0] : Fin 2 → Nat) a + S1x1.size a ≤ S1x1.size a
  h_S1x1 : 0 < S1x1.numel
  inb_S8x256x128_S8x256x128_0_0_0 : ∀ a, (![0, 0, 0] : Fin 3 → Nat) a + S8x256x128.size a ≤ S8x256x128.size a
  h_S8x256x128 : 0 < S8x256x128.numel
  shapeCasts_S8x256x128_S8x256x128 : S8x256x128.ShapeCasts S8x256x128
  inb_S8x256x3_S8x256x3_0_0_0 : ∀ a, (![0, 0, 0] : Fin 3 → Nat) a + S8x256x3.size a ≤ S8x256x3.size a
  h_S8x256x3 : 0 < S8x256x3.numel
  shapeCasts_S8x256x3_S8x256x3 : S8x256x3.ShapeCasts S8x256x3
  inb_S256x2_S256x2_0_0 : ∀ a, (![0, 0] : Fin 2 → Nat) a + S256x2.size a ≤ S256x2.size a
  h_S256x2 : 0 < S256x2.numel
  shapeCasts_S256x2_S256x2 : S256x2.ShapeCasts S256x2
  reduces_S8x256x128_S8x256 : S8x256x128.Reduces [2] S8x256
  reduces_S8x256x3_S8x256 : S8x256x3.Reduces [2] S8x256
  reduces_S256x2_S256 : S256x2.Reduces [1] S256
  bitsLt_bf16_f32 : FTy.bits .bf16 < FTy.bits .f32
  shapeCasts_S8x256_S8x256x1 : S8x256.ShapeCasts S8x256x1
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  shapeCasts_S256_S256x1 : S256.ShapeCasts S256x1
  shapeCasts_S256_S1x256 : S256.ShapeCasts S1x256
  broadcasts_S256x1_S256x256 : S256x1.Broadcasts S256x256
  broadcasts_S1x256_S256x256 : S1x256.Broadcasts S256x256
  shapeCasts_S256x256_S1x256x256 : S256x256.ShapeCasts S1x256x256
  broadcasts_S1x256x256_S8x256x256 : S1x256x256.Broadcasts S8x256x256
  reduces_S8x256x256_S8x256 : S8x256x256.Reduces [2] S8x256
  reduces_S8x256x1_S8x1 : S8x256x1.Reduces [1] S8x1
  shapeCasts_S8x1_S8x1x1 : S8x1.ShapeCasts S8x1x1
  reduces_S8x1x1_S1x1 : S8x1x1.Reduces [0] S1x1
  shapeCasts_S1x1_S1x1x1 : S1x1.ShapeCasts S1x1x1
  shapeCasts_S1x1x1_S1x1 : S1x1x1.ShapeCasts S1x1
  shapeCasts_S1x1_S1x1 : S1x1.ShapeCasts S1x1
  shapeCasts_S1x1_S_ : S1x1.ShapeCasts S_
  gather_S8x3x224x224_S2048x2_S8x3x2048_01_23_n_n_23_1_8311_wf : GatherDims.WF S8x3x224x224 S2048x2 S8x3x2048 [0, 1] [2, 3] [] [2, 3] [] 1 ![8, 3, 1, 1]
  gather_S8x128x224x224_S2048x2_S8x128x2048_01_23_n_n_23_1_812811_wf : GatherDims.WF S8x128x224x224 S2048x2 S8x128x2048 [0, 1] [2, 3] [] [2, 3] [] 1 ![8, 128, 1, 1]
  dot_S8x256x128_S8x256x128_S8x256x256_2_2_1_1_0_0_wf : DotDims.WF S8x256x128 S8x256x128 S8x256x256 [2] [2] [1] [1] [0] [0]
  dot_S8x256x3_S8x256x3_S8x256x256_2_2_1_1_0_0_wf : DotDims.WF S8x256x3 S8x256x3 S8x256x256 [2] [2] [1] [1] [0] [0]
  dot_S256x2_S256x2_S256x256_1_1_0_0_n_n_wf : DotDims.WF S256x2 S256x2 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x128.size a ≤ S8x2048x128.size a
  hwx0_0 : ∀ i : grid0.Coords, EltTy.bits .f32 = 32 ∨ (Rect.block (s := S8x2048x128) S8x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x128.size a ≤ S8x2048x128.size a
  hwx0_1 : ∀ i : grid0.Coords, EltTy.bits .f32 = 32 ∨ (Rect.block (s := S8x2048x128) S8x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x3.size a ≤ S8x2048x3.size a
  hwx0_2 : ∀ i : grid0.Coords, EltTy.bits .f32 = 32 ∨ (Rect.block (s := S8x2048x3) S8x256x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x3.size a ≤ S8x2048x3.size a
  hwx0_3 : ∀ i : grid0.Coords, EltTy.bits .f32 = 32 ∨ (Rect.block (s := S8x2048x3) S8x256x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2.size a ≤ S2048x2.size a
  hwx0_4 : ∀ i : grid0.Coords, EltTy.bits .f32 = 32 ∨ (Rect.block (s := S2048x2) S256x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2.size a ≤ S2048x2.size a
  hwx0_5 : ∀ i : grid0.Coords, EltTy.bits .f32 = 32 ∨ (Rect.block (s := S2048x2) S256x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def gather_S8x3x224x224_S2048x2_S8x3x2048_01_23_n_n_23_1_8311 : GatherDims S8x3x224x224 S2048x2 S8x3x2048 where
  offsetDims := [0, 1]
  collapsedSliceDims := [2, 3]
  operandBatchingDims := []
  startIndicesBatchingDims := []
  startIndexMap := [2, 3]
  indexVectorDim := 1
  sliceSizes := ![8, 3, 1, 1]
  wf := gather_S8x3x224x224_S2048x2_S8x3x2048_01_23_n_n_23_1_8311_wf
def gather_S8x128x224x224_S2048x2_S8x128x2048_01_23_n_n_23_1_812811 : GatherDims S8x128x224x224 S2048x2 S8x128x2048 where
  offsetDims := [0, 1]
  collapsedSliceDims := [2, 3]
  operandBatchingDims := []
  startIndicesBatchingDims := []
  startIndexMap := [2, 3]
  indexVectorDim := 1
  sliceSizes := ![8, 128, 1, 1]
  wf := gather_S8x128x224x224_S2048x2_S8x128x2048_01_23_n_n_23_1_812811_wf
def dot_S8x256x128_S8x256x128_S8x256x256_2_2_1_1_0_0 : DotDims S8x256x128 S8x256x128 S8x256x256 where
  lhsContracting := [2]
  rhsContracting := [2]
  lhsNonContracting := [1]
  rhsNonContracting := [1]
  lhsBatch := [0]
  rhsBatch := [0]
  wf := dot_S8x256x128_S8x256x128_S8x256x256_2_2_1_1_0_0_wf
def dot_S8x256x3_S8x256x3_S8x256x256_2_2_1_1_0_0 : DotDims S8x256x3 S8x256x3 S8x256x256 where
  lhsContracting := [2]
  rhsContracting := [2]
  lhsNonContracting := [1]
  rhsNonContracting := [1]
  lhsBatch := [0]
  rhsBatch := [0]
  wf := dot_S8x256x3_S8x256x3_S8x256x256_2_2_1_1_0_0_wf
def dot_S256x2_S256x2_S256x256_1_1_0_0_n_n : DotDims S256x2 S256x2 S256x256 where
  lhsContracting := [1]
  rhsContracting := [1]
  lhsNonContracting := [0]
  rhsNonContracting := [0]
  lhsBatch := []
  rhsBatch := []
  wf := dot_S256x2_S256x2_S256x256_1_1_0_0_n_n_wf

abbrev win0_0 : Pipeline.Window sig grid0 :=
  Pipeline.Window.ofSpec (Memref.whole main_v50) S8x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S8x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S8x256x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v49) S8x256x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S256x2.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S256x2.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v51) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x3x224x224 : Shape := ⟨4, ![8, 3, 224, 224]⟩
abbrev S8x128x224x224 : Shape := ⟨4, ![8, 128, 224, 224]⟩
abbrev S2x2048 : Shape := ⟨2, ![2, 2048]⟩
abbrev S2x1 : Shape := ⟨2, ![2, 1]⟩
abbrev S2x2048x1 : Shape := ⟨3, ![2, 2048, 1]⟩
abbrev S2x1x2048 : Shape := ⟨3, ![2, 1, 2048]⟩
abbrev S2x2048x2048 : Shape := ⟨3, ![2, 2048, 2048]⟩
abbrev S_ : Shape := ⟨0, ![]⟩
abbrev S2048x2048 : Shape := ⟨2, ![2048, 2048]⟩
abbrev S1x2048x2048 : Shape := ⟨3, ![1, 2048, 2048]⟩
abbrev S1x2048 : Shape := ⟨2, ![1, 2048]⟩
abbrev S2048 : Shape := ⟨1, ![2048]⟩
abbrev S2048x1 : Shape := ⟨2, ![2048, 1]⟩
abbrev S2048x2 : Shape := ⟨2, ![2048, 2]⟩
abbrev S8x3x2048 : Shape := ⟨3, ![8, 3, 2048]⟩
abbrev S8x128x2048 : Shape := ⟨3, ![8, 128, 2048]⟩
abbrev S8x2048 : Shape := ⟨2, ![8, 2048]⟩
abbrev S8x2048x2048 : Shape := ⟨3, ![8, 2048, 2048]⟩
abbrev S8x2048x1 : Shape := ⟨3, ![8, 2048, 1]⟩
abbrev S8x1x2048 : Shape := ⟨3, ![8, 1, 2048]⟩

abbrev nBuf : Space → Nat
  | .hbm => 123
  | .vmem => 0
  | .smem => 0
  | _ => 0

abbrev bufTy : (tb : Table) → Fin (tcTables nBuf tb) → BufTy
  | .hbm, ⟨0, _⟩ => ⟨S8x3x224x224, .f32⟩
  | .hbm, ⟨1, _⟩ => ⟨S8x128x224x224, .f32⟩
  | .hbm, ⟨2, _⟩ => ⟨S2x2048, .i32⟩
  | .hbm, ⟨3, _⟩ => ⟨S2x1, .f32⟩
  | .hbm, ⟨4, _⟩ => ⟨S2x2048, .f32⟩
  | .hbm, ⟨5, _⟩ => ⟨S2x2048, .f32⟩
  | .hbm, ⟨6, _⟩ => ⟨S2x2048, .f32⟩
  | .hbm, ⟨7, _⟩ => ⟨S2x2048x1, .f32⟩
  | .hbm, ⟨8, _⟩ => ⟨S2x1x2048, .f32⟩
  | .hbm, ⟨9, _⟩ => ⟨S2x2048x2048, .f32⟩
  | .hbm, ⟨10, _⟩ => ⟨S2x2048x2048, .f32⟩
  | .hbm, ⟨11, _⟩ => ⟨S2x2048x2048, .f32⟩
  | .hbm, ⟨12, _⟩ => ⟨S2x2048x2048, .f32⟩
  | .hbm, ⟨13, _⟩ => ⟨S_, .f32⟩
  | .hbm, ⟨14, _⟩ => ⟨S2048x2048, .f32⟩
  | .hbm, ⟨15, _⟩ => ⟨S1x2048x2048, .f32⟩
  | .hbm, ⟨16, _⟩ => ⟨S1x2048, .i32⟩
  | .hbm, ⟨17, _⟩ => ⟨S2048, .i32⟩
  | .hbm, ⟨18, _⟩ => ⟨S1x2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S2048x1, .i32⟩
  | .hbm, ⟨35, _⟩ => ⟨S2048x1, .i32⟩
  | .hbm, ⟨36, _⟩ => ⟨S2048x2, .i32⟩
  | .hbm, ⟨37, _⟩ => ⟨S8x3x2048, .f32⟩
  | .hbm, ⟨38, _⟩ => ⟨S1x2048, .i32⟩
  | .hbm, ⟨39, _⟩ => ⟨S2048, .i32⟩
  | .hbm, ⟨40, _⟩ => ⟨S1x2048, .i32⟩
  | .hbm, ⟨41, _⟩ => ⟨S2048, .i32⟩
  | .hbm, ⟨42, _⟩ => ⟨S_, .i32⟩
  | .hbm, ⟨43, _⟩ => ⟨S2048, .i32⟩
  | .hbm, ⟨44, _⟩ => ⟨S2048, .i1⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S_, .i32⟩
  | .hbm, ⟨50, _⟩ => ⟨S2048, .i32⟩
  | .hbm, ⟨51, _⟩ => ⟨S2048, .i1⟩
  | .hbm, ⟨52, _⟩ => ⟨S_, .i32⟩
  | .hbm, ⟨53, _⟩ => ⟨S2048, .i32⟩
  | .hbm, ⟨54, _⟩ => ⟨S2048, .i32⟩
  | .hbm, ⟨55, _⟩ => ⟨S2048, .i32⟩
  | .hbm, ⟨56, _⟩ => ⟨S2048x1, .i32⟩
  | .hbm, ⟨57, _⟩ => ⟨S2048x1, .i32⟩
  | .hbm, ⟨58, _⟩ => ⟨S2048x2, .i32⟩
  | .hbm, ⟨59, _⟩ => ⟨S8x128x2048, .f32⟩
  | .hbm, ⟨60, _⟩ => ⟨S8x3x2048, .f32⟩
  | .hbm, ⟨61, _⟩ => ⟨S_, .f32⟩
  | .hbm, ⟨62, _⟩ => ⟨S8x2048, .f32⟩
  | .hbm, ⟨63, _⟩ => ⟨S8x2048x2048, .f32⟩
  | .hbm, ⟨64, _⟩ => ⟨S8x2048x1, .f32⟩
  | .hbm, ⟨65, _⟩ => ⟨S8x1x2048, .f32⟩
  | .hbm, ⟨66, _⟩ => ⟨S8x2048x2048, .f32⟩
  | .hbm, ⟨67, _⟩ => ⟨S8x2048x2048, .f32⟩
  | .hbm, ⟨68, _⟩ => ⟨S8x2048x2048, .f32⟩
  | .hbm, ⟨69, _⟩ => ⟨S_, .f32⟩
  | .hbm, ⟨70, _⟩ => ⟨S8x2048x2048, .f32⟩
  | .hbm, ⟨71, _⟩ => ⟨S8x2048x2048, .f32⟩
  | .hbm, ⟨72, _⟩ => ⟨S8x2048x2048, .f32⟩
  | .hbm, ⟨73, _⟩ => ⟨S_, .f32⟩
  | .hbm, ⟨74, _⟩ => ⟨S8x2048x2048, .f32⟩
  | .hbm, ⟨75, _⟩ => ⟨S8x2048x2048, .f32⟩
  | .hbm, ⟨76, _⟩ => ⟨S8x128x2048, .f32⟩
  | .hbm, ⟨77, _⟩ => ⟨S_, .f32⟩
  | .hbm, ⟨78, _⟩ => ⟨S8x2048, .f32⟩
  | .hbm, ⟨79, _⟩ => ⟨S8x2048x2048, .f32⟩
  | .hbm, ⟨80, _⟩ => ⟨S8x2048x1, .f32⟩
  | .hbm, ⟨81, _⟩ => ⟨S8x1x2048, .f32⟩
  | .hbm, ⟨82, _⟩ => ⟨S8x2048x2048, .f32⟩
  | .hbm, ⟨83, _⟩ => ⟨S8x2048x2048, .f32⟩
  | .hbm, ⟨84, _⟩ => ⟨S8x2048x2048, .f32⟩
  | .hbm, ⟨85, _⟩ => ⟨S_, .f32⟩
  | .hbm, ⟨86, _⟩ => ⟨S8x2048x2048, .f32⟩
  | .hbm, ⟨87, _⟩ => ⟨S8x2048x2048, .f32⟩
  | .hbm, ⟨88, _⟩ => ⟨S8x2048x2048, .f32⟩
  | .hbm, ⟨89, _⟩ => ⟨S_, .f32⟩
  | .hbm, ⟨90, _⟩ => ⟨S8x2048x2048, .f32⟩
  | .hbm, ⟨91, _⟩ => ⟨S8x2048x2048, .f32⟩
  | .hbm, ⟨92, _⟩ => ⟨S1x2048x2048, .f32⟩
  | .hbm, ⟨93, _⟩ => ⟨S_, .f32⟩
  | .hbm, ⟨94, _⟩ => ⟨S1x2048x2048, .f32⟩
  | .hbm, ⟨95, _⟩ => ⟨S1x2048x2048, .f32⟩
  | .hbm, ⟨96, _⟩ => ⟨S_, .f32⟩
  | .hbm, ⟨97, _⟩ => ⟨S8x2048x2048, .f32⟩
  | .hbm, ⟨98, _⟩ => ⟨S8x2048x2048, .f32⟩
  | .hbm, ⟨99, _⟩ => ⟨S8x2048x2048, .f32⟩
  | .hbm, ⟨100, _⟩ => ⟨S8x2048x2048, .f32⟩
  | .hbm, ⟨101, _⟩ => ⟨S8x2048x2048, .f32⟩
  | .hbm, ⟨102, _⟩ => ⟨S_, .f32⟩
  | .hbm, ⟨103, _⟩ => ⟨S8x2048x2048, .f32⟩
  | .hbm, ⟨104, _⟩ => ⟨S8x2048x2048, .f32⟩
  | .hbm, ⟨105, _⟩ => ⟨S1x2048x2048, .f32⟩
  | .hbm, ⟨106, _⟩ => ⟨S_, .f32⟩
  | .hbm, ⟨107, _⟩ => ⟨S1x2048x2048, .f32⟩
  | .hbm, ⟨108, _⟩ => ⟨S1x2048x2048, .f32⟩
  | .hbm, ⟨109, _⟩ => ⟨S1x2048x2048, .f32⟩
  | .hbm, ⟨110, _⟩ => ⟨S_, .f32⟩
  | .hbm, ⟨111, _⟩ => ⟨S1x2048x2048, .f32⟩
  | .hbm, ⟨112, _⟩ => ⟨S1x2048x2048, .f32⟩
  | .hbm, ⟨113, _⟩ => ⟨S8x2048x2048, .f32⟩
  | .hbm, ⟨114, _⟩ => ⟨S8x2048x2048, .f32⟩
  | .hbm, ⟨115, _⟩ => ⟨S_, .f32⟩
  | .hbm, ⟨116, _⟩ => ⟨S8x2048x2048, .f32⟩
  | .hbm, ⟨117, _⟩ => ⟨S8x2048x2048, .f32⟩
  | .hbm, ⟨118, _⟩ => ⟨S8x2048x2048, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | _, _ => ⟨S8x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_4 : Ref sig .tc := ⟨.hbm, 42, rfl⟩
abbrev main_v33 : Ref sig .tc := ⟨.hbm, 43, rfl⟩
abbrev main_v34 : Ref sig .tc := ⟨.hbm, 44, rfl⟩
abbrev main_c_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_6 : Ref sig .tc := ⟨.hbm, 49, rfl⟩
abbrev main_v38 : Ref sig .tc := ⟨.hbm, 50, rfl⟩
abbrev main_v39 : Ref sig .tc := ⟨.hbm, 51, rfl⟩
abbrev main_c_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_12 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_13 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_14 : Ref sig .tc := ⟨.hbm, 93, rfl⟩
abbrev main_v74 : Ref sig .tc := ⟨.hbm, 94, rfl⟩
abbrev main_v75 : Ref sig .tc := ⟨.hbm, 95, rfl⟩
abbrev main_cst_15 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_16 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_17 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_18 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_19 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_20 : Ref sig .tc := ⟨.hbm, 119, rfl⟩
abbrev main_v94 : Ref sig .tc := ⟨.hbm, 120, rfl⟩
abbrev main_cst_21 : Ref sig .tc := ⟨.hbm, 121, rfl⟩
abbrev main_v95 : Ref sig .tc := ⟨.hbm, 122, rfl⟩

abbrev nD : Nat := 1
abbrev τ : Topo := Topo.v7x

variable {F : FTy → Type} [FloatOps F]

class Facts₀ : Prop where
  bcast_S2x1_S2x2048_0_1 : S2x1.BroadcastsInDim S2x2048 (![0, 1] : Fin 2 → Fin S2x2048.rank)
  bcast_S2x2048_S2x2048x1_0_1 : S2x2048.BroadcastsInDim S2x2048x1 (![0, 1] : Fin 2 → Fin S2x2048x1.rank)
  bcast_S2x2048_S2x1x2048_0_2 : S2x2048.BroadcastsInDim S2x1x2048 (![0, 2] : Fin 2 → Fin S2x1x2048.rank)
  bcast_S2x2048x1_S2x2048x2048_0_1_2 : S2x2048x1.BroadcastsInDim S2x2048x2048 (![0, 1, 2] : Fin 3 → Fin S2x2048x2048.rank)
  bcast_S2x1x2048_S2x2048x2048_0_1_2 : S2x1x2048.BroadcastsInDim S2x2048x2048 (![0, 1, 2] : Fin 3 → Fin S2x2048x2048.rank)
  reducesTo_S2x2048x2048_S2048x2048_d0 : S2x2048x2048.ReducesTo [0] S2048x2048
  h_S_ : 0 < S_.numel
  bcast_S2048x2048_S1x2048x2048_1_2 : S2048x2048.BroadcastsInDim S1x2048x2048 (![1, 2] : Fin 2 → Fin S1x2048x2048.rank)
  slices_S2x2048_S1x2048_0_0 : S2x2048.Slices ![0, 0] S1x2048
  shapeCasts_S1x2048_S2048 : S1x2048.ShapeCasts S2048
  slices_S2x2048_S1x2048_1_0 : S2x2048.Slices ![1, 0] S1x2048
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  reducesTo_S8x3x2048_S8x2048_d1 : S8x3x2048.ReducesTo [1] S8x2048
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x128x2048_S8x2048_d1 : S8x128x2048.ReducesTo [1] S8x2048
  bcast_S_S1x2048x2048 : S_.BroadcastsInDim S1x2048x2048 (![] : Fin 0 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S_d0_1_2 : S8x2048x2048.ReducesTo [0, 1, 2] S_
  gather_S8x3x224x224_S2048x2_S8x3x2048_01_23_n_n_23_1_8311_wf : GatherDims.WF S8x3x224x224 S2048x2 S8x3x2048 [0, 1] [2, 3] [] [2, 3] [] 1 ![8, 3, 1, 1]
  gather_S8x128x224x224_S2048x2_S8x128x2048_01_23_n_n_23_1_812811_wf : GatherDims.WF S8x128x224x224 S2048x2 S8x128x2048 [0, 1] [2, 3] [] [2, 3] [] 1 ![8, 128, 1, 1]
  dot_S8x3x2048_S8x3x2048_S8x2048x2048_1_1_2_2_0_0_wf : DotDims.WF S8x3x2048 S8x3x2048 S8x2048x2048 [1] [1] [2] [2] [0] [0]
  dot_S8x128x2048_S8x128x2048_S8x2048x2048_1_1_2_2_0_0_wf : DotDims.WF S8x128x2048 S8x128x2048 S8x2048x2048 [1] [1] [2] [2] [0] [0]

variable [Facts₀]

def gather_S8x3x224x224_S2048x2_S8x3x2048_01_23_n_n_23_1_8311 : GatherDims S8x3x224x224 S2048x2 S8x3x2048 where
  offsetDims := [0, 1]
  collapsedSliceDims := [2, 3]
  operandBatchingDims := []
  startIndicesBatchingDims := []
  startIndexMap := [2, 3]
  indexVectorDim := 1
  sliceSizes := ![8, 3, 1, 1]
  wf := gather_S8x3x224x224_S2048x2_S8x3x2048_01_23_n_n_23_1_8311_wf
def gather_S8x128x224x224_S2048x2_S8x128x2048_01_23_n_n_23_1_812811 : GatherDims S8x128x224x224 S2048x2 S8x128x2048 where
  offsetDims := [0, 1]
  collapsedSliceDims := [2, 3]
  operandBatchingDims := []
  startIndicesBatchingDims := []
  startIndexMap := [2, 3]
  indexVectorDim := 1
  sliceSizes := ![8, 128, 1, 1]
  wf := gather_S8x128x224x224_S2048x2_S8x128x2048_01_23_n_n_23_1_812811_wf
def dot_S8x3x2048_S8x3x2048_S8x2048x2048_1_1_2_2_0_0 : DotDims S8x3x2048 S8x3x2048 S8x2048x2048 where
  lhsContracting := [1]
  rhsContracting := [1]
  lhsNonContracting := [2]
  rhsNonContracting := [2]
  lhsBatch := [0]
  rhsBatch := [0]
  wf := dot_S8x3x2048_S8x3x2048_S8x2048x2048_1_1_2_2_0_0_wf
def dot_S8x128x2048_S8x128x2048_S8x2048x2048_1_1_2_2_0_0 : DotDims S8x128x2048 S8x128x2048 S8x2048x2048 where
  lhsContracting := [1]
  rhsContracting := [1]
  lhsNonContracting := [2]
  rhsNonContracting := [2]
  lhsBatch := [0]
  rhsBatch := [0]
  wf := dot_S8x128x2048_S8x128x2048_S8x2048x2048_1_1_2_2_0_0_wf

class Facts : Prop extends Facts₀ where

variable [Facts]
-- ==== Proof.KbRuns.lean ====
/-
  The kernel body run once per control case. The body branches twice on the grid coordinates: at the
  first grid point it clears the 1x1 accumulator before adding the tile's sum, at the last grid point
  it divides the accumulator by the element count after adding; at every other point it only adds.
  Each run states, over arbitrary whole staging buffers holding the six input blocks, that the body
  terminates, leaves the inputs as they were and the accumulator buffer overwritten by a list of
  pieces that the run itself finds.
-/
import proofs.«102172_j73212012528100_1_alg».proof.Proof.Gen.Kernel.Launch
import proofs.«102172_j73212012528100_1_alg».proof.Proof.Gen.Kernel.Skeleton
import proofs.«102172_j73212012528100_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body clears the accumulator exactly when both grid coordinates are zero. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The body divides the accumulator exactly when both grid coordinates are seven. -/
abbrev condLast (i : grid0.Coords) : Prop :=
  (Scalar.cmpi .ne (Scalar.extui (Scalar.andi (Scalar.cmpi .eq (BitVec.ofNat 32 (i 0).val) 7#32) (Scalar.cmpi .eq (BitVec.ofNat 32 (i 1).val) 7#32))) 0#32) = 1#1

/-- Over the 64 grid points in row-major order the clearing point is point 0, -/
theorem condFirst_iff : ∀ t : Fin cfg0.N, condFirst (grid0.coords t) ↔ t.val = 0 :=
  (by decide +kernel : ∀ t : Fin grid0.N, condFirst (grid0.coords t) ↔ t.val = 0)
/-- and the dividing point is point 63. -/
theorem condLast_iff : ∀ t : Fin cfg0.N, condLast (grid0.coords t) ↔ t.val = 63 :=
  (by decide +kernel : ∀ t : Fin grid0.N, condLast (grid0.coords t) ↔ t.val = 63)

section Runs

variable (c : Dev nD) (i : grid0.Coords)
  (arg2 : Memref sig .tc .vmem S8x256x128 .f32) (harg2 : arg2.IsWhole) (arg3 : Memref sig .tc .vmem S8x256x128 .f32) (harg3 : arg3.IsWhole)
  (arg4 : Memref sig .tc .vmem S8x256x3 .f32) (harg4 : arg4.IsWhole) (arg5 : Memref sig .tc .vmem S8x256x3 .f32) (harg5 : arg5.IsWhole)
  (arg6 : Memref sig .tc .vmem S256x2 .f32) (harg6 : arg6.IsWhole) (arg7 : Memref sig .tc .vmem S256x2 .f32) (harg7 : arg7.IsWhole)
  (arg8 : Memref sig .tc .vmem S1x1 .f32) (harg8 : arg8.IsWhole)
  (x0 x1 : Vec F S8x256x128 .f32) (x2 x3 : Vec F S8x256x3 .f32) (x4 x5 : Vec F S256x2 .f32)

/-- The six input staging buffers at their blocks. -/
abbrev insOwned : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

set_option maxHeartbeats 4000000 in
/-- The first grid point: the accumulator buffer may hold anything; it is cleared, then the tile's sum is added. -/
noncomputable def runFirst (hc0 : condFirst i) (hc1 : ¬condLast i) :
    { L : List (View.Piece (Elt F) S1x1 .f32) //
      ∀ (E : Set ℕ) (K : PUnit → sProp 𝕄),
        iprop(insOwned (F := F) c arg2 arg3 arg4 arg5 arg6 arg7 x0 x1 x2 x3 x4 x5 ∗ (∃ d, owns (c : Thread nD τ) arg8 fullShare d)
            ∗ (iprop(insOwned (F := F) c arg2 arg3 arg4 arg5 arg6 arg7 x0 x1 x2 x3 x4 x5 ∗ (∃ f, arg8.view.loc (c : Thread nD τ) ↦[arg8.view.set]{fullShare} arg8.view.writes (Elt F) f L)) -∗ K ⟨⟩))
          ⊢ wp frame (wpE (defs₀ (F := F)) Variants.none c none) E (cc0__crf_kernel i arg2 harg2 arg3 harg3 arg4 harg4 arg5 harg5 arg6 harg6 arg7 harg7 arg8 harg8) K } := by
  refine ⟨?_, fun E K => ?run⟩
  case run =>
    simp only [cc0__crf_kernel_eq_skeleton]; unfold cc0__crf_kernel_skel
    simp only [k0_part1_eq_skeleton, k0_part2_eq_skeleton]
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitr [H6]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      · iexists _; isplitr; · ipureintro; exact harg7.read_unread _
        iexact H5
    iexists _; iexact H6

set_option maxHeartbeats 4000000 in
/-- A middle grid point: the tile's sum is added to what the accumulator buffer holds. -/
noncomputable def runMid (hc0 : ¬condFirst i) (hc1 : ¬condLast i) (xo : Vec F S1x1 .f32) :
    { L : List (View.Piece (Elt F) S1x1 .f32) //
      ∀ (E : Set ℕ) (K : PUnit → sProp 𝕄),
        iprop(insOwned (F := F) c arg2 arg3 arg4 arg5 arg6 arg7 x0 x1 x2 x3 x4 x5 ∗ owns (c : Thread nD τ) arg8 fullShare xo
            ∗ (iprop(insOwned (F := F) c arg2 arg3 arg4 arg5 arg6 arg7 x0 x1 x2 x3 x4 x5 ∗ (∃ f, arg8.view.loc (c : Thread nD τ) ↦[arg8.view.set]{fullShare} arg8.view.writes (Elt F) f L)) -∗ K ⟨⟩))
          ⊢ wp frame (wpE (defs₀ (F := F)) Variants.none c none) E (cc0__crf_kernel i arg2 harg2 arg3 harg3 arg4 harg4 arg5 harg5 arg6 harg6 arg7 harg7 arg8 harg8) K } := by
  refine ⟨?_, fun E K => ?run⟩
  case run =>
    simp only [cc0__crf_kernel_eq_skeleton]; unfold cc0__crf_kernel_skel
    simp only [k0_part1_eq_skeleton, k0_part2_eq_skeleton]
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec (disch := first | exact hc0 | exact hc1)
    sl_step
    iapply Hk
    isplitr [H6]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      · iexists _; isplitr; · ipureintro; exact harg7.read_unread _
        iexact H5
    iexists _; iexact H6

set_option maxHeartbeats 4000000 in
/-- The last grid point: the tile's sum is added to what the accumulator buffer holds and the total is divided by the element count. -/
noncomputable def runLast (hc0 : ¬condFirst i) (hc1 : condLast i) (xo : Vec F S1x1 .f32) :
    { L : List (View.Piece (Elt F) S1x1 .f32) //
      ∀ (E : Set ℕ) (K : PUnit → sProp 𝕄),
        iprop(insOwned (F := F) c arg2 arg3 arg4 arg5 arg6 arg7 x0 x1 x2 x3 x4 x5 ∗ owns (c : Thread nD τ) arg8 fullShare xo
            ∗ (iprop(insOwned (F := F) c arg2 arg3 arg4 arg5 arg6 arg7 x0 x1 x2 x3 x4 x5 ∗ (∃ f, arg8.view.loc (c : Thread nD τ) ↦[arg8.view.set]{fullShare} arg8.view.writes (Elt F) f L)) -∗ K ⟨⟩))
          ⊢ wp frame (wpE (defs₀ (F := F)) Variants.none c none) E (cc0__crf_kernel i arg2 harg2 arg3 harg3 arg4 harg4 arg5 harg5 arg6 harg6 arg7 harg7 arg8 harg8) K } := by
  refine ⟨?_, fun E K => ?run⟩
  case run =>
    simp only [cc0__crf_kernel_eq_skeleton]; unfold cc0__crf_kernel_skel
    simp only [k0_part1_eq_skeleton, k0_part2_eq_skeleton]
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec (disch := first | exact hc0 | exact hc1)
    sl_step
    iapply Hk
    isplitr [H6]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      · iexists _; isplitr; · ipureintro; exact harg7.read_unread _
        iexact H5
    iexists _; iexact H6

end Runs

end Cert.Kernel.Hand

end
-- ==== Proof.KbData.lean ====
/-
  The proof data of the one pallas_call: what every window's staging buffer holds after the body at each
  of the 64 grid points. The six input windows keep their blocks. The 1x1 output window is an accumulator
  carried from point to point and written back only after the last point: after point 0 it holds what the
  first-point run leaves, after point n + 1 what the middle-point (or, at point 63, the last-point) run
  leaves when it starts from the contents after point n.
-/
import proofs.«102172_j73212012528100_1_alg».proof.Proof.KbRuns
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, -/
abbrev V₀ (c : Dev nD) : Valuation τ sig (Elt F) := fun b => (s₀ m ρ).mem ((c : Dev nD), b)
/-- and when the region is entered: the 61 host operations before it have run. -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## The staging buffers at a point -/

abbrev ms0 (t : Fin cfg0.N) : Memref sig .tc .vmem S8x256x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256x3 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x256x3 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x2 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x2 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
/-- One staging buffer of the output window, through which its contents are stated. -/
abbrev VO : View sig .tc .vmem S1x1 .f32 := (Memref.whole cc0_stg6_0 : Memref sig .tc .vmem S1x1 .f32).view

/-! ## What each case leaves in the accumulator buffer -/

/-- The pieces the run of this case stores cover the 1x1 block. -/
theorem coverFirst (c : Dev nD) (i : grid0.Coords)
    (arg2 : Memref sig .tc .vmem S8x256x128 .f32) (harg2 : arg2.IsWhole) (arg3 : Memref sig .tc .vmem S8x256x128 .f32) (harg3 : arg3.IsWhole)
    (arg4 : Memref sig .tc .vmem S8x256x3 .f32) (harg4 : arg4.IsWhole) (arg5 : Memref sig .tc .vmem S8x256x3 .f32) (harg5 : arg5.IsWhole)
    (arg6 : Memref sig .tc .vmem S256x2 .f32) (harg6 : arg6.IsWhole) (arg7 : Memref sig .tc .vmem S256x2 .f32) (harg7 : arg7.IsWhole)
    (arg8 : Memref sig .tc .vmem S1x1 .f32) (harg8 : arg8.IsWhole)
    (x0 x1 : Vec F S8x256x128 .f32) (x2 x3 : Vec F S8x256x3 .f32) (x4 x5 : Vec F S256x2 .f32) (hc0 : condFirst i) (hc1 : ¬condLast i) (y : S1x1.Idx) :
    ∃ pc ∈ (runFirst (F := F) c i arg2 harg2 arg3 harg3 arg4 harg4 arg5 harg5 arg6 harg6 arg7 harg7 arg8 harg8 x0 x1 x2 x3 x4 x5 hc0 hc1).1, y ∈ pc.1.set :=
  View.cover_of_tiledL (runFirst (F := F) c i arg2 harg2 arg3 harg3 arg4 harg4 arg5 harg5 arg6 harg6 arg7 harg7 arg8 harg8 x0 x1 x2 x3 x4 x5 hc0 hc1).1 S1x1.size (by sl_kernel_rfl) y

/-- What this case leaves in the accumulator buffer: its pieces read back. -/
def outFirst (c : Dev nD) (i : grid0.Coords)
    (arg2 : Memref sig .tc .vmem S8x256x128 .f32) (harg2 : arg2.IsWhole) (arg3 : Memref sig .tc .vmem S8x256x128 .f32) (harg3 : arg3.IsWhole)
    (arg4 : Memref sig .tc .vmem S8x256x3 .f32) (harg4 : arg4.IsWhole) (arg5 : Memref sig .tc .vmem S8x256x3 .f32) (harg5 : arg5.IsWhole)
    (arg6 : Memref sig .tc .vmem S256x2 .f32) (harg6 : arg6.IsWhole) (arg7 : Memref sig .tc .vmem S256x2 .f32) (harg7 : arg7.IsWhole)
    (arg8 : Memref sig .tc .vmem S1x1 .f32) (harg8 : arg8.IsWhole)
    (x0 x1 : Vec F S8x256x128 .f32) (x2 x3 : Vec F S8x256x3 .f32) (x4 x5 : Vec F S256x2 .f32) (hc0 : condFirst i) (hc1 : ¬condLast i) : Vec F S1x1 .f32 :=
  VO.read (Elt F) (VO.writes (Elt F) VO.junk (runFirst (F := F) c i arg2 harg2 arg3 harg3 arg4 harg4 arg5 harg5 arg6 harg6 arg7 harg7 arg8 harg8 x0 x1 x2 x3 x4 x5 hc0 hc1).1)

/-- The pieces the run of this case stores cover the 1x1 block. -/
theorem coverMid (c : Dev nD) (i : grid0.Coords)
    (arg2 : Memref sig .tc .vmem S8x256x128 .f32) (harg2 : arg2.IsWhole) (arg3 : Memref sig .tc .vmem S8x256x128 .f32) (harg3 : arg3.IsWhole)
    (arg4 : Memref sig .tc .vmem S8x256x3 .f32) (harg4 : arg4.IsWhole) (arg5 : Memref sig .tc .vmem S8x256x3 .f32) (harg5 : arg5.IsWhole)
    (arg6 : Memref sig .tc .vmem S256x2 .f32) (harg6 : arg6.IsWhole) (arg7 : Memref sig .tc .vmem S256x2 .f32) (harg7 : arg7.IsWhole)
    (arg8 : Memref sig .tc .vmem S1x1 .f32) (harg8 : arg8.IsWhole)
    (x0 x1 : Vec F S8x256x128 .f32) (x2 x3 : Vec F S8x256x3 .f32) (x4 x5 : Vec F S256x2 .f32) (hc0 : ¬condFirst i) (hc1 : ¬condLast i) (xo : Vec F S1x1 .f32) (y : S1x1.Idx) :
    ∃ pc ∈ (runMid (F := F) c i arg2 harg2 arg3 harg3 arg4 harg4 arg5 harg5 arg6 harg6 arg7 harg7 arg8 harg8 x0 x1 x2 x3 x4 x5 hc0 hc1 xo).1, y ∈ pc.1.set :=
  View.cover_of_tiledL (runMid (F := F) c i arg2 harg2 arg3 harg3 arg4 harg4 arg5 harg5 arg6 harg6 arg7 harg7 arg8 harg8 x0 x1 x2 x3 x4 x5 hc0 hc1 xo).1 S1x1.size (by sl_kernel_rfl) y

/-- What this case leaves in the accumulator buffer: its pieces read back. -/
def outMid (c : Dev nD) (i : grid0.Coords)
    (arg2 : Memref sig .tc .vmem S8x256x128 .f32) (harg2 : arg2.IsWhole) (arg3 : Memref sig .tc .vmem S8x256x128 .f32) (harg3 : arg3.IsWhole)
    (arg4 : Memref sig .tc .vmem S8x256x3 .f32) (harg4 : arg4.IsWhole) (arg5 : Memref sig .tc .vmem S8x256x3 .f32) (harg5 : arg5.IsWhole)
    (arg6 : Memref sig .tc .vmem S256x2 .f32) (harg6 : arg6.IsWhole) (arg7 : Memref sig .tc .vmem S256x2 .f32) (harg7 : arg7.IsWhole)
    (arg8 : Memref sig .tc .vmem S1x1 .f32) (harg8 : arg8.IsWhole)
    (x0 x1 : Vec F S8x256x128 .f32) (x2 x3 : Vec F S8x256x3 .f32) (x4 x5 : Vec F S256x2 .f32) (hc0 : ¬condFirst i) (hc1 : ¬condLast i) (xo : Vec F S1x1 .f32) : Vec F S1x1 .f32 :=
  VO.read (Elt F) (VO.writes (Elt F) VO.junk (runMid (F := F) c i arg2 harg2 arg3 harg3 arg4 harg4 arg5 harg5 arg6 harg6 arg7 harg7 arg8 harg8 x0 x1 x2 x3 x4 x5 hc0 hc1 xo).1)

/-- The pieces the run of this case stores cover the 1x1 block. -/
theorem coverLast (c : Dev nD) (i : grid0.Coords)
    (arg2 : Memref sig .tc .vmem S8x256x128 .f32) (harg2 : arg2.IsWhole) (arg3 : Memref sig .tc .vmem S8x256x128 .f32) (harg3 : arg3.IsWhole)
    (arg4 : Memref sig .tc .vmem S8x256x3 .f32) (harg4 : arg4.IsWhole) (arg5 : Memref sig .tc .vmem S8x256x3 .f32) (harg5 : arg5.IsWhole)
    (arg6 : Memref sig .tc .vmem S256x2 .f32) (harg6 : arg6.IsWhole) (arg7 : Memref sig .tc .vmem S256x2 .f32) (harg7 : arg7.IsWhole)
    (arg8 : Memref sig .tc .vmem S1x1 .f32) (harg8 : arg8.IsWhole)
    (x0 x1 : Vec F S8x256x128 .f32) (x2 x3 : Vec F S8x256x3 .f32) (x4 x5 : Vec F S256x2 .f32) (hc0 : ¬condFirst i) (hc1 : condLast i) (xo : Vec F S1x1 .f32) (y : S1x1.Idx) :
    ∃ pc ∈ (runLast (F := F) c i arg2 harg2 arg3 harg3 arg4 harg4 arg5 harg5 arg6 harg6 arg7 harg7 arg8 harg8 x0 x1 x2 x3 x4 x5 hc0 hc1 xo).1, y ∈ pc.1.set :=
  View.cover_of_tiledL (runLast (F := F) c i arg2 harg2 arg3 harg3 arg4 harg4 arg5 harg5 arg6 harg6 arg7 harg7 arg8 harg8 x0 x1 x2 x3 x4 x5 hc0 hc1 xo).1 S1x1.size (by sl_kernel_rfl) y

/-- What this case leaves in the accumulator buffer: its pieces read back. -/
def outLast (c : Dev nD) (i : grid0.Coords)
    (arg2 : Memref sig .tc .vmem S8x256x128 .f32) (harg2 : arg2.IsWhole) (arg3 : Memref sig .tc .vmem S8x256x128 .f32) (harg3 : arg3.IsWhole)
    (arg4 : Memref sig .tc .vmem S8x256x3 .f32) (harg4 : arg4.IsWhole) (arg5 : Memref sig .tc .vmem S8x256x3 .f32) (harg5 : arg5.IsWhole)
    (arg6 : Memref sig .tc .vmem S256x2 .f32) (harg6 : arg6.IsWhole) (arg7 : Memref sig .tc .vmem S256x2 .f32) (harg7 : arg7.IsWhole)
    (arg8 : Memref sig .tc .vmem S1x1 .f32) (harg8 : arg8.IsWhole)
    (x0 x1 : Vec F S8x256x128 .f32) (x2 x3 : Vec F S8x256x3 .f32) (x4 x5 : Vec F S256x2 .f32) (hc0 : ¬condFirst i) (hc1 : condLast i) (xo : Vec F S1x1 .f32) : Vec F S1x1 .f32 :=
  VO.read (Elt F) (VO.writes (Elt F) VO.junk (runLast (F := F) c i arg2 harg2 arg3 harg3 arg4 harg4 arg5 harg5 arg6 harg6 arg7 harg7 arg8 harg8 x0 x1 x2 x3 x4 x5 hc0 hc1 xo).1)

/-! ## The accumulator after each point -/

/-- The accumulator buffer's contents after the body at position `n`. -/
def accAt (c : Dev nD) : (n : ℕ) → n < cfg0.N → Vec F S1x1 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (iblk m ρ c 0 ⟨0, hn⟩) (iblk m ρ c 1 ⟨0, hn⟩) (iblk m ρ c 2 ⟨0, hn⟩) (iblk m ρ c 3 ⟨0, hn⟩) (iblk m ρ c 4 ⟨0, hn⟩) (iblk m ρ c 5 ⟨0, hn⟩)
      ((condFirst_iff ⟨0, hn⟩).mpr rfl) (fun h => absurd ((condLast_iff ⟨0, hn⟩).mp h) (show (0 : ℕ) ≠ 63 by decide))
  | n + 1, hn =>
    if h : n + 1 = 63 then
      outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (iblk m ρ c 0 ⟨n + 1, hn⟩) (iblk m ρ c 1 ⟨n + 1, hn⟩) (iblk m ρ c 2 ⟨n + 1, hn⟩) (iblk m ρ c 3 ⟨n + 1, hn⟩) (iblk m ρ c 4 ⟨n + 1, hn⟩) (iblk m ρ c 5 ⟨n + 1, hn⟩)
        (fun h' => absurd ((condFirst_iff ⟨n + 1, hn⟩).mp h') (Nat.succ_ne_zero n)) ((condLast_iff ⟨n + 1, hn⟩).mpr h) (accAt c n (Nat.lt_of_succ_lt hn))
    else
      outMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (iblk m ρ c 0 ⟨n + 1, hn⟩) (iblk m ρ c 1 ⟨n + 1, hn⟩) (iblk m ρ c 2 ⟨n + 1, hn⟩) (iblk m ρ c 3 ⟨n + 1, hn⟩) (iblk m ρ c 4 ⟨n + 1, hn⟩) (iblk m ρ c 5 ⟨n + 1, hn⟩)
        (fun h' => absurd ((condFirst_iff ⟨n + 1, hn⟩).mp h') (Nat.succ_ne_zero n)) (fun h' => h ((condLast_iff ⟨n + 1, hn⟩).mp h')) (accAt c n (Nat.lt_of_succ_lt hn))

theorem accAt_first (c : Dev nD) (t : Fin cfg0.N) (h0 : t.val = 0) :
    accAt m ρ c t.val t.isLt = outFirst c (grid0.coords t) (ms0 t) (hs0 t) (ms1 t) (hs1 t) (ms2 t) (hs2 t) (ms3 t) (hs3 t) (ms4 t) (hs4 t) (ms5 t) (hs5 t) (ms6 t) (hs6 t) (iblk m ρ c 0 t) (iblk m ρ c 1 t) (iblk m ρ c 2 t) (iblk m ρ c 3 t) (iblk m ρ c 4 t) (iblk m ρ c 5 t)
      ((condFirst_iff t).mpr h0) (fun h => absurd (((condLast_iff t).mp h).symm.trans h0) (by decide)) := by
  obtain ⟨n, hn⟩ := t
  cases n with
  | zero => exact rfl
  | succ n => exact absurd h0 (Nat.succ_ne_zero n)

theorem accAt_mid (c : Dev nD) (t : Fin cfg0.N) (h0 : t.val ≠ 0) (h1 : t.val ≠ 63) :
    accAt m ρ c t.val t.isLt = outMid c (grid0.coords t) (ms0 t) (hs0 t) (ms1 t) (hs1 t) (ms2 t) (hs2 t) (ms3 t) (hs3 t) (ms4 t) (hs4 t) (ms5 t) (hs5 t) (ms6 t) (hs6 t) (iblk m ρ c 0 t) (iblk m ρ c 1 t) (iblk m ρ c 2 t) (iblk m ρ c 3 t) (iblk m ρ c 4 t) (iblk m ρ c 5 t)
      (fun h => h0 ((condFirst_iff t).mp h)) (fun h => h1 ((condLast_iff t).mp h))
      (accAt m ρ c (t.val - 1) (Nat.lt_of_le_of_lt (Nat.sub_le _ _) t.isLt)) := by
  obtain ⟨n, hn⟩ := t
  cases n with
  | zero => exact absurd rfl h0
  | succ n => exact (dif_neg h1).trans rfl

theorem accAt_last (c : Dev nD) (t : Fin cfg0.N) (h0 : t.val ≠ 0) (h1 : t.val = 63) :
    accAt m ρ c t.val t.isLt = outLast c (grid0.coords t) (ms0 t) (hs0 t) (ms1 t) (hs1 t) (ms2 t) (hs2 t) (ms3 t) (hs3 t) (ms4 t) (hs4 t) (ms5 t) (hs5 t) (ms6 t) (hs6 t) (iblk m ρ c 0 t) (iblk m ρ c 1 t) (iblk m ρ c 2 t) (iblk m ρ c 3 t) (iblk m ρ c 4 t) (iblk m ρ c 5 t)
      (fun h => h0 ((condFirst_iff t).mp h)) ((condLast_iff t).mpr h1)
      (accAt m ρ c (t.val - 1) (Nat.lt_of_le_of_lt (Nat.sub_le _ _) t.isLt)) := by
  obtain ⟨n, hn⟩ := t
  cases n with
  | zero => exact absurd rfl h0
  | succ n => exact (dif_pos h1).trans rfl

/-! ## The proof data -/

/-- Two windows read each of the three input arrays: the first of a pair holds the left half of the array's share,
    the second the right half. -/
def shareOf (w : Fin cfg0.W) : PosShare TreeShare := if w.val % 2 = 0 then fullShare.left else fullShare.right

def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => iblk m ρ c 5 t
    | ⟨6, _⟩ => accAt m ρ c t.val t.isLt
  Φ _ := Pipeline.ΦA spec0 c
  q w := shareOf w
  owed _ := 0

theorem A_eq (c : Dev nD) (w : Fin cfg0.W) : (dats m ρ 0 c).A w = V m ρ c (Pipeline.arrRef spec0 w) := by
  dsimp only [dats]

theorem after0 (c : Dev nD) (t : Fin cfg0.N) : (dats m ρ 0 c).after 0 t = iblk m ρ c 0 t := by dsimp only [dats]
theorem after1 (c : Dev nD) (t : Fin cfg0.N) : (dats m ρ 0 c).after 1 t = iblk m ρ c 1 t := by dsimp only [dats]
theorem after2 (c : Dev nD) (t : Fin cfg0.N) : (dats m ρ 0 c).after 2 t = iblk m ρ c 2 t := by dsimp only [dats]
theorem after3 (c : Dev nD) (t : Fin cfg0.N) : (dats m ρ 0 c).after 3 t = iblk m ρ c 3 t := by dsimp only [dats]
theorem after4 (c : Dev nD) (t : Fin cfg0.N) : (dats m ρ 0 c).after 4 t = iblk m ρ c 4 t := by dsimp only [dats]
theorem after5 (c : Dev nD) (t : Fin cfg0.N) : (dats m ρ 0 c).after 5 t = iblk m ρ c 5 t := by dsimp only [dats]
theorem after6 (c : Dev nD) (t : Fin cfg0.N) : (dats m ρ 0 c).after 6 t = accAt m ρ c t.val t.isLt := by dsimp only [dats]

/-- Input window 0's current staging buffer holds its block at every point, fetched there or not. -/
theorem before0 (c : Dev nD) (t : Fin cfg0.N) (d) : (dats m ρ 0 c).before 0 t d = iblk m ρ c 0 t :=
  ((dats m ρ 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
/-- Input window 1's current staging buffer holds its block at every point, fetched there or not. -/
theorem before1 (c : Dev nD) (t : Fin cfg0.N) (d) : (dats m ρ 0 c).before 1 t d = iblk m ρ c 1 t :=
  ((dats m ρ 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
/-- Input window 2's current staging buffer holds its block at every point, fetched there or not. -/
theorem before2 (c : Dev nD) (t : Fin cfg0.N) (d) : (dats m ρ 0 c).before 2 t d = iblk m ρ c 2 t :=
  ((dats m ρ 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
/-- Input window 3's current staging buffer holds its block at every point, fetched there or not. -/
theorem before3 (c : Dev nD) (t : Fin cfg0.N) (d) : (dats m ρ 0 c).before 3 t d = iblk m ρ c 3 t :=
  ((dats m ρ 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
/-- Input window 4's current staging buffer holds its block at every point, fetched there or not. -/
theorem before4 (c : Dev nD) (t : Fin cfg0.N) (d) : (dats m ρ 0 c).before 4 t d = iblk m ρ c 4 t :=
  ((dats m ρ 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
/-- Input window 5's current staging buffer holds its block at every point, fetched there or not. -/
theorem before5 (c : Dev nD) (t : Fin cfg0.N) (d) : (dats m ρ 0 c).before 5 t d = iblk m ρ c 5 t :=
  ((dats m ρ 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

/-- At the first point the accumulator buffer holds anything. -/
theorem before6_first (c : Dev nD) (t : Fin cfg0.N) (h0 : t.val = 0) (d) : (dats m ρ 0 c).before 6 t d = d :=
  Dat.before_out_reset _ 6 rfl t (.inl h0) d

/-- At a later point it holds what the body left at the point before: it is not written back in between. -/
theorem before6_later (c : Dev nD) (t : Fin cfg0.N) (h0 : t.val ≠ 0) (d) :
    (dats m ρ 0 c).before 6 t d = accAt m ρ c (t.val - 1) (Nat.lt_of_le_of_lt (Nat.sub_le _ _) t.isLt) := by
  have hN : t.val < 64 := lt_of_lt_of_eq t.isLt (show cfg0.N = 64 from N_0)
  rw [Dat.before_out_kept _ 6 rfl t h0 (Bool.eq_false_iff.mpr fun h => by have := (flush0_6 _).mp h; dsimp only at this; omega)
    (fun _ => rfl) (fun _ _ => rfl)]
  dsimp only [dats]

end Cert.Kernel.Hand

end
-- ==== Proof.KbBody.lean ====
/-
  The body obligation of the pallas_call at a generic grid point: the six input staging buffers hold their
  blocks, the point is the first one, a middle one or the last one, and the accumulator buffer holds anything
  (first point) or what the point before left (later points); the matching run of the body then leaves the
  inputs in place and the accumulator at the next contents of the recursion.
-/
import proofs.«102172_j73212012528100_1_alg».proof.Proof.KbData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (ms0 t) fullShare ((dats m ρ 0 c).before 0 t d))
    ∗ (∃ d, owns (c : Thread nD τ) (ms1 t) fullShare ((dats m ρ 0 c).before 1 t d))
    ∗ (∃ d, owns (c : Thread nD τ) (ms2 t) fullShare ((dats m ρ 0 c).before 2 t d))
    ∗ (∃ d, owns (c : Thread nD τ) (ms3 t) fullShare ((dats m ρ 0 c).before 3 t d))
    ∗ (∃ d, owns (c : Thread nD τ) (ms4 t) fullShare ((dats m ρ 0 c).before 4 t d))
    ∗ (∃ d, owns (c : Thread nD τ) (ms5 t) fullShare ((dats m ρ 0 c).before 5 t d))
    ∗ (∃ d, owns (c : Thread nD τ) (ms6 t) fullShare ((dats m ρ 0 c).before 6 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (ms0 t) fullShare ((dats m ρ 0 c).after 0 t)
    ∗ owns (c : Thread nD τ) (ms1 t) fullShare ((dats m ρ 0 c).after 1 t)
    ∗ owns (c : Thread nD τ) (ms2 t) fullShare ((dats m ρ 0 c).after 2 t)
    ∗ owns (c : Thread nD τ) (ms3 t) fullShare ((dats m ρ 0 c).after 3 t)
    ∗ owns (c : Thread nD τ) (ms4 t) fullShare ((dats m ρ 0 c).after 4 t)
    ∗ owns (c : Thread nD τ) (ms5 t) fullShare ((dats m ρ 0 c).after 5 t)
    ∗ owns (c : Thread nD τ) (ms6 t) fullShare ((dats m ρ 0 c).after 6 t))

set_option maxHeartbeats 1600000 in
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0, before1, before2, before3, before4, before5]
  rw [show (dats m ρ 0 c).Φ t.succ = (dats m ρ 0 c).Φ t.castSucc from rfl,
    show (dats m ρ 0 c).owesAt () t.succ = (dats m ρ 0 c).owesAt () t.castSucc from rfl,
    after0, after1, after2, after3, after4, after5, after6]
  have hN : t.val < 64 := lt_of_lt_of_eq t.isLt (show cfg0.N = 64 from N_0)
  by_cases h0 : t.val = 0
  · simp only [before6_first m ρ c t h0]
    rw [accAt_first m ρ c t h0]
    unfold outFirst
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst (F := F) c (grid0.coords t) _ _ _ _ _ _ _ _ _ _ _ _ _ _ (iblk m ρ c 0 t) (iblk m ρ c 1 t) (iblk m ρ c 2 t) (iblk m ρ c 3 t) (iblk m ρ c 4 t) (iblk m ρ c 5 t) ((condFirst_iff t).mpr h0) (fun h => absurd (((condLast_iff t).mp h).symm.trans h0) (by decide))).2 Set.univ _)
    isplitl [H0 H1 H2 H3 H4 H5]
    · unfold insOwned
      isplitl [H0]; · iexact H0
      isplitl [H1]; · iexact H1
      isplitl [H2]; · iexact H2
      isplitl [H3]; · iexact H3
      isplitl [H4]; · iexact H4
      iexact H5
    isplitl [H6]; · iexists _; iexact H6
    iintro ⟨Hin, ⟨%e6, H6⟩⟩
    unfold insOwned
    icases Hin with ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverFirst c _ _ _ _ _ _ _ _ _ _ _ _ _ _ _ _ _ _ _ _ _ _ _)
  · simp only [before6_later m ρ c t h0]
    by_cases h1 : t.val = 63
    ·
      rw [accAt_last m ρ c t h0 h1]
      unfold outLast
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runLast (F := F) c (grid0.coords t) _ _ _ _ _ _ _ _ _ _ _ _ _ _ (iblk m ρ c 0 t) (iblk m ρ c 1 t) (iblk m ρ c 2 t) (iblk m ρ c 3 t) (iblk m ρ c 4 t) (iblk m ρ c 5 t) (fun h => h0 ((condFirst_iff t).mp h)) ((condLast_iff t).mpr h1) _).2 Set.univ _)
      isplitl [H0 H1 H2 H3 H4 H5]
      · unfold insOwned
        isplitl [H0]; · iexact H0
        isplitl [H1]; · iexact H1
        isplitl [H2]; · iexact H2
        isplitl [H3]; · iexact H3
        isplitl [H4]; · iexact H4
        iexact H5
      isplitl [H6]; · iexact H6
      iintro ⟨Hin, ⟨%e6, H6⟩⟩
      unfold insOwned
      icases Hin with ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLast c _ _ _ _ _ _ _ _ _ _ _ _ _ _ _ _ _ _ _ _ _ _ _ _)
    ·
      rw [accAt_mid m ρ c t h0 h1]
      unfold outMid
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runMid (F := F) c (grid0.coords t) _ _ _ _ _ _ _ _ _ _ _ _ _ _ (iblk m ρ c 0 t) (iblk m ρ c 1 t) (iblk m ρ c 2 t) (iblk m ρ c 3 t) (iblk m ρ c 4 t) (iblk m ρ c 5 t) (fun h => h0 ((condFirst_iff t).mp h)) (fun h => h1 ((condLast_iff t).mp h)) _).2 Set.univ _)
      isplitl [H0 H1 H2 H3 H4 H5]
      · unfold insOwned
        isplitl [H0]; · iexact H0
        isplitl [H1]; · iexact H1
        isplitl [H2]; · iexact H2
        isplitl [H3]; · iexact H3
        isplitl [H4]; · iexact H4
        iexact H5
      isplitl [H6]; · iexact H6
      iintro ⟨Hin, ⟨%e6, H6⟩⟩
      unfold insOwned
      icases Hin with ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverMid c _ _ _ _ _ _ _ _ _ _ _ _ _ _ _ _ _ _ _ _ _ _ _ _)

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.Kernel.Hand

end
-- ==== Proof.KbEntry.lean ====
/-
  The thread states around the one pallas_call. Before it run 61 host operations over all unscoped buffers; the
  region then takes the four arrays its windows read or write — three input arrays, each read by TWO windows (one
  indexed by the row tile, one by the column tile), so each array's ownership is dealt to its two windows in halves,
  and the 1x1 output array, owned whole — while the program's result buffer and the three arguments bypass it; after
  it one host operation reshapes the kernel's 1x1 result into the scalar result.
-/
import proofs.«102172_j73212012528100_1_alg».proof.Proof.KbBody
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers through the host operations: the core's debts (none) and the generator register. -/
abbrev R (c : Dev nD) : sProp 𝕄 := iprop((∃ r, prngReg c r) ∗ ∃ W, owes (c : Thread nD τ) (0 : CellTallies nD τ sig Unit) W)

/-- The host operations before the region, over all unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m ρ) R

/-- The buffers the rest of the program still speaks of after the region: the kernel's result, the program's result and the three arguments. -/
def S1 : Finset (DevRef τ sig) := {Proc.devRef .tc main_v51, Proc.devRef .tc main_v52, Proc.devRef .tc main_arg0, Proc.devRef .tc main_arg1, Proc.devRef .tc main_arg2}

/-- Their contents when the region is left: the kernel's result as the pipeline wrote it back, the others as the region found them. -/
def V1 (c : Dev nD) : Valuation τ sig (Elt F) :=
  Function.update (StableHlo.after hostOps0 (V₀ m ρ c)) (Proc.devRef .tc main_v51) ((dats m ρ 0 c).arrAt 6 cfg0.N)

/-- The one host operation after the region. -/
def seg1 : Pipeline.HostSeg (Name := ℕ) (U := UR sig nD τ) (pcfgs (F := F)) defs₀ 𝒱₀ L lv :=
  Pipeline.HostSeg.ofOps _ _ _ _ _ S1 hostOps1
    (by intro op h; obtain rfl := List.mem_singleton.mp h; rw [StableHlo.reshape_bufs]; decide)
    (by intro _ h; (repeat (cases h with | head => rfl | tail _ h => ?_)); exact nomatch h) (V1 m ρ) R

/-! ## Entering the region: the arrays dealt to the windows -/

/-- The unscoped buffers the region or the rest of the program speaks of. -/
def A8 : Finset (Ref sig .tc) := {main_v50, main_v49, main_v12, main_v51, main_v52, main_arg0, main_arg1, main_arg2}

omit [FloatOps F] in
theorem A8_sub : A8 ⊆ Finset.univ.filter fun b : Ref sig .tc => ¬ b.isScoped := by
  intro b hb
  refine Finset.mem_filter.mpr ⟨Finset.mem_univ _, ?_⟩
  simp only [A8, Finset.mem_insert, Finset.mem_singleton] at hb
  rcases hb with rfl | rfl | rfl | rfl | rfl | rfl | rfl | rfl <;> decide

/-- A window's array, a whole buffer, at a share and contents of the proof's choosing. -/
theorem arr_pt (c : Dev nD) (w : Fin 7) (q : PosShare TreeShare) (hq : (dats m ρ 0 c).share w = q)
    (G : Buf (Elt F) ((cfg0.win w).arr.view.loc (c.tc : Thread nD τ))) :
    ((cfg0.win w).arr.view.loc (c.tc : Thread nD τ) ↦[(cfg0.win w).arr.view.set]{(dats m ρ 0 c).share w} G : sProp 𝕄)
      = (((c.tc : Thread nD τ).loc (Pipeline.arrRef spec0 w)) ↦{q} G) := by
  rw [(arr_whole0 w).set_eq_univ, hq]

theorem share_out (c : Dev nD) : (dats m ρ 0 c).share 6 = fullShare := by
  unfold Dat.share
  exact if_pos rfl
theorem share_in0 (c : Dev nD) : (dats m ρ 0 c).share 0 = fullShare.left := by
  unfold Dat.share
  rw [if_neg (by decide)]
  rfl
theorem share_in1 (c : Dev nD) : (dats m ρ 0 c).share 1 = fullShare.right := by
  unfold Dat.share
  rw [if_neg (by decide)]
  rfl
theorem share_in2 (c : Dev nD) : (dats m ρ 0 c).share 2 = fullShare.left := by
  unfold Dat.share
  rw [if_neg (by decide)]
  rfl
theorem share_in3 (c : Dev nD) : (dats m ρ 0 c).share 3 = fullShare.right := by
  unfold Dat.share
  rw [if_neg (by decide)]
  rfl
theorem share_in4 (c : Dev nD) : (dats m ρ 0 c).share 4 = fullShare.left := by
  unfold Dat.share
  rw [if_neg (by decide)]
  rfl
theorem share_in5 (c : Dev nD) : (dats m ρ 0 c).share 5 = fullShare.right := by
  unfold Dat.share
  rw [if_neg (by decide)]
  rfl

/-- The unscoped buffers: eight of them named, and the rest. -/
theorem unscopedBufs_eight (c : Dev nD) (W : (b : Ref sig .tc) → Buf (Elt F) ((c.tc : Thread nD τ).loc b)) :
    (unscopedBufs c W : sProp 𝕄) = iprop(((((c.tc : Thread nD τ).loc main_v50) ↦{fullShare} W main_v50) ∗ (((c.tc : Thread nD τ).loc main_v49) ↦{fullShare} W main_v49) ∗ (((c.tc : Thread nD τ).loc main_v12) ↦{fullShare} W main_v12) ∗ (((c.tc : Thread nD τ).loc main_v51) ↦{fullShare} W main_v51) ∗ (((c.tc : Thread nD τ).loc main_v52) ↦{fullShare} W main_v52) ∗ (((c.tc : Thread nD τ).loc main_arg0) ↦{fullShare} W main_arg0) ∗ (((c.tc : Thread nD τ).loc main_arg1) ↦{fullShare} W main_arg1) ∗ (((c.tc : Thread nD τ).loc main_arg2) ↦{fullShare} W main_arg2))
      ∗ bigSep ((Finset.univ.filter fun b : Ref sig .tc => ¬ b.isScoped) \ A8) fun b => (((c.tc : Thread nD τ).loc b) ↦{fullShare} W b)) := by
  unfold unscopedBufs
  rw [bigSep_sdiff_split A8_sub]
  unfold A8
  rw [BI.bigSep_insert (by decide), BI.bigSep_insert (by decide), BI.bigSep_insert (by decide), BI.bigSep_insert (by decide),
    BI.bigSep_insert (by decide), BI.bigSep_insert (by decide), BI.bigSep_insert (by decide), BI.bigSep_singleton]
  rfl

set_option maxHeartbeats 1600000 in
/-- The three input arrays are each read by two windows: the array's full share is dealt in halves. The output array
    goes to its one window whole; the program's result and arguments bypass the region. -/
theorem entry_split (c : Dev nD) :
    (unscopedBufs c (V m ρ c) : sProp 𝕄) ⊢ iprop((dats m ρ 0 c).arrays ((dats m ρ 0 c).arrAt · 0)
      ∗ (((c.tc : Thread nD τ).loc main_v52) ↦{fullShare} V m ρ c main_v52) ∗ (((c.tc : Thread nD τ).loc main_arg0) ↦{fullShare} V m ρ c main_arg0)
      ∗ (((c.tc : Thread nD τ).loc main_arg1) ↦{fullShare} V m ρ c main_arg1) ∗ (((c.tc : Thread nD τ).loc main_arg2) ↦{fullShare} V m ρ c main_arg2)) := by
  rw [unscopedBufs_eight]
  unfold Dat.arrays
  rw [bigSep_W0]
  rw [arr_pt m ρ c 0 _ (share_in0 m ρ c) ((dats m ρ 0 c).arrAt 0 0)]
  rw [arr_pt m ρ c 1 _ (share_in1 m ρ c) ((dats m ρ 0 c).arrAt 1 0)]
  rw [arr_pt m ρ c 2 _ (share_in2 m ρ c) ((dats m ρ 0 c).arrAt 2 0)]
  rw [arr_pt m ρ c 3 _ (share_in3 m ρ c) ((dats m ρ 0 c).arrAt 3 0)]
  rw [arr_pt m ρ c 4 _ (share_in4 m ρ c) ((dats m ρ 0 c).arrAt 4 0)]
  rw [arr_pt m ρ c 5 _ (share_in5 m ρ c) ((dats m ρ 0 c).arrAt 5 0)]
  rw [arr_pt m ρ c 6 _ (share_out m ρ c) ((dats m ρ 0 c).arrAt 6 0)]
  iintro ⟨⟨H50, H49, H12, H51, H52, Ha0, Ha1, Ha2⟩, -⟩
  ihave H50' := (pointsTo_share (PosShare.mem_left_op_right fullShare)).1 $$ H50
  icases H50' with ⟨H50l, H50r⟩
  ihave H49' := (pointsTo_share (PosShare.mem_left_op_right fullShare)).1 $$ H49
  icases H49' with ⟨H49l, H49r⟩
  ihave H12' := (pointsTo_share (PosShare.mem_left_op_right fullShare)).1 $$ H12
  icases H12' with ⟨H12l, H12r⟩
  isplitl [H50l H50r H49l H49r H12l H12r H51]
  · isplitl [H50l]; · iexact H50l
    isplitl [H50r]; · iexact H50r
    isplitl [H49l]; · iexact H49l
    isplitl [H49r]; · iexact H49r
    isplitl [H12l]; · iexact H12l
    isplitl [H12r]; · iexact H12r
    iexact H51
  isplitl [H52]; · iexact H52
  isplitl [Ha0]; · iexact Ha0
  isplitl [Ha1]; · iexact Ha1
  iexact Ha2

/-! ## Leaving the region -/

theorem V1_v51 (c : Dev nD) : V1 m ρ c (Proc.devRef .tc main_v51) = (dats m ρ 0 c).arrAt 6 cfg0.N := by
  unfold V1; exact Function.update_self _ _ _

theorem V1_other (c : Dev nD) (b : Ref sig .tc) (hb : b ≠ main_v51) :
    V1 m ρ c (Proc.devRef .tc b) = V m ρ c b := by
  unfold V1; exact Function.update_of_ne (StableHlo.devRef_ne_of_ne hb) _ _

/-- The five buffers held after the region, one by one. -/
theorem held_five (c : Dev nD) (W : Valuation τ sig (Elt F)) :
    (StableHlo.held (c : Thread nD τ) S1 W : sProp 𝕄) = iprop(((((c.tc : Thread nD τ).1, Proc.devRef .tc main_v51) ↦{fullShare} W (Proc.devRef .tc main_v51))) ∗ ((((c.tc : Thread nD τ).1, Proc.devRef .tc main_v52) ↦{fullShare} W (Proc.devRef .tc main_v52))) ∗ ((((c.tc : Thread nD τ).1, Proc.devRef .tc main_arg0) ↦{fullShare} W (Proc.devRef .tc main_arg0))) ∗ ((((c.tc : Thread nD τ).1, Proc.devRef .tc main_arg1) ↦{fullShare} W (Proc.devRef .tc main_arg1))) ∗ ((((c.tc : Thread nD τ).1, Proc.devRef .tc main_arg2) ↦{fullShare} W (Proc.devRef .tc main_arg2)))) := by
  unfold StableHlo.held S1
  rw [BI.bigSep_insert (by decide), BI.bigSep_insert (by decide), BI.bigSep_insert (by decide), BI.bigSep_insert (by decide), BI.bigSep_singleton]
  rfl

/-- The kernel's result array as the last write-back left it, beside the bypassing buffers: what the host operation
    after the region runs over. -/
theorem exit_join (c : Dev nD) :
    iprop((dats m ρ 0 c).arrays ((dats m ρ 0 c).arrAt · cfg0.N)
      ∗ (((c.tc : Thread nD τ).loc main_v52) ↦{fullShare} V m ρ c main_v52) ∗ (((c.tc : Thread nD τ).loc main_arg0) ↦{fullShare} V m ρ c main_arg0)
      ∗ (((c.tc : Thread nD τ).loc main_arg1) ↦{fullShare} V m ρ c main_arg1) ∗ (((c.tc : Thread nD τ).loc main_arg2) ↦{fullShare} V m ρ c main_arg2))
      ⊢ (StableHlo.held (c : Thread nD τ) S1 (V1 m ρ c) : sProp 𝕄) := by
  rw [held_five, V1_v51, V1_other m ρ c main_v52 (by decide), V1_other m ρ c main_arg0 (by decide), V1_other m ρ c main_arg1 (by decide),
    V1_other m ρ c main_arg2 (by decide)]
  unfold Dat.arrays
  rw [bigSep_W0, arr_pt m ρ c 6 _ (share_out m ρ c) ((dats m ρ 0 c).arrAt 6 cfg0.N)]
  iintro ⟨⟨-, -, -, -, -, -, H51⟩, H52, Ha0, Ha1, Ha2⟩
  isplitl [H51]; · iexact H51
  isplitl [H52]; · iexact H52
  isplitl [Ha0]; · iexact Ha0
  isplitl [Ha1]; · iexact Ha1
  iexact Ha2

end Cert.Kernel.Hand

end
-- ==== Proof.KbLaunch.lean ====
/-
  The run of the whole program: the host operations before the pallas_call, the pallas_call under the pipeline's
  launch rule with the body obligation of every grid point, and the host operation after it. Every weakly fair
  execution terminates without a fault; the result buffer ends at the reshape of the kernel's 1x1 result array as the
  last grid point wrote it back, and the three argument arrays end as they were launched.
-/
import proofs.«102172_j73212012528100_1_alg».proof.Proof.KbEntry
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The region -/

set_option backward.isDefEq.respectTransparency.types false in
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) S1 (V1 m ρ c) ∗ R c)
  X c := iprop(∃ r, prngReg c r)
  Y c := iprop(∃ r, prngReg c r)
  Z c := iprop((((c.tc : Thread nD τ).loc main_v52) ↦{fullShare} V m ρ c main_v52) ∗ (((c.tc : Thread nD τ).loc main_arg0) ↦{fullShare} V m ρ c main_arg0)
      ∗ (((c.tc : Thread nD τ).loc main_arg1) ↦{fullShare} V m ρ c main_arg1) ∗ (((c.tc : Thread nD τ).loc main_arg2) ↦{fullShare} V m ρ c main_arg2))
  hentry c := by
    rw [show StableHlo.held (c : Thread nD τ) (Pipeline.ucRefs τ sig) (StableHlo.after hostOps0 (V₀ m ρ c)) = unscopedBufs c (V m ρ c) from (Pipeline.unscopedBufs_held c _).symm,
      Pipeline.ownSems0_none]
    iintro ⟨⟨Hub, Hp, HO⟩, -, -⟩
    ihave H := (entry_split m ρ c) $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact HZ
  hin c := by
    rw [show (dats m ρ 0 c).Φ 0 = Pipeline.ΦA spec0 c from rfl]; unfold Pipeline.ΦA
    iintro ⟨Hp, -, Hr⟩
    isplitl [Hr] <;> iassumption
  hout c := by
    rw [Pipeline.ownSems0_none, show (dats m ρ 0 c).Φ (Fin.last cfg0.N) = Pipeline.ΦA spec0 c from rfl]; unfold Pipeline.ΦA
    iintro ⟨Hr, Hp⟩
    isplitl [Hp]; · iexact Hp
    isplitr; · iempintro
    iexact Hr
  hexit c := by
    iintro ⟨Ha, HO, HY, HZ⟩
    imodintro
    isplitl [Ha HZ]
    · iapply (exit_join m ρ c)
      isplitl [Ha] <;> iassumption
    isplitl [HY]; · iexact HY
    unfold Pipeline.Dat.owesAt Pipeline.owesWithin
    icases HO with ⟨%W, -, HO⟩; iexists W; iexact HO

/-- @main as the list of the three. -/
abbrev segs : List (Pipeline.Seg (pcfgs (F := F)) adm (dats m ρ) () defs₀ 𝒱₀ L lv) := [.host (seg0 m ρ), .region (reg0 m ρ), .host (seg1 m ρ)]

/-! ## The run -/

/-- What the program's last thread state says of a final memory: the program's result buffer holds the host
    operation's result of the kernel's result array, and the arguments hold what they held at launch. -/
def QC : PUnit × MemSt nD τ sig (Elt F) → Prop := fun r =>
  ∀ c : Dev nD, r.2.mem ((c : Thread nD τ).loc main_v52) = StableHlo.after hostOps1 (V1 m ρ c) (Proc.devRef .tc main_v52)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

/-- The arguments are written by no host operation. -/
theorem arg_kept (c : Dev nD) (b : Ref sig .tc) (hb : b = main_arg0 ∨ b = main_arg1 ∨ b = main_arg2) :
    StableHlo.after hostOps1 (V1 m ρ c) (Proc.devRef .tc b) = m ((c : Thread nD τ).loc b) := by
  have h1 : StableHlo.after hostOps1 (V1 m ρ c) (Proc.devRef .tc b) = V1 m ρ c (Proc.devRef .tc b) :=
    StableHlo.after_of_forall_not_mem (b := Proc.devRef .tc b) hostOps1 (V1 m ρ c) (by
      intro op hop
      obtain rfl := List.mem_singleton.mp hop
      simp only [StableHlo.reshape_writes, Finset.mem_singleton]
      exact StableHlo.devRef_ne_of_ne (by rcases hb with rfl | rfl | rfl <;> decide))
  rw [h1, V1_other m ρ c b (by rcases hb with rfl | rfl | rfl <;> decide)]
  exact StableHlo.after_of_forall_not_mem (b := Proc.devRef .tc b) hostOps0 (V₀ m ρ c) (by
    intro op hop
    simp only [List.mem_cons, List.mem_nil_iff, or_false] at hop
    rcases hb with rfl | rfl | rfl <;>
    (rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
      simp only [StableHlo.unary_writes, StableHlo.binary_writes, StableHlo.ternary_writes, StableHlo.nullary_writes, StableHlo.reshape_writes, Finset.mem_singleton] <;>
      exact StableHlo.devRef_ne_of_ne (by decide)))

set_option maxHeartbeats 1600000 in
set_option backward.isDefEq.respectTransparency.types false in
/-- For any float values, from any memory with zero counters: every weakly fair execution of @main terminates, nothing
    faulting, the program's result buffer at the last host operation's result of the kernel's result array and the
    arguments as they were. -/
theorem run_main : θ_run defs (onTc (τ := τ) (main (F := F))) ⟨m, fun _ => 0, ρ⟩ (QC m ρ) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      refine (show (ownU _ : sProp 𝕄) ⊢ BI.own (EP (initOf (Pipeline.cells (Pipeline.pin (pcfgs (F := F)) adm) cellOf_inj) (Pipeline.launchToks (Pipeline.pin (pcfgs (F := F)) adm) cellOf_inj))) from .rfl).trans ?_
      iintro Hu; imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => iprop(StableHlo.held (c : Thread nD τ) S1 (StableHlo.after hostOps1 (V1 m ρ c)) ∗ ∃ r, prngReg c r))
    (hch := ⟨fun _ => .rfl, fun _ => .rfl, fun _ => .rfl, fun c => by
      show iprop(StableHlo.held (c : Thread nD τ) S1 (StableHlo.after hostOps1 (V1 m ρ c)) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, Hp, -⟩, -⟩
      imodintro
      isplitl [Hh]; · iexact Hh
      isplitl [Hp]; · iexists _; iexact Hp
      iexists ∅; iexact HO)
    (QY := fun c s => s.mem ((c : Thread nD τ).loc main_v52) = StableHlo.after hostOps1 (V1 m ρ c) (Proc.devRef .tc main_v52)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    (hfin := fun c s' => by
      rw [held_five, arg_kept m ρ c main_arg0 (.inl rfl), arg_kept m ρ c main_arg1 (.inr (.inl rfl)), arg_kept m ρ c main_arg2 (.inr (.inr rfl))]
      iintro ⟨⟨⟨-, H52, Ha0, Ha1, Ha2⟩, -⟩, HSI⟩
      icombine HSI H52 gives %h52
      icombine HSI Ha0 gives %h0
      icombine HSI Ha1 gives %h1
      icombine HSI Ha2 gives %h2
      imodintro
      isplitr
      · ipureintro
        exact ⟨Buf.eq_of_forall_mem_univ h52, Buf.eq_of_forall_mem_univ h0, Buf.eq_of_forall_mem_univ h1, Buf.eq_of_forall_mem_univ h2⟩
      iexact HSI)
    (hQ := fun _ h => h)

end Cert.Kernel.Hand

end
-- ==== Proof.KiRuns.lean ====
/-
  The kernel body run once per control case. The body branches twice on the grid coordinates: at the
  first grid point it clears the 1x1 accumulator before adding the tile's sum, at the last grid point
  it divides the accumulator by the element count after adding; at every other point it only adds.
  Each run states, over arbitrary whole staging buffers holding the six input blocks, that the body
  terminates, leaves the inputs as they were and the accumulator buffer overwritten by a list of
  pieces that the run itself finds.
-/
import proofs.«102172_j73212012528100_1_alg».proof.Proof.Gen.KernelIdeal.Launch
import proofs.«102172_j73212012528100_1_alg».proof.Proof.Gen.KernelIdeal.Skeleton
import proofs.«102172_j73212012528100_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body clears the accumulator exactly when both grid coordinates are zero. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The body divides the accumulator exactly when both grid coordinates are seven. -/
abbrev condLast (i : grid0.Coords) : Prop :=
  (Scalar.cmpi .ne (Scalar.extui (Scalar.andi (Scalar.cmpi .eq (BitVec.ofNat 32 (i 0).val) 7#32) (Scalar.cmpi .eq (BitVec.ofNat 32 (i 1).val) 7#32))) 0#32) = 1#1

/-- Over the 64 grid points in row-major order the clearing point is point 0, -/
theorem condFirst_iff : ∀ t : Fin cfg0.N, condFirst (grid0.coords t) ↔ t.val = 0 :=
  (by decide +kernel : ∀ t : Fin grid0.N, condFirst (grid0.coords t) ↔ t.val = 0)
/-- and the dividing point is point 63. -/
theorem condLast_iff : ∀ t : Fin cfg0.N, condLast (grid0.coords t) ↔ t.val = 63 :=
  (by decide +kernel : ∀ t : Fin grid0.N, condLast (grid0.coords t) ↔ t.val = 63)

section Runs

variable (c : Dev nD) (i : grid0.Coords)
  (arg2 : Memref sig .tc .vmem S8x256x128 .f32) (harg2 : arg2.IsWhole) (arg3 : Memref sig .tc .vmem S8x256x128 .f32) (harg3 : arg3.IsWhole)
  (arg4 : Memref sig .tc .vmem S8x256x3 .f32) (harg4 : arg4.IsWhole) (arg5 : Memref sig .tc .vmem S8x256x3 .f32) (harg5 : arg5.IsWhole)
  (arg6 : Memref sig .tc .vmem S256x2 .f32) (harg6 : arg6.IsWhole) (arg7 : Memref sig .tc .vmem S256x2 .f32) (harg7 : arg7.IsWhole)
  (arg8 : Memref sig .tc .vmem S1x1 .f32) (harg8 : arg8.IsWhole)
  (x0 x1 : Vec F S8x256x128 .f32) (x2 x3 : Vec F S8x256x3 .f32) (x4 x5 : Vec F S256x2 .f32)

/-- The six input staging buffers at their blocks. -/
abbrev insOwned : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

set_option maxHeartbeats 4000000 in
/-- The first grid point: the accumulator buffer may hold anything; it is cleared, then the tile's sum is added. -/
noncomputable def runFirst (hc0 : condFirst i) (hc1 : ¬condLast i) :
    { L : List (View.Piece (Elt F) S1x1 .f32) //
      ∀ (E : Set ℕ) (K : PUnit → sProp 𝕄),
        iprop(insOwned (F := F) c arg2 arg3 arg4 arg5 arg6 arg7 x0 x1 x2 x3 x4 x5 ∗ (∃ d, owns (c : Thread nD τ) arg8 fullShare d)
            ∗ (iprop(insOwned (F := F) c arg2 arg3 arg4 arg5 arg6 arg7 x0 x1 x2 x3 x4 x5 ∗ (∃ f, arg8.view.loc (c : Thread nD τ) ↦[arg8.view.set]{fullShare} arg8.view.writes (Elt F) f L)) -∗ K ⟨⟩))
          ⊢ wp frame (wpE (defs₀ (F := F)) Variants.none c none) E (cc0__crf_kernel i arg2 harg2 arg3 harg3 arg4 harg4 arg5 harg5 arg6 harg6 arg7 harg7 arg8 harg8) K } := by
  refine ⟨?_, fun E K => ?run⟩
  case run =>
    simp only [cc0__crf_kernel_eq_skeleton]; unfold cc0__crf_kernel_skel
    simp only [k0_part1_eq_skeleton, k0_part2_eq_skeleton]
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitr [H6]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      · iexists _; isplitr; · ipureintro; exact harg7.read_unread _
        iexact H5
    iexists _; iexact H6

set_option maxHeartbeats 4000000 in
/-- A middle grid point: the tile's sum is added to what the accumulator buffer holds. -/
noncomputable def runMid (hc0 : ¬condFirst i) (hc1 : ¬condLast i) (xo : Vec F S1x1 .f32) :
    { L : List (View.Piece (Elt F) S1x1 .f32) //
      ∀ (E : Set ℕ) (K : PUnit → sProp 𝕄),
        iprop(insOwned (F := F) c arg2 arg3 arg4 arg5 arg6 arg7 x0 x1 x2 x3 x4 x5 ∗ owns (c : Thread nD τ) arg8 fullShare xo
            ∗ (iprop(insOwned (F := F) c arg2 arg3 arg4 arg5 arg6 arg7 x0 x1 x2 x3 x4 x5 ∗ (∃ f, arg8.view.loc (c : Thread nD τ) ↦[arg8.view.set]{fullShare} arg8.view.writes (Elt F) f L)) -∗ K ⟨⟩))
          ⊢ wp frame (wpE (defs₀ (F := F)) Variants.none c none) E (cc0__crf_kernel i arg2 harg2 arg3 harg3 arg4 harg4 arg5 harg5 arg6 harg6 arg7 harg7 arg8 harg8) K } := by
  refine ⟨?_, fun E K => ?run⟩
  case run =>
    simp only [cc0__crf_kernel_eq_skeleton]; unfold cc0__crf_kernel_skel
    simp only [k0_part1_eq_skeleton, k0_part2_eq_skeleton]
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec (disch := first | exact hc0 | exact hc1)
    sl_step
    iapply Hk
    isplitr [H6]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      · iexists _; isplitr; · ipureintro; exact harg7.read_unread _
        iexact H5
    iexists _; iexact H6

set_option maxHeartbeats 4000000 in
/-- The last grid point: the tile's sum is added to what the accumulator buffer holds and the total is divided by the element count. -/
noncomputable def runLast (hc0 : ¬condFirst i) (hc1 : condLast i) (xo : Vec F S1x1 .f32) :
    { L : List (View.Piece (Elt F) S1x1 .f32) //
      ∀ (E : Set ℕ) (K : PUnit → sProp 𝕄),
        iprop(insOwned (F := F) c arg2 arg3 arg4 arg5 arg6 arg7 x0 x1 x2 x3 x4 x5 ∗ owns (c : Thread nD τ) arg8 fullShare xo
            ∗ (iprop(insOwned (F := F) c arg2 arg3 arg4 arg5 arg6 arg7 x0 x1 x2 x3 x4 x5 ∗ (∃ f, arg8.view.loc (c : Thread nD τ) ↦[arg8.view.set]{fullShare} arg8.view.writes (Elt F) f L)) -∗ K ⟨⟩))
          ⊢ wp frame (wpE (defs₀ (F := F)) Variants.none c none) E (cc0__crf_kernel i arg2 harg2 arg3 harg3 arg4 harg4 arg5 harg5 arg6 harg6 arg7 harg7 arg8 harg8) K } := by
  refine ⟨?_, fun E K => ?run⟩
  case run =>
    simp only [cc0__crf_kernel_eq_skeleton]; unfold cc0__crf_kernel_skel
    simp only [k0_part1_eq_skeleton, k0_part2_eq_skeleton]
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec (disch := first | exact hc0 | exact hc1)
    sl_step
    iapply Hk
    isplitr [H6]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      · iexists _; isplitr; · ipureintro; exact harg7.read_unread _
        iexact H5
    iexists _; iexact H6

end Runs

end Cert.KernelIdeal.Hand

end
-- ==== Proof.KiData.lean ====
/-
  The proof data of the one pallas_call: what every window's staging buffer holds after the body at each
  of the 64 grid points. The six input windows keep their blocks. The 1x1 output window is an accumulator
  carried from point to point and written back only after the last point: after point 0 it holds what the
  first-point run leaves, after point n + 1 what the middle-point (or, at point 63, the last-point) run
  leaves when it starts from the contents after point n.
-/
import proofs.«102172_j73212012528100_1_alg».proof.Proof.KiRuns
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, -/
abbrev V₀ (c : Dev nD) : Valuation τ sig (Elt F) := fun b => (s₀ m ρ).mem ((c : Dev nD), b)
/-- and when the region is entered: the 61 host operations before it have run. -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## The staging buffers at a point -/

abbrev ms0 (t : Fin cfg0.N) : Memref sig .tc .vmem S8x256x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256x3 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x256x3 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x2 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x2 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
/-- One staging buffer of the output window, through which its contents are stated. -/
abbrev VO : View sig .tc .vmem S1x1 .f32 := (Memref.whole cc0_stg6_0 : Memref sig .tc .vmem S1x1 .f32).view

/-! ## What each case leaves in the accumulator buffer -/

/-- The pieces the run of this case stores cover the 1x1 block. -/
theorem coverFirst (c : Dev nD) (i : grid0.Coords)
    (arg2 : Memref sig .tc .vmem S8x256x128 .f32) (harg2 : arg2.IsWhole) (arg3 : Memref sig .tc .vmem S8x256x128 .f32) (harg3 : arg3.IsWhole)
    (arg4 : Memref sig .tc .vmem S8x256x3 .f32) (harg4 : arg4.IsWhole) (arg5 : Memref sig .tc .vmem S8x256x3 .f32) (harg5 : arg5.IsWhole)
    (arg6 : Memref sig .tc .vmem S256x2 .f32) (harg6 : arg6.IsWhole) (arg7 : Memref sig .tc .vmem S256x2 .f32) (harg7 : arg7.IsWhole)
    (arg8 : Memref sig .tc .vmem S1x1 .f32) (harg8 : arg8.IsWhole)
    (x0 x1 : Vec F S8x256x128 .f32) (x2 x3 : Vec F S8x256x3 .f32) (x4 x5 : Vec F S256x2 .f32) (hc0 : condFirst i) (hc1 : ¬condLast i) (y : S1x1.Idx) :
    ∃ pc ∈ (runFirst (F := F) c i arg2 harg2 arg3 harg3 arg4 harg4 arg5 harg5 arg6 harg6 arg7 harg7 arg8 harg8 x0 x1 x2 x3 x4 x5 hc0 hc1).1, y ∈ pc.1.set :=
  View.cover_of_tiledL (runFirst (F := F) c i arg2 harg2 arg3 harg3 arg4 harg4 arg5 harg5 arg6 harg6 arg7 harg7 arg8 harg8 x0 x1 x2 x3 x4 x5 hc0 hc1).1 S1x1.size (by sl_kernel_rfl) y

/-- What this case leaves in the accumulator buffer: its pieces read back. -/
def outFirst (c : Dev nD) (i : grid0.Coords)
    (arg2 : Memref sig .tc .vmem S8x256x128 .f32) (harg2 : arg2.IsWhole) (arg3 : Memref sig .tc .vmem S8x256x128 .f32) (harg3 : arg3.IsWhole)
    (arg4 : Memref sig .tc .vmem S8x256x3 .f32) (harg4 : arg4.IsWhole) (arg5 : Memref sig .tc .vmem S8x256x3 .f32) (harg5 : arg5.IsWhole)
    (arg6 : Memref sig .tc .vmem S256x2 .f32) (harg6 : arg6.IsWhole) (arg7 : Memref sig .tc .vmem S256x2 .f32) (harg7 : arg7.IsWhole)
    (arg8 : Memref sig .tc .vmem S1x1 .f32) (harg8 : arg8.IsWhole)
    (x0 x1 : Vec F S8x256x128 .f32) (x2 x3 : Vec F S8x256x3 .f32) (x4 x5 : Vec F S256x2 .f32) (hc0 : condFirst i) (hc1 : ¬condLast i) : Vec F S1x1 .f32 :=
  VO.read (Elt F) (VO.writes (Elt F) VO.junk (runFirst (F := F) c i arg2 harg2 arg3 harg3 arg4 harg4 arg5 harg5 arg6 harg6 arg7 harg7 arg8 harg8 x0 x1 x2 x3 x4 x5 hc0 hc1).1)

/-- The pieces the run of this case stores cover the 1x1 block. -/
theorem coverMid (c : Dev nD) (i : grid0.Coords)
    (arg2 : Memref sig .tc .vmem S8x256x128 .f32) (harg2 : arg2.IsWhole) (arg3 : Memref sig .tc .vmem S8x256x128 .f32) (harg3 : arg3.IsWhole)
    (arg4 : Memref sig .tc .vmem S8x256x3 .f32) (harg4 : arg4.IsWhole) (arg5 : Memref sig .tc .vmem S8x256x3 .f32) (harg5 : arg5.IsWhole)
    (arg6 : Memref sig .tc .vmem S256x2 .f32) (harg6 : arg6.IsWhole) (arg7 : Memref sig .tc .vmem S256x2 .f32) (harg7 : arg7.IsWhole)
    (arg8 : Memref sig .tc .vmem S1x1 .f32) (harg8 : arg8.IsWhole)
    (x0 x1 : Vec F S8x256x128 .f32) (x2 x3 : Vec F S8x256x3 .f32) (x4 x5 : Vec F S256x2 .f32) (hc0 : ¬condFirst i) (hc1 : ¬condLast i) (xo : Vec F S1x1 .f32) (y : S1x1.Idx) :
    ∃ pc ∈ (runMid (F := F) c i arg2 harg2 arg3 harg3 arg4 harg4 arg5 harg5 arg6 harg6 arg7 harg7 arg8 harg8 x0 x1 x2 x3 x4 x5 hc0 hc1 xo).1, y ∈ pc.1.set :=
  View.cover_of_tiledL (runMid (F := F) c i arg2 harg2 arg3 harg3 arg4 harg4 arg5 harg5 arg6 harg6 arg7 harg7 arg8 harg8 x0 x1 x2 x3 x4 x5 hc0 hc1 xo).1 S1x1.size (by sl_kernel_rfl) y

/-- What this case leaves in the accumulator buffer: its pieces read back. -/
def outMid (c : Dev nD) (i : grid0.Coords)
    (arg2 : Memref sig .tc .vmem S8x256x128 .f32) (harg2 : arg2.IsWhole) (arg3 : Memref sig .tc .vmem S8x256x128 .f32) (harg3 : arg3.IsWhole)
    (arg4 : Memref sig .tc .vmem S8x256x3 .f32) (harg4 : arg4.IsWhole) (arg5 : Memref sig .tc .vmem S8x256x3 .f32) (harg5 : arg5.IsWhole)
    (arg6 : Memref sig .tc .vmem S256x2 .f32) (harg6 : arg6.IsWhole) (arg7 : Memref sig .tc .vmem S256x2 .f32) (harg7 : arg7.IsWhole)
    (arg8 : Memref sig .tc .vmem S1x1 .f32) (harg8 : arg8.IsWhole)
    (x0 x1 : Vec F S8x256x128 .f32) (x2 x3 : Vec F S8x256x3 .f32) (x4 x5 : Vec F S256x2 .f32) (hc0 : ¬condFirst i) (hc1 : ¬condLast i) (xo : Vec F S1x1 .f32) : Vec F S1x1 .f32 :=
  VO.read (Elt F) (VO.writes (Elt F) VO.junk (runMid (F := F) c i arg2 harg2 arg3 harg3 arg4 harg4 arg5 harg5 arg6 harg6 arg7 harg7 arg8 harg8 x0 x1 x2 x3 x4 x5 hc0 hc1 xo).1)

/-- The pieces the run of this case stores cover the 1x1 block. -/
theorem coverLast (c : Dev nD) (i : grid0.Coords)
    (arg2 : Memref sig .tc .vmem S8x256x128 .f32) (harg2 : arg2.IsWhole) (arg3 : Memref sig .tc .vmem S8x256x128 .f32) (harg3 : arg3.IsWhole)
    (arg4 : Memref sig .tc .vmem S8x256x3 .f32) (harg4 : arg4.IsWhole) (arg5 : Memref sig .tc .vmem S8x256x3 .f32) (harg5 : arg5.IsWhole)
    (arg6 : Memref sig .tc .vmem S256x2 .f32) (harg6 : arg6.IsWhole) (arg7 : Memref sig .tc .vmem S256x2 .f32) (harg7 : arg7.IsWhole)
    (arg8 : Memref sig .tc .vmem S1x1 .f32) (harg8 : arg8.IsWhole)
    (x0 x1 : Vec F S8x256x128 .f32) (x2 x3 : Vec F S8x256x3 .f32) (x4 x5 : Vec F S256x2 .f32) (hc0 : ¬condFirst i) (hc1 : condLast i) (xo : Vec F S1x1 .f32) (y : S1x1.Idx) :
    ∃ pc ∈ (runLast (F := F) c i arg2 harg2 arg3 harg3 arg4 harg4 arg5 harg5 arg6 harg6 arg7 harg7 arg8 harg8 x0 x1 x2 x3 x4 x5 hc0 hc1 xo).1, y ∈ pc.1.set :=
  View.cover_of_tiledL (runLast (F := F) c i arg2 harg2 arg3 harg3 arg4 harg4 arg5 harg5 arg6 harg6 arg7 harg7 arg8 harg8 x0 x1 x2 x3 x4 x5 hc0 hc1 xo).1 S1x1.size (by sl_kernel_rfl) y

/-- What this case leaves in the accumulator buffer: its pieces read back. -/
def outLast (c : Dev nD) (i : grid0.Coords)
    (arg2 : Memref sig .tc .vmem S8x256x128 .f32) (harg2 : arg2.IsWhole) (arg3 : Memref sig .tc .vmem S8x256x128 .f32) (harg3 : arg3.IsWhole)
    (arg4 : Memref sig .tc .vmem S8x256x3 .f32) (harg4 : arg4.IsWhole) (arg5 : Memref sig .tc .vmem S8x256x3 .f32) (harg5 : arg5.IsWhole)
    (arg6 : Memref sig .tc .vmem S256x2 .f32) (harg6 : arg6.IsWhole) (arg7 : Memref sig .tc .vmem S256x2 .f32) (harg7 : arg7.IsWhole)
    (arg8 : Memref sig .tc .vmem S1x1 .f32) (harg8 : arg8.IsWhole)
    (x0 x1 : Vec F S8x256x128 .f32) (x2 x3 : Vec F S8x256x3 .f32) (x4 x5 : Vec F S256x2 .f32) (hc0 : ¬condFirst i) (hc1 : condLast i) (xo : Vec F S1x1 .f32) : Vec F S1x1 .f32 :=
  VO.read (Elt F) (VO.writes (Elt F) VO.junk (runLast (F := F) c i arg2 harg2 arg3 harg3 arg4 harg4 arg5 harg5 arg6 harg6 arg7 harg7 arg8 harg8 x0 x1 x2 x3 x4 x5 hc0 hc1 xo).1)

/-! ## The accumulator after each point -/

/-- The accumulator buffer's contents after the body at position `n`. -/
def accAt (c : Dev nD) : (n : ℕ) → n < cfg0.N → Vec F S1x1 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (iblk m ρ c 0 ⟨0, hn⟩) (iblk m ρ c 1 ⟨0, hn⟩) (iblk m ρ c 2 ⟨0, hn⟩) (iblk m ρ c 3 ⟨0, hn⟩) (iblk m ρ c 4 ⟨0, hn⟩) (iblk m ρ c 5 ⟨0, hn⟩)
      ((condFirst_iff ⟨0, hn⟩).mpr rfl) (fun h => absurd ((condLast_iff ⟨0, hn⟩).mp h) (show (0 : ℕ) ≠ 63 by decide))
  | n + 1, hn =>
    if h : n + 1 = 63 then
      outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (iblk m ρ c 0 ⟨n + 1, hn⟩) (iblk m ρ c 1 ⟨n + 1, hn⟩) (iblk m ρ c 2 ⟨n + 1, hn⟩) (iblk m ρ c 3 ⟨n + 1, hn⟩) (iblk m ρ c 4 ⟨n + 1, hn⟩) (iblk m ρ c 5 ⟨n + 1, hn⟩)
        (fun h' => absurd ((condFirst_iff ⟨n + 1, hn⟩).mp h') (Nat.succ_ne_zero n)) ((condLast_iff ⟨n + 1, hn⟩).mpr h) (accAt c n (Nat.lt_of_succ_lt hn))
    else
      outMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (iblk m ρ c 0 ⟨n + 1, hn⟩) (iblk m ρ c 1 ⟨n + 1, hn⟩) (iblk m ρ c 2 ⟨n + 1, hn⟩) (iblk m ρ c 3 ⟨n + 1, hn⟩) (iblk m ρ c 4 ⟨n + 1, hn⟩) (iblk m ρ c 5 ⟨n + 1, hn⟩)
        (fun h' => absurd ((condFirst_iff ⟨n + 1, hn⟩).mp h') (Nat.succ_ne_zero n)) (fun h' => h ((condLast_iff ⟨n + 1, hn⟩).mp h')) (accAt c n (Nat.lt_of_succ_lt hn))

theorem accAt_first (c : Dev nD) (t : Fin cfg0.N) (h0 : t.val = 0) :
    accAt m ρ c t.val t.isLt = outFirst c (grid0.coords t) (ms0 t) (hs0 t) (ms1 t) (hs1 t) (ms2 t) (hs2 t) (ms3 t) (hs3 t) (ms4 t) (hs4 t) (ms5 t) (hs5 t) (ms6 t) (hs6 t) (iblk m ρ c 0 t) (iblk m ρ c 1 t) (iblk m ρ c 2 t) (iblk m ρ c 3 t) (iblk m ρ c 4 t) (iblk m ρ c 5 t)
      ((condFirst_iff t).mpr h0) (fun h => absurd (((condLast_iff t).mp h).symm.trans h0) (by decide)) := by
  obtain ⟨n, hn⟩ := t
  cases n with
  | zero => exact rfl
  | succ n => exact absurd h0 (Nat.succ_ne_zero n)

theorem accAt_mid (c : Dev nD) (t : Fin cfg0.N) (h0 : t.val ≠ 0) (h1 : t.val ≠ 63) :
    accAt m ρ c t.val t.isLt = outMid c (grid0.coords t) (ms0 t) (hs0 t) (ms1 t) (hs1 t) (ms2 t) (hs2 t) (ms3 t) (hs3 t) (ms4 t) (hs4 t) (ms5 t) (hs5 t) (ms6 t) (hs6 t) (iblk m ρ c 0 t) (iblk m ρ c 1 t) (iblk m ρ c 2 t) (iblk m ρ c 3 t) (iblk m ρ c 4 t) (iblk m ρ c 5 t)
      (fun h => h0 ((condFirst_iff t).mp h)) (fun h => h1 ((condLast_iff t).mp h))
      (accAt m ρ c (t.val - 1) (Nat.lt_of_le_of_lt (Nat.sub_le _ _) t.isLt)) := by
  obtain ⟨n, hn⟩ := t
  cases n with
  | zero => exact absurd rfl h0
  | succ n => exact (dif_neg h1).trans rfl

theorem accAt_last (c : Dev nD) (t : Fin cfg0.N) (h0 : t.val ≠ 0) (h1 : t.val = 63) :
    accAt m ρ c t.val t.isLt = outLast c (grid0.coords t) (ms0 t) (hs0 t) (ms1 t) (hs1 t) (ms2 t) (hs2 t) (ms3 t) (hs3 t) (ms4 t) (hs4 t) (ms5 t) (hs5 t) (ms6 t) (hs6 t) (iblk m ρ c 0 t) (iblk m ρ c 1 t) (iblk m ρ c 2 t) (iblk m ρ c 3 t) (iblk m ρ c 4 t) (iblk m ρ c 5 t)
      (fun h => h0 ((condFirst_iff t).mp h)) ((condLast_iff t).mpr h1)
      (accAt m ρ c (t.val - 1) (Nat.lt_of_le_of_lt (Nat.sub_le _ _) t.isLt)) := by
  obtain ⟨n, hn⟩ := t
  cases n with
  | zero => exact absurd rfl h0
  | succ n => exact (dif_pos h1).trans rfl

/-! ## The proof data -/

/-- Two windows read each of the three input arrays: the first of a pair holds the left half of the array's share,
    the second the right half. -/
def shareOf (w : Fin cfg0.W) : PosShare TreeShare := if w.val % 2 = 0 then fullShare.left else fullShare.right

def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => iblk m ρ c 5 t
    | ⟨6, _⟩ => accAt m ρ c t.val t.isLt
  Φ _ := Pipeline.ΦA spec0 c
  q w := shareOf w
  owed _ := 0

theorem A_eq (c : Dev nD) (w : Fin cfg0.W) : (dats m ρ 0 c).A w = V m ρ c (Pipeline.arrRef spec0 w) := by
  dsimp only [dats]

theorem after0 (c : Dev nD) (t : Fin cfg0.N) : (dats m ρ 0 c).after 0 t = iblk m ρ c 0 t := by dsimp only [dats]
theorem after1 (c : Dev nD) (t : Fin cfg0.N) : (dats m ρ 0 c).after 1 t = iblk m ρ c 1 t := by dsimp only [dats]
theorem after2 (c : Dev nD) (t : Fin cfg0.N) : (dats m ρ 0 c).after 2 t = iblk m ρ c 2 t := by dsimp only [dats]
theorem after3 (c : Dev nD) (t : Fin cfg0.N) : (dats m ρ 0 c).after 3 t = iblk m ρ c 3 t := by dsimp only [dats]
theorem after4 (c : Dev nD) (t : Fin cfg0.N) : (dats m ρ 0 c).after 4 t = iblk m ρ c 4 t := by dsimp only [dats]
theorem after5 (c : Dev nD) (t : Fin cfg0.N) : (dats m ρ 0 c).after 5 t = iblk m ρ c 5 t := by dsimp only [dats]
theorem after6 (c : Dev nD) (t : Fin cfg0.N) : (dats m ρ 0 c).after 6 t = accAt m ρ c t.val t.isLt := by dsimp only [dats]

/-- Input window 0's current staging buffer holds its block at every point, fetched there or not. -/
theorem before0 (c : Dev nD) (t : Fin cfg0.N) (d) : (dats m ρ 0 c).before 0 t d = iblk m ρ c 0 t :=
  ((dats m ρ 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
/-- Input window 1's current staging buffer holds its block at every point, fetched there or not. -/
theorem before1 (c : Dev nD) (t : Fin cfg0.N) (d) : (dats m ρ 0 c).before 1 t d = iblk m ρ c 1 t :=
  ((dats m ρ 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
/-- Input window 2's current staging buffer holds its block at every point, fetched there or not. -/
theorem before2 (c : Dev nD) (t : Fin cfg0.N) (d) : (dats m ρ 0 c).before 2 t d = iblk m ρ c 2 t :=
  ((dats m ρ 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
/-- Input window 3's current staging buffer holds its block at every point, fetched there or not. -/
theorem before3 (c : Dev nD) (t : Fin cfg0.N) (d) : (dats m ρ 0 c).before 3 t d = iblk m ρ c 3 t :=
  ((dats m ρ 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
/-- Input window 4's current staging buffer holds its block at every point, fetched there or not. -/
theorem before4 (c : Dev nD) (t : Fin cfg0.N) (d) : (dats m ρ 0 c).before 4 t d = iblk m ρ c 4 t :=
  ((dats m ρ 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
/-- Input window 5's current staging buffer holds its block at every point, fetched there or not. -/
theorem before5 (c : Dev nD) (t : Fin cfg0.N) (d) : (dats m ρ 0 c).before 5 t d = iblk m ρ c 5 t :=
  ((dats m ρ 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

/-- At the first point the accumulator buffer holds anything. -/
theorem before6_first (c : Dev nD) (t : Fin cfg0.N) (h0 : t.val = 0) (d) : (dats m ρ 0 c).before 6 t d = d :=
  Dat.before_out_reset _ 6 rfl t (.inl h0) d

/-- At a later point it holds what the body left at the point before: it is not written back in between. -/
theorem before6_later (c : Dev nD) (t : Fin cfg0.N) (h0 : t.val ≠ 0) (d) :
    (dats m ρ 0 c).before 6 t d = accAt m ρ c (t.val - 1) (Nat.lt_of_le_of_lt (Nat.sub_le _ _) t.isLt) := by
  have hN : t.val < 64 := lt_of_lt_of_eq t.isLt (show cfg0.N = 64 from N_0)
  rw [Dat.before_out_kept _ 6 rfl t h0 (Bool.eq_false_iff.mpr fun h => by have := (flush0_6 _).mp h; dsimp only at this; omega)
    (fun _ => rfl) (fun _ _ => rfl)]
  dsimp only [dats]

end Cert.KernelIdeal.Hand

end
-- ==== Proof.KiBody.lean ====
/-
  The body obligation of the pallas_call at a generic grid point: the six input staging buffers hold their
  blocks, the point is the first one, a middle one or the last one, and the accumulator buffer holds anything
  (first point) or what the point before left (later points); the matching run of the body then leaves the
  inputs in place and the accumulator at the next contents of the recursion.
-/
import proofs.«102172_j73212012528100_1_alg».proof.Proof.KiData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (ms0 t) fullShare ((dats m ρ 0 c).before 0 t d))
    ∗ (∃ d, owns (c : Thread nD τ) (ms1 t) fullShare ((dats m ρ 0 c).before 1 t d))
    ∗ (∃ d, owns (c : Thread nD τ) (ms2 t) fullShare ((dats m ρ 0 c).before 2 t d))
    ∗ (∃ d, owns (c : Thread nD τ) (ms3 t) fullShare ((dats m ρ 0 c).before 3 t d))
    ∗ (∃ d, owns (c : Thread nD τ) (ms4 t) fullShare ((dats m ρ 0 c).before 4 t d))
    ∗ (∃ d, owns (c : Thread nD τ) (ms5 t) fullShare ((dats m ρ 0 c).before 5 t d))
    ∗ (∃ d, owns (c : Thread nD τ) (ms6 t) fullShare ((dats m ρ 0 c).before 6 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (ms0 t) fullShare ((dats m ρ 0 c).after 0 t)
    ∗ owns (c : Thread nD τ) (ms1 t) fullShare ((dats m ρ 0 c).after 1 t)
    ∗ owns (c : Thread nD τ) (ms2 t) fullShare ((dats m ρ 0 c).after 2 t)
    ∗ owns (c : Thread nD τ) (ms3 t) fullShare ((dats m ρ 0 c).after 3 t)
    ∗ owns (c : Thread nD τ) (ms4 t) fullShare ((dats m ρ 0 c).after 4 t)
    ∗ owns (c : Thread nD τ) (ms5 t) fullShare ((dats m ρ 0 c).after 5 t)
    ∗ owns (c : Thread nD τ) (ms6 t) fullShare ((dats m ρ 0 c).after 6 t))

set_option maxHeartbeats 1600000 in
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0, before1, before2, before3, before4, before5]
  rw [show (dats m ρ 0 c).Φ t.succ = (dats m ρ 0 c).Φ t.castSucc from rfl,
    show (dats m ρ 0 c).owesAt () t.succ = (dats m ρ 0 c).owesAt () t.castSucc from rfl,
    after0, after1, after2, after3, after4, after5, after6]
  have hN : t.val < 64 := lt_of_lt_of_eq t.isLt (show cfg0.N = 64 from N_0)
  by_cases h0 : t.val = 0
  · simp only [before6_first m ρ c t h0]
    rw [accAt_first m ρ c t h0]
    unfold outFirst
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst (F := F) c (grid0.coords t) _ _ _ _ _ _ _ _ _ _ _ _ _ _ (iblk m ρ c 0 t) (iblk m ρ c 1 t) (iblk m ρ c 2 t) (iblk m ρ c 3 t) (iblk m ρ c 4 t) (iblk m ρ c 5 t) ((condFirst_iff t).mpr h0) (fun h => absurd (((condLast_iff t).mp h).symm.trans h0) (by decide))).2 Set.univ _)
    isplitl [H0 H1 H2 H3 H4 H5]
    · unfold insOwned
      isplitl [H0]; · iexact H0
      isplitl [H1]; · iexact H1
      isplitl [H2]; · iexact H2
      isplitl [H3]; · iexact H3
      isplitl [H4]; · iexact H4
      iexact H5
    isplitl [H6]; · iexists _; iexact H6
    iintro ⟨Hin, ⟨%e6, H6⟩⟩
    unfold insOwned
    icases Hin with ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverFirst c _ _ _ _ _ _ _ _ _ _ _ _ _ _ _ _ _ _ _ _ _ _ _)
  · simp only [before6_later m ρ c t h0]
    by_cases h1 : t.val = 63
    ·
      rw [accAt_last m ρ c t h0 h1]
      unfold outLast
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runLast (F := F) c (grid0.coords t) _ _ _ _ _ _ _ _ _ _ _ _ _ _ (iblk m ρ c 0 t) (iblk m ρ c 1 t) (iblk m ρ c 2 t) (iblk m ρ c 3 t) (iblk m ρ c 4 t) (iblk m ρ c 5 t) (fun h => h0 ((condFirst_iff t).mp h)) ((condLast_iff t).mpr h1) _).2 Set.univ _)
      isplitl [H0 H1 H2 H3 H4 H5]
      · unfold insOwned
        isplitl [H0]; · iexact H0
        isplitl [H1]; · iexact H1
        isplitl [H2]; · iexact H2
        isplitl [H3]; · iexact H3
        isplitl [H4]; · iexact H4
        iexact H5
      isplitl [H6]; · iexact H6
      iintro ⟨Hin, ⟨%e6, H6⟩⟩
      unfold insOwned
      icases Hin with ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLast c _ _ _ _ _ _ _ _ _ _ _ _ _ _ _ _ _ _ _ _ _ _ _ _)
    ·
      rw [accAt_mid m ρ c t h0 h1]
      unfold outMid
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runMid (F := F) c (grid0.coords t) _ _ _ _ _ _ _ _ _ _ _ _ _ _ (iblk m ρ c 0 t) (iblk m ρ c 1 t) (iblk m ρ c 2 t) (iblk m ρ c 3 t) (iblk m ρ c 4 t) (iblk m ρ c 5 t) (fun h => h0 ((condFirst_iff t).mp h)) (fun h => h1 ((condLast_iff t).mp h)) _).2 Set.univ _)
      isplitl [H0 H1 H2 H3 H4 H5]
      · unfold insOwned
        isplitl [H0]; · iexact H0
        isplitl [H1]; · iexact H1
        isplitl [H2]; · iexact H2
        isplitl [H3]; · iexact H3
        isplitl [H4]; · iexact H4
        iexact H5
      isplitl [H6]; · iexact H6
      iintro ⟨Hin, ⟨%e6, H6⟩⟩
      unfold insOwned
      icases Hin with ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverMid c _ _ _ _ _ _ _ _ _ _ _ _ _ _ _ _ _ _ _ _ _ _ _ _)

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.KernelIdeal.Hand

end
-- ==== Proof.KiEntry.lean ====
/-
  The thread states around the one pallas_call. Before it run 61 host operations over all unscoped buffers; the
  region then takes the four arrays its windows read or write — three input arrays, each read by TWO windows (one
  indexed by the row tile, one by the column tile), so each array's ownership is dealt to its two windows in halves,
  and the 1x1 output array, owned whole — while the program's result buffer and the three arguments bypass it; after
  it one host operation reshapes the kernel's 1x1 result into the scalar result.
-/
import proofs.«102172_j73212012528100_1_alg».proof.Proof.KiBody
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers through the host operations: the core's debts (none) and the generator register. -/
abbrev R (c : Dev nD) : sProp 𝕄 := iprop((∃ r, prngReg c r) ∗ ∃ W, owes (c : Thread nD τ) (0 : CellTallies nD τ sig Unit) W)

/-- The host operations before the region, over all unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m ρ) R

/-- The buffers the rest of the program still speaks of after the region: the kernel's result, the program's result and the three arguments. -/
def S1 : Finset (DevRef τ sig) := {Proc.devRef .tc main_v51, Proc.devRef .tc main_v52, Proc.devRef .tc main_arg0, Proc.devRef .tc main_arg1, Proc.devRef .tc main_arg2}

/-- Their contents when the region is left: the kernel's result as the pipeline wrote it back, the others as the region found them. -/
def V1 (c : Dev nD) : Valuation τ sig (Elt F) :=
  Function.update (StableHlo.after hostOps0 (V₀ m ρ c)) (Proc.devRef .tc main_v51) ((dats m ρ 0 c).arrAt 6 cfg0.N)

/-- The one host operation after the region. -/
def seg1 : Pipeline.HostSeg (Name := ℕ) (U := UR sig nD τ) (pcfgs (F := F)) defs₀ 𝒱₀ L lv :=
  Pipeline.HostSeg.ofOps _ _ _ _ _ S1 hostOps1
    (by intro op h; obtain rfl := List.mem_singleton.mp h; rw [StableHlo.reshape_bufs]; decide)
    (by intro _ h; (repeat (cases h with | head => rfl | tail _ h => ?_)); exact nomatch h) (V1 m ρ) R

/-! ## Entering the region: the arrays dealt to the windows -/

/-- The unscoped buffers the region or the rest of the program speaks of. -/
def A8 : Finset (Ref sig .tc) := {main_v50, main_v49, main_v12, main_v51, main_v52, main_arg0, main_arg1, main_arg2}

omit [FloatOps F] in
theorem A8_sub : A8 ⊆ Finset.univ.filter fun b : Ref sig .tc => ¬ b.isScoped := by
  intro b hb
  refine Finset.mem_filter.mpr ⟨Finset.mem_univ _, ?_⟩
  simp only [A8, Finset.mem_insert, Finset.mem_singleton] at hb
  rcases hb with rfl | rfl | rfl | rfl | rfl | rfl | rfl | rfl <;> decide

/-- A window's array, a whole buffer, at a share and contents of the proof's choosing. -/
theorem arr_pt (c : Dev nD) (w : Fin 7) (q : PosShare TreeShare) (hq : (dats m ρ 0 c).share w = q)
    (G : Buf (Elt F) ((cfg0.win w).arr.view.loc (c.tc : Thread nD τ))) :
    ((cfg0.win w).arr.view.loc (c.tc : Thread nD τ) ↦[(cfg0.win w).arr.view.set]{(dats m ρ 0 c).share w} G : sProp 𝕄)
      = (((c.tc : Thread nD τ).loc (Pipeline.arrRef spec0 w)) ↦{q} G) := by
  rw [(arr_whole0 w).set_eq_univ, hq]

theorem share_out (c : Dev nD) : (dats m ρ 0 c).share 6 = fullShare := by
  unfold Dat.share
  exact if_pos rfl
theorem share_in0 (c : Dev nD) : (dats m ρ 0 c).share 0 = fullShare.left := by
  unfold Dat.share
  rw [if_neg (by decide)]
  rfl
theorem share_in1 (c : Dev nD) : (dats m ρ 0 c).share 1 = fullShare.right := by
  unfold Dat.share
  rw [if_neg (by decide)]
  rfl
theorem share_in2 (c : Dev nD) : (dats m ρ 0 c).share 2 = fullShare.left := by
  unfold Dat.share
  rw [if_neg (by decide)]
  rfl
theorem share_in3 (c : Dev nD) : (dats m ρ 0 c).share 3 = fullShare.right := by
  unfold Dat.share
  rw [if_neg (by decide)]
  rfl
theorem share_in4 (c : Dev nD) : (dats m ρ 0 c).share 4 = fullShare.left := by
  unfold Dat.share
  rw [if_neg (by decide)]
  rfl
theorem share_in5 (c : Dev nD) : (dats m ρ 0 c).share 5 = fullShare.right := by
  unfold Dat.share
  rw [if_neg (by decide)]
  rfl

/-- The unscoped buffers: eight of them named, and the rest. -/
theorem unscopedBufs_eight (c : Dev nD) (W : (b : Ref sig .tc) → Buf (Elt F) ((c.tc : Thread nD τ).loc b)) :
    (unscopedBufs c W : sProp 𝕄) = iprop(((((c.tc : Thread nD τ).loc main_v50) ↦{fullShare} W main_v50) ∗ (((c.tc : Thread nD τ).loc main_v49) ↦{fullShare} W main_v49) ∗ (((c.tc : Thread nD τ).loc main_v12) ↦{fullShare} W main_v12) ∗ (((c.tc : Thread nD τ).loc main_v51) ↦{fullShare} W main_v51) ∗ (((c.tc : Thread nD τ).loc main_v52) ↦{fullShare} W main_v52) ∗ (((c.tc : Thread nD τ).loc main_arg0) ↦{fullShare} W main_arg0) ∗ (((c.tc : Thread nD τ).loc main_arg1) ↦{fullShare} W main_arg1) ∗ (((c.tc : Thread nD τ).loc main_arg2) ↦{fullShare} W main_arg2))
      ∗ bigSep ((Finset.univ.filter fun b : Ref sig .tc => ¬ b.isScoped) \ A8) fun b => (((c.tc : Thread nD τ).loc b) ↦{fullShare} W b)) := by
  unfold unscopedBufs
  rw [bigSep_sdiff_split A8_sub]
  unfold A8
  rw [BI.bigSep_insert (by decide), BI.bigSep_insert (by decide), BI.bigSep_insert (by decide), BI.bigSep_insert (by decide),
    BI.bigSep_insert (by decide), BI.bigSep_insert (by decide), BI.bigSep_insert (by decide), BI.bigSep_singleton]
  rfl

set_option maxHeartbeats 1600000 in
/-- The three input arrays are each read by two windows: the array's full share is dealt in halves. The output array
    goes to its one window whole; the program's result and arguments bypass the region. -/
theorem entry_split (c : Dev nD) :
    (unscopedBufs c (V m ρ c) : sProp 𝕄) ⊢ iprop((dats m ρ 0 c).arrays ((dats m ρ 0 c).arrAt · 0)
      ∗ (((c.tc : Thread nD τ).loc main_v52) ↦{fullShare} V m ρ c main_v52) ∗ (((c.tc : Thread nD τ).loc main_arg0) ↦{fullShare} V m ρ c main_arg0)
      ∗ (((c.tc : Thread nD τ).loc main_arg1) ↦{fullShare} V m ρ c main_arg1) ∗ (((c.tc : Thread nD τ).loc main_arg2) ↦{fullShare} V m ρ c main_arg2)) := by
  rw [unscopedBufs_eight]
  unfold Dat.arrays
  rw [bigSep_W0]
  rw [arr_pt m ρ c 0 _ (share_in0 m ρ c) ((dats m ρ 0 c).arrAt 0 0)]
  rw [arr_pt m ρ c 1 _ (share_in1 m ρ c) ((dats m ρ 0 c).arrAt 1 0)]
  rw [arr_pt m ρ c 2 _ (share_in2 m ρ c) ((dats m ρ 0 c).arrAt 2 0)]
  rw [arr_pt m ρ c 3 _ (share_in3 m ρ c) ((dats m ρ 0 c).arrAt 3 0)]
  rw [arr_pt m ρ c 4 _ (share_in4 m ρ c) ((dats m ρ 0 c).arrAt 4 0)]
  rw [arr_pt m ρ c 5 _ (share_in5 m ρ c) ((dats m ρ 0 c).arrAt 5 0)]
  rw [arr_pt m ρ c 6 _ (share_out m ρ c) ((dats m ρ 0 c).arrAt 6 0)]
  iintro ⟨⟨H50, H49, H12, H51, H52, Ha0, Ha1, Ha2⟩, -⟩
  ihave H50' := (pointsTo_share (PosShare.mem_left_op_right fullShare)).1 $$ H50
  icases H50' with ⟨H50l, H50r⟩
  ihave H49' := (pointsTo_share (PosShare.mem_left_op_right fullShare)).1 $$ H49
  icases H49' with ⟨H49l, H49r⟩
  ihave H12' := (pointsTo_share (PosShare.mem_left_op_right fullShare)).1 $$ H12
  icases H12' with ⟨H12l, H12r⟩
  isplitl [H50l H50r H49l H49r H12l H12r H51]
  · isplitl [H50l]; · iexact H50l
    isplitl [H50r]; · iexact H50r
    isplitl [H49l]; · iexact H49l
    isplitl [H49r]; · iexact H49r
    isplitl [H12l]; · iexact H12l
    isplitl [H12r]; · iexact H12r
    iexact H51
  isplitl [H52]; · iexact H52
  isplitl [Ha0]; · iexact Ha0
  isplitl [Ha1]; · iexact Ha1
  iexact Ha2

/-! ## Leaving the region -/

theorem V1_v51 (c : Dev nD) : V1 m ρ c (Proc.devRef .tc main_v51) = (dats m ρ 0 c).arrAt 6 cfg0.N := by
  unfold V1; exact Function.update_self _ _ _

theorem V1_other (c : Dev nD) (b : Ref sig .tc) (hb : b ≠ main_v51) :
    V1 m ρ c (Proc.devRef .tc b) = V m ρ c b := by
  unfold V1; exact Function.update_of_ne (StableHlo.devRef_ne_of_ne hb) _ _

/-- The five buffers held after the region, one by one. -/
theorem held_five (c : Dev nD) (W : Valuation τ sig (Elt F)) :
    (StableHlo.held (c : Thread nD τ) S1 W : sProp 𝕄) = iprop(((((c.tc : Thread nD τ).1, Proc.devRef .tc main_v51) ↦{fullShare} W (Proc.devRef .tc main_v51))) ∗ ((((c.tc : Thread nD τ).1, Proc.devRef .tc main_v52) ↦{fullShare} W (Proc.devRef .tc main_v52))) ∗ ((((c.tc : Thread nD τ).1, Proc.devRef .tc main_arg0) ↦{fullShare} W (Proc.devRef .tc main_arg0))) ∗ ((((c.tc : Thread nD τ).1, Proc.devRef .tc main_arg1) ↦{fullShare} W (Proc.devRef .tc main_arg1))) ∗ ((((c.tc : Thread nD τ).1, Proc.devRef .tc main_arg2) ↦{fullShare} W (Proc.devRef .tc main_arg2)))) := by
  unfold StableHlo.held S1
  rw [BI.bigSep_insert (by decide), BI.bigSep_insert (by decide), BI.bigSep_insert (by decide), BI.bigSep_insert (by decide), BI.bigSep_singleton]
  rfl

/-- The kernel's result array as the last write-back left it, beside the bypassing buffers: what the host operation
    after the region runs over. -/
theorem exit_join (c : Dev nD) :
    iprop((dats m ρ 0 c).arrays ((dats m ρ 0 c).arrAt · cfg0.N)
      ∗ (((c.tc : Thread nD τ).loc main_v52) ↦{fullShare} V m ρ c main_v52) ∗ (((c.tc : Thread nD τ).loc main_arg0) ↦{fullShare} V m ρ c main_arg0)
      ∗ (((c.tc : Thread nD τ).loc main_arg1) ↦{fullShare} V m ρ c main_arg1) ∗ (((c.tc : Thread nD τ).loc main_arg2) ↦{fullShare} V m ρ c main_arg2))
      ⊢ (StableHlo.held (c : Thread nD τ) S1 (V1 m ρ c) : sProp 𝕄) := by
  rw [held_five, V1_v51, V1_other m ρ c main_v52 (by decide), V1_other m ρ c main_arg0 (by decide), V1_other m ρ c main_arg1 (by decide),
    V1_other m ρ c main_arg2 (by decide)]
  unfold Dat.arrays
  rw [bigSep_W0, arr_pt m ρ c 6 _ (share_out m ρ c) ((dats m ρ 0 c).arrAt 6 cfg0.N)]
  iintro ⟨⟨-, -, -, -, -, -, H51⟩, H52, Ha0, Ha1, Ha2⟩
  isplitl [H51]; · iexact H51
  isplitl [H52]; · iexact H52
  isplitl [Ha0]; · iexact Ha0
  isplitl [Ha1]; · iexact Ha1
  iexact Ha2

end Cert.KernelIdeal.Hand

end
-- ==== Proof.KiLaunch.lean ====
/-
  The run of the whole program: the host operations before the pallas_call, the pallas_call under the pipeline's
  launch rule with the body obligation of every grid point, and the host operation after it. Every weakly fair
  execution terminates without a fault; the result buffer ends at the reshape of the kernel's 1x1 result array as the
  last grid point wrote it back, and the three argument arrays end as they were launched.
-/
import proofs.«102172_j73212012528100_1_alg».proof.Proof.KiEntry
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The region -/

set_option backward.isDefEq.respectTransparency.types false in
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) S1 (V1 m ρ c) ∗ R c)
  X c := iprop(∃ r, prngReg c r)
  Y c := iprop(∃ r, prngReg c r)
  Z c := iprop((((c.tc : Thread nD τ).loc main_v52) ↦{fullShare} V m ρ c main_v52) ∗ (((c.tc : Thread nD τ).loc main_arg0) ↦{fullShare} V m ρ c main_arg0)
      ∗ (((c.tc : Thread nD τ).loc main_arg1) ↦{fullShare} V m ρ c main_arg1) ∗ (((c.tc : Thread nD τ).loc main_arg2) ↦{fullShare} V m ρ c main_arg2))
  hentry c := by
    rw [show StableHlo.held (c : Thread nD τ) (Pipeline.ucRefs τ sig) (StableHlo.after hostOps0 (V₀ m ρ c)) = unscopedBufs c (V m ρ c) from (Pipeline.unscopedBufs_held c _).symm,
      Pipeline.ownSems0_none]
    iintro ⟨⟨Hub, Hp, HO⟩, -, -⟩
    ihave H := (entry_split m ρ c) $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact HZ
  hin c := by
    rw [show (dats m ρ 0 c).Φ 0 = Pipeline.ΦA spec0 c from rfl]; unfold Pipeline.ΦA
    iintro ⟨Hp, -, Hr⟩
    isplitl [Hr] <;> iassumption
  hout c := by
    rw [Pipeline.ownSems0_none, show (dats m ρ 0 c).Φ (Fin.last cfg0.N) = Pipeline.ΦA spec0 c from rfl]; unfold Pipeline.ΦA
    iintro ⟨Hr, Hp⟩
    isplitl [Hp]; · iexact Hp
    isplitr; · iempintro
    iexact Hr
  hexit c := by
    iintro ⟨Ha, HO, HY, HZ⟩
    imodintro
    isplitl [Ha HZ]
    · iapply (exit_join m ρ c)
      isplitl [Ha] <;> iassumption
    isplitl [HY]; · iexact HY
    unfold Pipeline.Dat.owesAt Pipeline.owesWithin
    icases HO with ⟨%W, -, HO⟩; iexists W; iexact HO

/-- @main as the list of the three. -/
abbrev segs : List (Pipeline.Seg (pcfgs (F := F)) adm (dats m ρ) () defs₀ 𝒱₀ L lv) := [.host (seg0 m ρ), .region (reg0 m ρ), .host (seg1 m ρ)]

/-! ## The run -/

/-- What the program's last thread state says of a final memory: the program's result buffer holds the host
    operation's result of the kernel's result array, and the arguments hold what they held at launch. -/
def QC : PUnit × MemSt nD τ sig (Elt F) → Prop := fun r =>
  ∀ c : Dev nD, r.2.mem ((c : Thread nD τ).loc main_v52) = StableHlo.after hostOps1 (V1 m ρ c) (Proc.devRef .tc main_v52)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

/-- The arguments are written by no host operation. -/
theorem arg_kept (c : Dev nD) (b : Ref sig .tc) (hb : b = main_arg0 ∨ b = main_arg1 ∨ b = main_arg2) :
    StableHlo.after hostOps1 (V1 m ρ c) (Proc.devRef .tc b) = m ((c : Thread nD τ).loc b) := by
  have h1 : StableHlo.after hostOps1 (V1 m ρ c) (Proc.devRef .tc b) = V1 m ρ c (Proc.devRef .tc b) :=
    StableHlo.after_of_forall_not_mem (b := Proc.devRef .tc b) hostOps1 (V1 m ρ c) (by
      intro op hop
      obtain rfl := List.mem_singleton.mp hop
      simp only [StableHlo.reshape_writes, Finset.mem_singleton]
      exact StableHlo.devRef_ne_of_ne (by rcases hb with rfl | rfl | rfl <;> decide))
  rw [h1, V1_other m ρ c b (by rcases hb with rfl | rfl | rfl <;> decide)]
  exact StableHlo.after_of_forall_not_mem (b := Proc.devRef .tc b) hostOps0 (V₀ m ρ c) (by
    intro op hop
    simp only [List.mem_cons, List.mem_nil_iff, or_false] at hop
    rcases hb with rfl | rfl | rfl <;>
    (rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
      simp only [StableHlo.unary_writes, StableHlo.binary_writes, StableHlo.ternary_writes, StableHlo.nullary_writes, StableHlo.reshape_writes, Finset.mem_singleton] <;>
      exact StableHlo.devRef_ne_of_ne (by decide)))

set_option maxHeartbeats 1600000 in
set_option backward.isDefEq.respectTransparency.types false in
/-- For any float values, from any memory with zero counters: every weakly fair execution of @main terminates, nothing
    faulting, the program's result buffer at the last host operation's result of the kernel's result array and the
    arguments as they were. -/
theorem run_main : θ_run defs (onTc (τ := τ) (main (F := F))) ⟨m, fun _ => 0, ρ⟩ (QC m ρ) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      refine (show (ownU _ : sProp 𝕄) ⊢ BI.own (EP (initOf (Pipeline.cells (Pipeline.pin (pcfgs (F := F)) adm) cellOf_inj) (Pipeline.launchToks (Pipeline.pin (pcfgs (F := F)) adm) cellOf_inj))) from .rfl).trans ?_
      iintro Hu; imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => iprop(StableHlo.held (c : Thread nD τ) S1 (StableHlo.after hostOps1 (V1 m ρ c)) ∗ ∃ r, prngReg c r))
    (hch := ⟨fun _ => .rfl, fun _ => .rfl, fun _ => .rfl, fun c => by
      show iprop(StableHlo.held (c : Thread nD τ) S1 (StableHlo.after hostOps1 (V1 m ρ c)) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, Hp, -⟩, -⟩
      imodintro
      isplitl [Hh]; · iexact Hh
      isplitl [Hp]; · iexists _; iexact Hp
      iexists ∅; iexact HO)
    (QY := fun c s => s.mem ((c : Thread nD τ).loc main_v52) = StableHlo.after hostOps1 (V1 m ρ c) (Proc.devRef .tc main_v52)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    (hfin := fun c s' => by
      rw [held_five, arg_kept m ρ c main_arg0 (.inl rfl), arg_kept m ρ c main_arg1 (.inr (.inl rfl)), arg_kept m ρ c main_arg2 (.inr (.inr rfl))]
      iintro ⟨⟨⟨-, H52, Ha0, Ha1, Ha2⟩, -⟩, HSI⟩
      icombine HSI H52 gives %h52
      icombine HSI Ha0 gives %h0
      icombine HSI Ha1 gives %h1
      icombine HSI Ha2 gives %h2
      imodintro
      isplitr
      · ipureintro
        exact ⟨Buf.eq_of_forall_mem_univ h52, Buf.eq_of_forall_mem_univ h0, Buf.eq_of_forall_mem_univ h1, Buf.eq_of_forall_mem_univ h2⟩
      iexact HSI)
    (hQ := fun _ h => h)

end Cert.KernelIdeal.Hand

end
-- ==== Proof.PairSpec.lean ====
/-
  The mathematics both programs compute, over the extended reals.

  For sampled positions N, M of 2048 and batch b of 8, with feature rows f b N ∈ ℝ̄^128, guidance rows g b N ∈ ℝ̄^3
  and normalized coordinates u N ∈ ℝ^2, both programs form the squared distances through the Gram expansion
  |x|² + |y|² − 2⟨x, y⟩ clamped at 0, an affinity 10·exp(−d_u/0.2 − d_g/0.3) + 3·exp(−d_u/0.01), the product of the
  feature distance and the affinity, and the mean of the products. They differ in two places only. The reference
  takes the coordinate distance as Σ (u − v)², the kernel through the clamped Gram expansion: equal on real
  coordinates. And the kernel sums 64 tiles of 256 × 256 positions one after the other where the reference sums
  all 2048 × 2048 at once: equal because addition of extended reals is commutative and associative.
-/
import Idealize.ShloMosaic.PureOps.Ideal
import Mathlib.Algebra.BigOperators.Fin
import Mathlib.Algebra.BigOperators.Intervals

noncomputable section

namespace PairSpec

open Idealize.ShloMosaic

/-! ## Two literals -/

/-- The f32 word of `2.0` denotes the real 2, -/
theorem lit_two : Ideal.ofBits .f32 0x40000000#32 = ((2 : ℝ) : EReal) := by
  simp [Ideal.ofBits, Ideal.ieee, -EReal.coe_mul]; norm_num

/-- and the word of `224.0` the real 224. -/
theorem lit_224 : Ideal.ofBits .f32 0x43600000#32 = ((224 : ℝ) : EReal) := by
  simp [Ideal.ofBits, Ideal.ieee, -EReal.coe_mul]; norm_num

/-! ## Squared distances -/

/-- The squared distance of two rows through the Gram expansion, clamped at zero (`k2` stands for the literal 2). -/
def gramDist (k2 : EReal) {C : ℕ} (x y : Fin C → EReal) : EReal :=
  max ((∑ c, x c * x c) + (∑ c, y c * y c) - k2 * ∑ c, x c * y c) 0

/-- The squared distance of two rows as the sum of squared differences. -/
def diffDist {C : ℕ} (x y : Fin C → EReal) : EReal := 0 + ∑ c, (x c - y c) * (x c - y c)

/-- On real rows of length two the two agree: (a−c)² + (b−d)² = (a²+b²) + (c²+d²) − 2(ac+bd) ≥ 0. -/
theorem gramDist_eq_diffDist (x y : Fin 2 → ℝ) :
    gramDist ((2 : ℝ) : EReal) (fun c => (x c : EReal)) (fun c => (y c : EReal)) = diffDist (fun c => (x c : EReal)) (fun c => (y c : EReal)) := by
  unfold gramDist diffDist
  simp only [Fin.sum_univ_two]
  simp only [← EReal.coe_mul, ← EReal.coe_add, ← EReal.coe_sub, zero_add]
  have hnn : 0 ≤ (x 0 - y 0) * (x 0 - y 0) + (x 1 - y 1) * (x 1 - y 1) :=
    add_nonneg (mul_self_nonneg _) (mul_self_nonneg _)
  have he : x 0 * x 0 + x 1 * x 1 + (y 0 * y 0 + y 1 * y 1) - 2 * (x 0 * y 0 + x 1 * y 1)
      = (x 0 - y 0) * (x 0 - y 0) + (x 1 - y 1) * (x 1 - y 1) := by ring
  rw [he]
  exact max_eq_left (by exact_mod_cast hnn)

/-! ## One pair's term -/

/-- The product of the feature distance `fd` and the affinity of the coordinate distance `cd` and the guidance distance `gd`,
    the coordinate distance entering as `0 − cd`; the `k…` stand for the literals 10, 0.2, 0.3, 3, 0.01. -/
def term (k10 k02 k03 k3 k001 : EReal) (fd gd cd : EReal) : EReal :=
  fd * ((k10 * Ideal.exp (Ideal.div (0 - cd) k02 - Ideal.div gd k03) + k3 * Ideal.exp (Ideal.div (0 - cd) k001)) - 0)

theorem zero_sub_eq_neg (x : EReal) : 0 - x = -x := by rw [sub_eq_add_neg, zero_add]

/-! ## Sums: one point after another, tile by tile -/

/-- The accumulator after point `n`: cleared at point 0, then each point's contribution added in turn. -/
def chainSum (T : ℕ → EReal) : ℕ → EReal
  | 0 => 0 + T 0
  | n + 1 => chainSum T n + T (n + 1)

theorem chainSum_eq (T : ℕ → EReal) : ∀ n, chainSum T n = ∑ t ∈ Finset.range (n + 1), T t
  | 0 => by simp [chainSum]
  | n + 1 => by rw [chainSum, chainSum_eq T n, Finset.sum_range_succ _ (n + 1)]

theorem chainSum_congr {T T' : ℕ → EReal} : ∀ n, (∀ t ≤ n, T t = T' t) → chainSum T n = chainSum T' n
  | 0, h => by rw [chainSum, chainSum, h 0 (le_refl 0)]
  | n + 1, h => by rw [chainSum, chainSum, chainSum_congr n fun t ht => h t (Nat.le_succ_of_le ht), h (n + 1) (le_refl _)]

/-- A sum over 2048 positions is the sum over 8 tiles of 256 positions each. -/
theorem sum_tiles (h : ℕ → EReal) : ∑ N : Fin 2048, h N.val = ∑ i : Fin 8, ∑ n : Fin 256, h (256 * i.val + n.val) := by
  rw [← Finset.sum_product', Finset.univ_product_univ]
  rw [← (finProdFinEquiv (m := 8) (n := 256)).sum_comp]
  refine Finset.sum_congr rfl fun p _ => ?_
  show h (p.2.val + 256 * p.1.val) = _
  rw [Nat.add_comm]

/-- A sum over the 64 grid points in row-major order is the double sum over the 8 × 8 tile coordinates. -/
theorem sum_points (g : ℕ → ℕ → EReal) : ∑ t ∈ Finset.range 64, g (t / 8) (t % 8) = ∑ i : Fin 8, ∑ j : Fin 8, g i.val j.val := by
  rw [Finset.sum_range fun t => g (t / 8) (t % 8)]
  rw [← Finset.sum_product', Finset.univ_product_univ]
  rw [← (finProdFinEquiv (m := 8) (n := 8)).sum_comp]
  refine Finset.sum_congr rfl fun p _ => ?_
  show g ((p.2.val + 8 * p.1.val) / 8) ((p.2.val + 8 * p.1.val) % 8) = _
  have h2 := p.2.isLt
  rw [Nat.add_mul_div_left _ _ (by decide : 0 < 8), Nat.div_eq_of_lt h2, Nat.zero_add, Nat.add_mul_mod_self_left, Nat.mod_eq_of_lt h2]

/-- The 64 tile sums together are the sum over all pairs of positions. -/
theorem sum_all_tiles (E : Fin 8 → ℕ → ℕ → EReal) :
    ∑ t ∈ Finset.range 64, (∑ b : Fin 8, ∑ n : Fin 256, ∑ m : Fin 256, E b (256 * (t / 8) + n.val) (256 * (t % 8) + m.val))
      = ∑ b : Fin 8, ∑ N : Fin 2048, ∑ M : Fin 2048, E b N.val M.val := by
  rw [sum_points fun i j => ∑ b : Fin 8, ∑ n : Fin 256, ∑ m : Fin 256, E b (256 * i + n.val) (256 * j + m.val)]
  have hR : ∀ b : Fin 8, ∑ N : Fin 2048, ∑ M : Fin 2048, E b N.val M.val
      = ∑ i : Fin 8, ∑ n : Fin 256, ∑ j : Fin 8, ∑ m : Fin 256, E b (256 * i.val + n.val) (256 * j.val + m.val) := fun b => by
    rw [sum_tiles fun N => ∑ M : Fin 2048, E b N M.val]
    refine Finset.sum_congr rfl fun i _ => Finset.sum_congr rfl fun n _ => ?_
    exact sum_tiles fun M => E b (256 * i.val + n.val) M
  simp only [hR]
  refine Eq.symm ?_
  refine Finset.sum_comm.trans ?_
  refine Finset.sum_congr rfl fun i _ => ?_
  refine (Finset.sum_congr rfl fun b _ => Finset.sum_comm).trans ?_
  exact Finset.sum_comm

/-- Position `n` of tile `i` among the 2048 positions. -/
def tix (i n : ℕ) : Fin 2048 := ⟨(256 * i + n) % 2048, Nat.mod_lt _ (by decide)⟩

/-- The accumulator after the last point holds the sum over all pairs of positions. -/
theorem kernel_total (E : Fin 8 → Fin 2048 → Fin 2048 → EReal) :
    chainSum (fun t => ∑ b : Fin 8, ∑ n : Fin 256, ∑ m : Fin 256, E b (tix (t / 8) n.val) (tix (t % 8) m.val)) 63
      = ∑ b : Fin 8, ∑ N : Fin 2048, ∑ M : Fin 2048, E b N M := by
  rw [chainSum_eq]
  refine (sum_all_tiles fun b N M => E b ⟨N % 2048, Nat.mod_lt _ (by decide)⟩ ⟨M % 2048, Nat.mod_lt _ (by decide)⟩).trans ?_
  refine Finset.sum_congr rfl fun b _ => Finset.sum_congr rfl fun N _ => Finset.sum_congr rfl fun M _ => ?_
  congr 1 <;> exact Fin.ext (Nat.mod_eq_of_lt (Fin.isLt _))

end PairSpec

end
-- ==== Proof.LibUnitAxes.lean ====
/-
  Unit axes inserted by a shape cast and filled by a broadcast, read at an index.

  Broadcasting a matrix along a new axis is written, on vectors, as a shape cast that inserts an axis of extent one
  followed by a broadcast along that axis. Read at an index `(i, j, k)` of the rank-3 result, the composite is the matrix
  at the two coordinates it keeps: `(i, k)` when the new axis is the middle one, `(j, k)` when it leads, `(i, j)` when it
  trails. The casts keep row-major positions (an axis of extent one contributes the digit zero); the broadcasts read
  coordinate zero on the unit axis and the result's own coordinate elsewhere.
-/
import Idealize.ShloMosaic.Lib.ValueIdx
import Idealize.ShloMosaic.Lib.ValueLayout
import Idealize.ShloMosaic.Lib.Pipeline.Value

namespace Idealize.ShloMosaic.UnitAxes

open Idealize.ShloMosaic Idealize.ShloMosaic.ValueIdx

variable {α : Type}

/-! ## The casts -/

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## The broadcasts -/

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## A matrix broadcast along a new axis -/

/-- A matrix over `(i, k)` repeated along a new MIDDLE axis. -/
theorem along_middle {a b c : ℕ} (y : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ y h) h' (ix3 i j k) = y (ix2 i k) :=
  (broadcastTo_a1c_abc_apply _ h' i j k).trans (shapeCast_ac_a1c_apply y h i 0 k)

/-- A matrix over `(j, k)` repeated along a new LEADING axis. -/
theorem along_leading {a b c : ℕ} (y : (⟨2, ![b, c]⟩ : Shape).Idx → α)
    (h : (⟨2, ![b, c]⟩ : Shape).ShapeCasts ⟨3, ![1, b, c]⟩) (h' : (⟨3, ![1, b, c]⟩ : Shape).Broadcasts ⟨3, ![a, b, c]⟩)
    (i : Fin a) (j : Fin b) (k : Fin c) :
    broadcastTo ⟨3, ![a, b, c]⟩ (shapeCast ⟨3, ![1, b, c]⟩ y h) h' (ix3 i j k) = y (ix2 j k) :=
  (broadcastTo_1bc_abc_apply _ h' i j k).trans (shapeCast_ab_1ab_apply y h 0 j k)

/-- A matrix over `(i, j)` repeated along a new TRAILING axis. -/
theorem along_trailing {a b c : ℕ} (y : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ y h) h' (ix3 i j k) = y (ix2 i j) :=
  (broadcastTo_ab1_abc_apply _ h' i j k).trans (shapeCast_ab_ab1_apply y h i j 0)

end Idealize.ShloMosaic.UnitAxes
-- ==== Proof.LibKeepdims.lean ====
/-
  General lemmas: the "keepdims" column forms of a rank-2 array read at an index.
  A vector of length `n` cast to an `[n, 1]` column, and an `[n, 1]` column broadcast along its unit axis to
  `[n, b]`, each read at an index built with `ix2`; and the index a reduction over the last axis of an `[n, b]`
  array inserts.
-/
import Idealize.ShloMosaic.Lib.ValueIdx
import Idealize.ShloMosaic.Lib.Pipeline.Value
import Idealize.ShloMosaic.Lib.ValueLayout

noncomputable section

namespace Keepdims

open Idealize.ShloMosaic Idealize.ShloMosaic.ValueIdx

variable {α : Type}

/-- An `[n, 1]` column broadcast to `[n, b]` reads, at `(p, j)`, the column at `p`. -/
theorem broadcastTo_a1_ab_apply {n b : ℕ} (v : (⟨2, ![n, 1]⟩ : Shape).Idx → α) (h : (⟨2, ![n, 1]⟩ : Shape).Broadcasts ⟨2, ![n, b]⟩)
    (p : Fin n) (j : Fin b) : broadcastTo ⟨2, ![n, b]⟩ v h (ix2 p j) = v (ix2 p (0 : Fin 1)) := by
  refine broadcastTo_apply v h (ix2 p j) (ix2 p (0 : Fin 1)) fun ax => ?_
  match ax with
  | ⟨0, _⟩ =>
    show p.val = if n = 1 then 0 else p.val
    split
    · have := p.isLt; omega
    · rfl
  | ⟨1, _⟩ => rfl

/-- A length-`n` vector cast to an `[n, 1]` column reads, at `(p, 0)`, the vector at `p`. -/
theorem shapeCast_a_a1_apply {n : ℕ} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Keepdims

end
-- ==== Proof.KiTile.lean ====
/-
  The kernel body's arithmetic at one grid point, read index by index over the extended reals: the 1x1 value the
  body stores is the accumulator it loaded plus the sum, over the batch, the 256 row positions and the 256 column
  positions of the tile, of the feature distance times the affinity of the coordinate and guidance distances, each
  distance a clamped Gram expansion of two rows of the loaded blocks.
-/
import proofs.«102172_j73212012528100_1_alg».proof.Proof.Gen.KernelIdeal.Skeleton
import proofs.«102172_j73212012528100_1_alg».proof.Proof.PairSpec
import proofs.«102172_j73212012528100_1_alg».proof.Proof.LibUnitAxes
import proofs.«102172_j73212012528100_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx

/-- The extended real an f32 word denotes. -/
abbrev lit (w : BitVec 32) : EReal := Ideal.ofBits .f32 w

/-- A row's sum of squares. -/
theorem sq_f_n (x : Vec Ideal S8x256x128 .f32) (b : Fin 8) (n : Fin 256) :
    k0_pay10 (F := Ideal) x (ix2 b n) = ∑ k : Fin 128, x (ix3 b n k) * x (ix3 b n k) := by
  unfold k0_pay10 k0_pay4
  simp only [shapeCast_self]
  refine (Ideal.multiReduction_add_single _ 0x00000000#32 reduces_S8x256x128_S8x256 (.inl rfl) rfl (ix2 b n)).trans ?_
  refine Finset.sum_congr rfl fun k _ => ?_
  have hl : (reduces_S8x256x128_S8x256).lift (ix2 b n) k = ix3 b n k := funext fun a => Fin.ext (by
    match a with
    | ⟨0, _⟩ => rfl
    | ⟨1, _⟩ => rfl
    | ⟨2, _⟩ => rfl)
  rw [hl]; rfl

/-- A row's sum of squares. -/
theorem sq_f_m (x : Vec Ideal S8x256x128 .f32) (b : Fin 8) (n : Fin 256) :
    k0_pay11 (F := Ideal) x (ix2 b n) = ∑ k : Fin 128, x (ix3 b n k) * x (ix3 b n k) := by
  unfold k0_pay11 k0_pay5
  simp only [shapeCast_self]
  refine (Ideal.multiReduction_add_single _ 0x00000000#32 reduces_S8x256x128_S8x256 (.inl rfl) rfl (ix2 b n)).trans ?_
  refine Finset.sum_congr rfl fun k _ => ?_
  have hl : (reduces_S8x256x128_S8x256).lift (ix2 b n) k = ix3 b n k := funext fun a => Fin.ext (by
    match a with
    | ⟨0, _⟩ => rfl
    | ⟨1, _⟩ => rfl
    | ⟨2, _⟩ => rfl)
  rw [hl]; rfl

/-- A row's sum of squares. -/
theorem sq_g_n (x : Vec Ideal S8x256x3 .f32) (b : Fin 8) (n : Fin 256) :
    k0_pay12 (F := Ideal) x (ix2 b n) = ∑ k : Fin 3, x (ix3 b n k) * x (ix3 b n k) := by
  unfold k0_pay12 k0_pay6
  simp only [shapeCast_self]
  refine (Ideal.multiReduction_add_single _ 0x00000000#32 reduces_S8x256x3_S8x256 (.inl rfl) rfl (ix2 b n)).trans ?_
  refine Finset.sum_congr rfl fun k _ => ?_
  have hl : (reduces_S8x256x3_S8x256).lift (ix2 b n) k = ix3 b n k := funext fun a => Fin.ext (by
    match a with
    | ⟨0, _⟩ => rfl
    | ⟨1, _⟩ => rfl
    | ⟨2, _⟩ => rfl)
  rw [hl]; rfl

/-- A row's sum of squares. -/
theorem sq_g_m (x : Vec Ideal S8x256x3 .f32) (b : Fin 8) (n : Fin 256) :
    k0_pay13 (F := Ideal) x (ix2 b n) = ∑ k : Fin 3, x (ix3 b n k) * x (ix3 b n k) := by
  unfold k0_pay13 k0_pay7
  simp only [shapeCast_self]
  refine (Ideal.multiReduction_add_single _ 0x00000000#32 reduces_S8x256x3_S8x256 (.inl rfl) rfl (ix2 b n)).trans ?_
  refine Finset.sum_congr rfl fun k _ => ?_
  have hl : (reduces_S8x256x3_S8x256).lift (ix2 b n) k = ix3 b n k := funext fun a => Fin.ext (by
    match a with
    | ⟨0, _⟩ => rfl
    | ⟨1, _⟩ => rfl
    | ⟨2, _⟩ => rfl)
  rw [hl]; rfl

/-- A row's sum of squares. -/
theorem sq_c_n (x : Vec Ideal S256x2 .f32) (n : Fin 256) :
    k0_pay14 (F := Ideal) x (ix1 n) = ∑ k : Fin 2, x (ix2 n k) * x (ix2 n k) := by
  unfold k0_pay14 k0_pay8
  simp only [shapeCast_self]
  refine (Ideal.multiReduction_add_single _ 0x00000000#32 reduces_S256x2_S256 (.inl rfl) rfl (ix1 n)).trans ?_
  refine Finset.sum_congr rfl fun k _ => ?_
  have hl : (reduces_S256x2_S256).lift (ix1 n) k = ix2 n k := funext fun a => Fin.ext (by
    match a with
    | ⟨0, _⟩ => rfl
    | ⟨1, _⟩ => rfl)
  rw [hl]; rfl

/-- A row's sum of squares. -/
theorem sq_c_m (x : Vec Ideal S256x2 .f32) (n : Fin 256) :
    k0_pay15 (F := Ideal) x (ix1 n) = ∑ k : Fin 2, x (ix2 n k) * x (ix2 n k) := by
  unfold k0_pay15 k0_pay9
  simp only [shapeCast_self]
  refine (Ideal.multiReduction_add_single _ 0x00000000#32 reduces_S256x2_S256 (.inl rfl) rfl (ix1 n)).trans ?_
  refine Finset.sum_congr rfl fun k _ => ?_
  have hl : (reduces_S256x2_S256).lift (ix1 n) k = ix2 n k := funext fun a => Fin.ext (by
    match a with
    | ⟨0, _⟩ => rfl
    | ⟨1, _⟩ => rfl)
  rw [hl]; rfl

/-- The matrix unit's product into a zero accumulator, read at an index: the inner product of a row of each operand. -/
theorem gram_f (l r : FVec Ideal S8x256x128 .bf16) (b : Fin 8) (n m : Fin 256) :
    matmul (dot_S8x256x128_S8x256x128_S8x256x256_2_2_1_1_0_0) none l r (constant S8x256x256 .f32 0x00000000#32) (ix3 b n m) = ∑ k : Fin 128, l (ix3 b n k) * r (ix3 b m k) := by
  refine (Ideal.matmul_constant_zero_apply (dot_S8x256x128_S8x256x128_S8x256x256_2_2_1_1_0_0) none l r _).trans ?_
  rw [← Equiv.sum_comp (ValueIdx.contrEquiv1 (dot_S8x256x128_S8x256x128_S8x256x256_2_2_1_1_0_0) 128 rfl rfl).symm]
  have hlhs0 : ∀ q : (dot_S8x256x128_S8x256x128_S8x256x256_2_2_1_1_0_0).contr.Idx, ((dot_S8x256x128_S8x256x128_S8x256x256_2_2_1_1_0_0).lhsIdx (ix3 b n m) q 0).val = b.val := fun q => by
    unfold DotDims.lhsIdx
    rw [dif_pos (show (0 : Fin S8x256x128.rank) ∈ (dot_S8x256x128_S8x256x128_S8x256x256_2_2_1_1_0_0).lhsBatch by decide)]
    rfl
  have hlhs1 : ∀ q : (dot_S8x256x128_S8x256x128_S8x256x256_2_2_1_1_0_0).contr.Idx, ((dot_S8x256x128_S8x256x128_S8x256x256_2_2_1_1_0_0).lhsIdx (ix3 b n m) q 1).val = n.val := fun q => by
    unfold DotDims.lhsIdx
    rw [dif_neg (show ¬(1 : Fin S8x256x128.rank) ∈ (dot_S8x256x128_S8x256x128_S8x256x256_2_2_1_1_0_0).lhsBatch by decide), dif_pos (show (1 : Fin S8x256x128.rank) ∈ (dot_S8x256x128_S8x256x128_S8x256x256_2_2_1_1_0_0).lhsNonContracting by decide)]
    rfl
  have hlhs2 : ∀ q : (dot_S8x256x128_S8x256x128_S8x256x256_2_2_1_1_0_0).contr.Idx, ((dot_S8x256x128_S8x256x128_S8x256x256_2_2_1_1_0_0).lhsIdx (ix3 b n m) q 2).val = (q ⟨0, by decide⟩).val := fun q => (dot_S8x256x128_S8x256x128_S8x256x256_2_2_1_1_0_0).lhsIdx_val_of_single rfl _ q
  have hrhs0 : ∀ q : (dot_S8x256x128_S8x256x128_S8x256x256_2_2_1_1_0_0).contr.Idx, ((dot_S8x256x128_S8x256x128_S8x256x256_2_2_1_1_0_0).rhsIdx (ix3 b n m) q 0).val = b.val := fun q => by
    unfold DotDims.rhsIdx
    rw [dif_pos (show (0 : Fin S8x256x128.rank) ∈ (dot_S8x256x128_S8x256x128_S8x256x256_2_2_1_1_0_0).rhsBatch by decide)]
    rfl
  have hrhs1 : ∀ q : (dot_S8x256x128_S8x256x128_S8x256x256_2_2_1_1_0_0).contr.Idx, ((dot_S8x256x128_S8x256x128_S8x256x256_2_2_1_1_0_0).rhsIdx (ix3 b n m) q 1).val = m.val := fun q => by
    unfold DotDims.rhsIdx
    rw [dif_neg (show ¬(1 : Fin S8x256x128.rank) ∈ (dot_S8x256x128_S8x256x128_S8x256x256_2_2_1_1_0_0).rhsBatch by decide), dif_pos (show (1 : Fin S8x256x128.rank) ∈ (dot_S8x256x128_S8x256x128_S8x256x256_2_2_1_1_0_0).rhsNonContracting by decide)]
    rfl
  have hrhs2 : ∀ q : (dot_S8x256x128_S8x256x128_S8x256x256_2_2_1_1_0_0).contr.Idx, ((dot_S8x256x128_S8x256x128_S8x256x256_2_2_1_1_0_0).rhsIdx (ix3 b n m) q 2).val = (q ⟨0, by decide⟩).val := fun q => (dot_S8x256x128_S8x256x128_S8x256x256_2_2_1_1_0_0).rhsIdx_val_of_single rfl _ q
  refine Finset.sum_congr rfl fun k _ => ?_
  have hk := ValueIdx.contrEquiv1_symm_val (dot_S8x256x128_S8x256x128_S8x256x256_2_2_1_1_0_0) 128 rfl rfl k
  have el : (dot_S8x256x128_S8x256x128_S8x256x256_2_2_1_1_0_0).lhsIdx (ix3 b n m) ((ValueIdx.contrEquiv1 (dot_S8x256x128_S8x256x128_S8x256x256_2_2_1_1_0_0) 128 rfl rfl).symm k) = ix3 b n k := funext fun a => Fin.ext (by
    match a with
    | ⟨0, _⟩ => exact hlhs0 _
    | ⟨1, _⟩ => exact hlhs1 _
    | ⟨2, _⟩ => exact (hlhs2 _).trans hk)
  have er : (dot_S8x256x128_S8x256x128_S8x256x256_2_2_1_1_0_0).rhsIdx (ix3 b n m) ((ValueIdx.contrEquiv1 (dot_S8x256x128_S8x256x128_S8x256x256_2_2_1_1_0_0) 128 rfl rfl).symm k) = ix3 b m k := funext fun a => Fin.ext (by
    match a with
    | ⟨0, _⟩ => exact hrhs0 _
    | ⟨1, _⟩ => exact hrhs1 _
    | ⟨2, _⟩ => exact (hrhs2 _).trans hk)
  rw [el, er]

/-- The matrix unit's product into a zero accumulator, read at an index: the inner product of a row of each operand. -/
theorem gram_g (l r : FVec Ideal S8x256x3 .bf16) (b : Fin 8) (n m : Fin 256) :
    matmul (dot_S8x256x3_S8x256x3_S8x256x256_2_2_1_1_0_0) none l r (constant S8x256x256 .f32 0x00000000#32) (ix3 b n m) = ∑ k : Fin 3, l (ix3 b n k) * r (ix3 b m k) := by
  refine (Ideal.matmul_constant_zero_apply (dot_S8x256x3_S8x256x3_S8x256x256_2_2_1_1_0_0) none l r _).trans ?_
  rw [← Equiv.sum_comp (ValueIdx.contrEquiv1 (dot_S8x256x3_S8x256x3_S8x256x256_2_2_1_1_0_0) 3 rfl rfl).symm]
  have hlhs0 : ∀ q : (dot_S8x256x3_S8x256x3_S8x256x256_2_2_1_1_0_0).contr.Idx, ((dot_S8x256x3_S8x256x3_S8x256x256_2_2_1_1_0_0).lhsIdx (ix3 b n m) q 0).val = b.val := fun q => by
    unfold DotDims.lhsIdx
    rw [dif_pos (show (0 : Fin S8x256x3.rank) ∈ (dot_S8x256x3_S8x256x3_S8x256x256_2_2_1_1_0_0).lhsBatch by decide)]
    rfl
  have hlhs1 : ∀ q : (dot_S8x256x3_S8x256x3_S8x256x256_2_2_1_1_0_0).contr.Idx, ((dot_S8x256x3_S8x256x3_S8x256x256_2_2_1_1_0_0).lhsIdx (ix3 b n m) q 1).val = n.val := fun q => by
    unfold DotDims.lhsIdx
    rw [dif_neg (show ¬(1 : Fin S8x256x3.rank) ∈ (dot_S8x256x3_S8x256x3_S8x256x256_2_2_1_1_0_0).lhsBatch by decide), dif_pos (show (1 : Fin S8x256x3.rank) ∈ (dot_S8x256x3_S8x256x3_S8x256x256_2_2_1_1_0_0).lhsNonContracting by decide)]
    rfl
  have hlhs2 : ∀ q : (dot_S8x256x3_S8x256x3_S8x256x256_2_2_1_1_0_0).contr.Idx, ((dot_S8x256x3_S8x256x3_S8x256x256_2_2_1_1_0_0).lhsIdx (ix3 b n m) q 2).val = (q ⟨0, by decide⟩).val := fun q => (dot_S8x256x3_S8x256x3_S8x256x256_2_2_1_1_0_0).lhsIdx_val_of_single rfl _ q
  have hrhs0 : ∀ q : (dot_S8x256x3_S8x256x3_S8x256x256_2_2_1_1_0_0).contr.Idx, ((dot_S8x256x3_S8x256x3_S8x256x256_2_2_1_1_0_0).rhsIdx (ix3 b n m) q 0).val = b.val := fun q => by
    unfold DotDims.rhsIdx
    rw [dif_pos (show (0 : Fin S8x256x3.rank) ∈ (dot_S8x256x3_S8x256x3_S8x256x256_2_2_1_1_0_0).rhsBatch by decide)]
    rfl
  have hrhs1 : ∀ q : (dot_S8x256x3_S8x256x3_S8x256x256_2_2_1_1_0_0).contr.Idx, ((dot_S8x256x3_S8x256x3_S8x256x256_2_2_1_1_0_0).rhsIdx (ix3 b n m) q 1).val = m.val := fun q => by
    unfold DotDims.rhsIdx
    rw [dif_neg (show ¬(1 : Fin S8x256x3.rank) ∈ (dot_S8x256x3_S8x256x3_S8x256x256_2_2_1_1_0_0).rhsBatch by decide), dif_pos (show (1 : Fin S8x256x3.rank) ∈ (dot_S8x256x3_S8x256x3_S8x256x256_2_2_1_1_0_0).rhsNonContracting by decide)]
    rfl
  have hrhs2 : ∀ q : (dot_S8x256x3_S8x256x3_S8x256x256_2_2_1_1_0_0).contr.Idx, ((dot_S8x256x3_S8x256x3_S8x256x256_2_2_1_1_0_0).rhsIdx (ix3 b n m) q 2).val = (q ⟨0, by decide⟩).val := fun q => (dot_S8x256x3_S8x256x3_S8x256x256_2_2_1_1_0_0).rhsIdx_val_of_single rfl _ q
  refine Finset.sum_congr rfl fun k _ => ?_
  have hk := ValueIdx.contrEquiv1_symm_val (dot_S8x256x3_S8x256x3_S8x256x256_2_2_1_1_0_0) 3 rfl rfl k
  have el : (dot_S8x256x3_S8x256x3_S8x256x256_2_2_1_1_0_0).lhsIdx (ix3 b n m) ((ValueIdx.contrEquiv1 (dot_S8x256x3_S8x256x3_S8x256x256_2_2_1_1_0_0) 3 rfl rfl).symm k) = ix3 b n k := funext fun a => Fin.ext (by
    match a with
    | ⟨0, _⟩ => exact hlhs0 _
    | ⟨1, _⟩ => exact hlhs1 _
    | ⟨2, _⟩ => exact (hlhs2 _).trans hk)
  have er : (dot_S8x256x3_S8x256x3_S8x256x256_2_2_1_1_0_0).rhsIdx (ix3 b n m) ((ValueIdx.contrEquiv1 (dot_S8x256x3_S8x256x3_S8x256x256_2_2_1_1_0_0) 3 rfl rfl).symm k) = ix3 b m k := funext fun a => Fin.ext (by
    match a with
    | ⟨0, _⟩ => exact hrhs0 _
    | ⟨1, _⟩ => exact hrhs1 _
    | ⟨2, _⟩ => exact (hrhs2 _).trans hk)
  rw [el, er]

/-- The matrix unit's product into a zero accumulator, read at an index: the inner product of a row of each operand. -/
theorem gram_c (l r : FVec Ideal S256x2 .bf16) (n m : Fin 256) :
    matmul (dot_S256x2_S256x2_S256x256_1_1_0_0_n_n) none l r (constant S256x256 .f32 0x00000000#32) (ix2 n m) = ∑ k : Fin 2, l (ix2 n k) * r (ix2 m k) := by
  refine (Ideal.matmul_constant_zero_apply (dot_S256x2_S256x2_S256x256_1_1_0_0_n_n) none l r _).trans ?_
  rw [← Equiv.sum_comp (ValueIdx.contrEquiv1 (dot_S256x2_S256x2_S256x256_1_1_0_0_n_n) 2 rfl rfl).symm]
  have hlhs0 : ∀ q : (dot_S256x2_S256x2_S256x256_1_1_0_0_n_n).contr.Idx, ((dot_S256x2_S256x2_S256x256_1_1_0_0_n_n).lhsIdx (ix2 n m) q 0).val = n.val := fun q => by
    unfold DotDims.lhsIdx
    rw [dif_neg (show ¬(0 : Fin S256x2.rank) ∈ (dot_S256x2_S256x2_S256x256_1_1_0_0_n_n).lhsBatch by decide), dif_pos (show (0 : Fin S256x2.rank) ∈ (dot_S256x2_S256x2_S256x256_1_1_0_0_n_n).lhsNonContracting by decide)]
    rfl
  have hlhs1 : ∀ q : (dot_S256x2_S256x2_S256x256_1_1_0_0_n_n).contr.Idx, ((dot_S256x2_S256x2_S256x256_1_1_0_0_n_n).lhsIdx (ix2 n m) q 1).val = (q ⟨0, by decide⟩).val := fun q => (dot_S256x2_S256x2_S256x256_1_1_0_0_n_n).lhsIdx_val_of_single rfl _ q
  have hrhs0 : ∀ q : (dot_S256x2_S256x2_S256x256_1_1_0_0_n_n).contr.Idx, ((dot_S256x2_S256x2_S256x256_1_1_0_0_n_n).rhsIdx (ix2 n m) q 0).val = m.val := fun q => by
    unfold DotDims.rhsIdx
    rw [dif_neg (show ¬(0 : Fin S256x2.rank) ∈ (dot_S256x2_S256x2_S256x256_1_1_0_0_n_n).rhsBatch by decide), dif_pos (show (0 : Fin S256x2.rank) ∈ (dot_S256x2_S256x2_S256x256_1_1_0_0_n_n).rhsNonContracting by decide)]
    rfl
  have hrhs1 : ∀ q : (dot_S256x2_S256x2_S256x256_1_1_0_0_n_n).contr.Idx, ((dot_S256x2_S256x2_S256x256_1_1_0_0_n_n).rhsIdx (ix2 n m) q 1).val = (q ⟨0, by decide⟩).val := fun q => (dot_S256x2_S256x2_S256x256_1_1_0_0_n_n).rhsIdx_val_of_single rfl _ q
  refine Finset.sum_congr rfl fun k _ => ?_
  have hk := ValueIdx.contrEquiv1_symm_val (dot_S256x2_S256x2_S256x256_1_1_0_0_n_n) 2 rfl rfl k
  have el : (dot_S256x2_S256x2_S256x256_1_1_0_0_n_n).lhsIdx (ix2 n m) ((ValueIdx.contrEquiv1 (dot_S256x2_S256x2_S256x256_1_1_0_0_n_n) 2 rfl rfl).symm k) = ix2 n k := funext fun a => Fin.ext (by
    match a with
    | ⟨0, _⟩ => exact hlhs0 _
    | ⟨1, _⟩ => exact (hlhs1 _).trans hk)
  have er : (dot_S256x2_S256x2_S256x256_1_1_0_0_n_n).rhsIdx (ix2 n m) ((ValueIdx.contrEquiv1 (dot_S256x2_S256x2_S256x256_1_1_0_0_n_n) 2 rfl rfl).symm k) = ix2 m k := funext fun a => Fin.ext (by
    match a with
    | ⟨0, _⟩ => exact hrhs0 _
    | ⟨1, _⟩ => exact (hrhs1 _).trans hk)
  rw [el, er]

/-! ## The clamped Gram expansions as vectors, read at an index -/

theorem dist3_apply (sqn sqm : FVec Ideal S8x256 .f32) (gram : FVec Ideal S8x256x256 .f32) (b : Fin 8) (n m : Fin 256) :
    maximumf (subf (addf (broadcastTo S8x256x256 (shapeCast S8x256x1 sqn shapeCasts_S8x256_S8x256x1) broadcasts_S8x256x1_S8x256x256)
        (broadcastTo S8x256x256 (shapeCast S8x1x256 sqm shapeCasts_S8x256_S8x1x256) broadcasts_S8x1x256_S8x256x256))
      (mulf (broadcast S8x256x256 (Scalar.ofBits (F := Ideal) .f32 0x40000000#32)) gram)) (broadcast S8x256x256 (Scalar.ofBits (F := Ideal) .f32 0x00000000#32)) (ix3 b n m)
      = max (sqn (ix2 b n) + sqm (ix2 b m) - lit 0x40000000#32 * gram (ix3 b n m)) 0 := by
  show max ((broadcastTo S8x256x256 (shapeCast S8x256x1 sqn shapeCasts_S8x256_S8x256x1) broadcasts_S8x256x1_S8x256x256 (ix3 b n m)
      + broadcastTo S8x256x256 (shapeCast S8x1x256 sqm shapeCasts_S8x256_S8x1x256) broadcasts_S8x1x256_S8x256x256 (ix3 b n m))
      - lit 0x40000000#32 * gram (ix3 b n m)) (lit 0x00000000#32) = _
  rw [UnitAxes.along_trailing sqn _ _ b n m, UnitAxes.along_middle sqm _ _ b n m]
  show max _ (Ideal.ofBits .f32 0x00000000#32) = _
  rw [Ideal.ofBits_zero_f32]

theorem dist2_apply (sqn sqm : FVec Ideal S256 .f32) (gram : FVec Ideal S256x256 .f32) (n m : Fin 256) :
    maximumf (subf (addf (broadcastTo S256x256 (shapeCast S256x1 sqn shapeCasts_S256_S256x1) broadcasts_S256x1_S256x256)
        (broadcastTo S256x256 (shapeCast S1x256 sqm shapeCasts_S256_S1x256) broadcasts_S1x256_S256x256))
      (mulf (broadcast S256x256 (Scalar.ofBits (F := Ideal) .f32 0x40000000#32)) gram)) (broadcast S256x256 (Scalar.ofBits (F := Ideal) .f32 0x00000000#32)) (ix2 n m)
      = max (sqn (ix1 n) + sqm (ix1 m) - lit 0x40000000#32 * gram (ix2 n m)) 0 := by
  show max ((broadcastTo S256x256 (shapeCast S256x1 sqn shapeCasts_S256_S256x1) broadcasts_S256x1_S256x256 (ix2 n m)
      + broadcastTo S256x256 (shapeCast S1x256 sqm shapeCasts_S256_S1x256) broadcasts_S1x256_S256x256 (ix2 n m))
      - lit 0x40000000#32 * gram (ix2 n m)) (lit 0x00000000#32) = _
  rw [Keepdims.broadcastTo_a1_ab_apply _ _ n m, Keepdims.shapeCast_a_a1_apply sqn _ n, broadcastTo_1b_ab_apply _ _ n m, shapeCast_a_1a_apply sqm _ 0 m]
  show max _ (Ideal.ofBits .f32 0x00000000#32) = _
  rw [Ideal.ofBits_zero_f32]

/-! ## The three distances of a pair of positions of the tile -/

/-- The feature distance of row position `n` and column position `m` in batch `b`. -/
theorem featDist_apply (x0 x1 : Vec Ideal S8x256x128 .f32) (b : Fin 8) (n m : Fin 256) :
    k0_pay19 (F := Ideal) (k0_pay10 x0) (k0_pay11 x1) (k0_pay16 x0) (k0_pay17 x1) (ix3 b n m)
      = PairSpec.gramDist (lit 0x40000000#32) (fun k : Fin 128 => x0 (ix3 b n k)) (fun k : Fin 128 => x1 (ix3 b m k)) := by
  unfold k0_pay19
  refine (dist3_apply _ _ _ b n m).trans ?_
  rw [sq_f_n, sq_f_m, gram_f]
  unfold k0_pay16 k0_pay17 k0_pay4 k0_pay5
  simp only [shapeCast_self]
  rfl

/-- The coordinate distance of row position `n` and column position `m`. -/
theorem coordDist_apply (x4 x5 : Vec Ideal S256x2 .f32) (n m : Fin 256) :
    k0_pay20 (F := Ideal) (k0_pay8 x4) (k0_pay9 x5) (k0_pay14 x4) (k0_pay15 x5) (ix2 n m)
      = PairSpec.gramDist (lit 0x40000000#32) (fun k : Fin 2 => x4 (ix2 n k)) (fun k : Fin 2 => x5 (ix2 m k)) := by
  unfold k0_pay20
  refine (dist2_apply _ _ _ n m).trans ?_
  rw [sq_c_n, sq_c_m, gram_c]
  unfold k0_pay8 k0_pay9
  simp only [shapeCast_self]
  rfl

/-- The guidance-and-coordinate factor `exp(−d_u/0.2 − d_g/0.3)` of a pair. -/
theorem expFactor_apply (x2 x3 : Vec Ideal S8x256x3 .f32) (x4 x5 : Vec Ideal S256x2 .f32) (b : Fin 8) (n m : Fin 256) :
    k0_pay21 (F := Ideal) (k0_pay7 x3) (k0_pay8 x4) (k0_pay9 x5) (k0_pay12 x2) (k0_pay13 x3) (k0_pay14 x4) (k0_pay15 x5) (k0_pay18 x2) (ix3 b n m)
      = Ideal.exp (Ideal.div (0 - PairSpec.gramDist (lit 0x40000000#32) (fun k : Fin 2 => x4 (ix2 n k)) (fun k : Fin 2 => x5 (ix2 m k))) (lit 0x3E4CCCCD#32)
          - Ideal.div (PairSpec.gramDist (lit 0x40000000#32) (fun k : Fin 3 => x2 (ix3 b n k)) (fun k : Fin 3 => x3 (ix3 b m k))) (lit 0x3E99999A#32)) := by
  unfold k0_pay21
  change Ideal.exp (broadcastTo S8x256x256 (shapeCast S1x256x256 _ _) _ (ix3 b n m) - Ideal.div ((maximumf (F := Ideal) _ _ : FVec Ideal S8x256x256 .f32) (ix3 b n m)) _) = _
  rw [UnitAxes.along_leading _ _ _ b n m, dist3_apply, sq_g_n, sq_g_m, gram_g]
  change Ideal.exp (Ideal.div (lit 0x00000000#32 - k0_pay20 (F := Ideal) (k0_pay8 x4) (k0_pay9 x5) (k0_pay14 x4) (k0_pay15 x5) (ix2 n m)) (lit 0x3E4CCCCD#32) - _) = _
  rw [coordDist_apply]
  unfold k0_pay18 k0_pay7 k0_pay6
  simp only [shapeCast_self]
  show Ideal.exp (Ideal.div (Ideal.ofBits .f32 0x00000000#32 - _) _ - _) = _
  rw [Ideal.ofBits_zero_f32]
  rfl

/-! ## The three reductions of the tile -/

theorem red_m (v : FVec Ideal S8x256x256 .f32) (b : Fin 8) (n : Fin 256) :
    multiReduction .add [2] S8x256 v 0x00000000#32 reduces_S8x256x256_S8x256 (.inl rfl) rfl (ix2 b n) = ∑ k : Fin 256, v (ix3 b n k) := by
  refine (Ideal.multiReduction_add_single v 0x00000000#32 reduces_S8x256x256_S8x256 (.inl rfl) rfl (ix2 b n)).trans ?_
  refine Finset.sum_congr rfl fun k _ => ?_
  have hl : (reduces_S8x256x256_S8x256).lift (ix2 b n) k = ix3 b n k := funext fun a => Fin.ext (by
    match a with
    | ⟨0, _⟩ => rfl
    | ⟨1, _⟩ => rfl
    | ⟨2, _⟩ => rfl)
  rw [hl]; rfl

theorem red_n (v : FVec Ideal S8x256x1 .f32) (b : Fin 8) (u : Fin 1) :
    multiReduction .add [1] S8x1 v 0x00000000#32 reduces_S8x256x1_S8x1 (.inl rfl) rfl (ix2 b u) = ∑ k : Fin 256, v (ix3 b k u) := by
  refine (Ideal.multiReduction_add_single v 0x00000000#32 reduces_S8x256x1_S8x1 (.inl rfl) rfl (ix2 b u)).trans ?_
  refine Finset.sum_congr rfl fun k _ => ?_
  have hl : (reduces_S8x256x1_S8x1).lift (ix2 b u) k = ix3 b k u := funext fun a => Fin.ext (by
    match a with
    | ⟨0, _⟩ => rfl
    | ⟨1, _⟩ => rfl
    | ⟨2, _⟩ => rfl)
  rw [hl]; rfl

theorem red_b (v : FVec Ideal S8x1x1 .f32) (u w : Fin 1) :
    multiReduction .add [0] S1x1 v 0x00000000#32 reduces_S8x1x1_S1x1 (.inl rfl) rfl (ix2 u w) = ∑ k : Fin 8, v (ix3 k u w) := by
  refine (Ideal.multiReduction_add_single v 0x00000000#32 reduces_S8x1x1_S1x1 (.inl rfl) rfl (ix2 u w)).trans ?_
  refine Finset.sum_congr rfl fun k _ => ?_
  have hl : (reduces_S8x1x1_S1x1).lift (ix2 u w) k = ix3 k u w := funext fun a => Fin.ext (by
    match a with
    | ⟨0, _⟩ => rfl
    | ⟨1, _⟩ => rfl
    | ⟨2, _⟩ => rfl)
  rw [hl]; rfl

/-- The lane sum, the sublane sum and the batch sum in turn are the triple sum. -/
theorem tile_sum (v : FVec Ideal S8x256x256 .f32) (j : S1x1.Idx) :
    shapeCast S1x1 (shapeCast S1x1x1 (multiReduction .add [0] S1x1 (shapeCast S8x1x1 (multiReduction .add [1] S8x1
      (shapeCast S8x256x1 (multiReduction .add [2] S8x256 v 0x00000000#32 reduces_S8x256x256_S8x256 (.inl rfl) rfl) shapeCasts_S8x256_S8x256x1)
      0x00000000#32 reduces_S8x256x1_S8x1 (.inl rfl) rfl) shapeCasts_S8x1_S8x1x1) 0x00000000#32 reduces_S8x1x1_S1x1 (.inl rfl) rfl)
      shapeCasts_S1x1_S1x1x1) shapeCasts_S1x1x1_S1x1 j
      = ∑ b : Fin 8, ∑ n : Fin 256, ∑ m : Fin 256, v (ix3 b n m) := by
  obtain ⟨p, q, rfl⟩ : ∃ (p q : Fin 1), j = ix2 p q := ⟨j 0, j 1, eq_ix2 j⟩
  rw [shapeCast_apply _ shapeCasts_S1x1x1_S1x1 (ix2 p q) (ix3 p q (0 : Fin 1)) (by
    rw [Shape.rowMajor_val_three, Shape.rowMajor_val_two]
    show (p.val * 1 + q.val) * 1 + 0 = p.val * 1 + q.val
    omega)]
  rw [UnitAxes.shapeCast_ab_ab1_apply _ _ p q 0, red_b _ p q]
  refine Finset.sum_congr rfl fun b _ => ?_
  rw [UnitAxes.shapeCast_ab_ab1_apply _ _ b p q, red_n _ b p]
  refine Finset.sum_congr rfl fun n _ => ?_
  rw [UnitAxes.shapeCast_ab_ab1_apply _ _ b n p]
  exact red_m _ b n

/-! ## The point's contribution -/

/-- One grid point's contribution added to the accumulator `xo`: the body's arithmetic as one term of the six input blocks. -/
def tile {F : FTy → Type} [FloatOps F] (x0 x1 : Vec F S8x256x128 .f32) (x2 x3 : Vec F S8x256x3 .f32) (x4 x5 : Vec F S256x2 .f32) (xo : Vec F S1x1 .f32) : Vec F S1x1 .f32 :=
  k0_pay1 (k0_pay19 (k0_pay10 x0) (k0_pay11 x1) (k0_pay16 x0) (k0_pay17 x1))
    (k0_pay20 (k0_pay8 x4) (k0_pay9 x5) (k0_pay14 x4) (k0_pay15 x5))
    (k0_pay21 (k0_pay7 x3) (k0_pay8 x4) (k0_pay9 x5) (k0_pay12 x2) (k0_pay13 x3) (k0_pay14 x4) (k0_pay15 x5) (k0_pay18 x2))
    (k0_pay22 (F := F)) xo

/-- The pair term of row position `n`, column position `m`, batch `b` of a tile, from the six blocks. -/
def pairTerm (x0 x1 : Vec Ideal S8x256x128 .f32) (x2 x3 : Vec Ideal S8x256x3 .f32) (x4 x5 : Vec Ideal S256x2 .f32) (b : Fin 8) (n m : Fin 256) : EReal :=
  PairSpec.term (lit 0x41200000#32) (lit 0x3E4CCCCD#32) (lit 0x3E99999A#32) (lit 0x40400000#32) (lit 0x3C23D70A#32)
    (PairSpec.gramDist (lit 0x40000000#32) (fun k : Fin 128 => x0 (ix3 b n k)) (fun k : Fin 128 => x1 (ix3 b m k)))
    (PairSpec.gramDist (lit 0x40000000#32) (fun k : Fin 3 => x2 (ix3 b n k)) (fun k : Fin 3 => x3 (ix3 b m k)))
    (PairSpec.gramDist (lit 0x40000000#32) (fun k : Fin 2 => x4 (ix2 n k)) (fun k : Fin 2 => x5 (ix2 m k)))

theorem tile_apply (x0 x1 : Vec Ideal S8x256x128 .f32) (x2 x3 : Vec Ideal S8x256x3 .f32) (x4 x5 : Vec Ideal S256x2 .f32) (xo : Vec Ideal S1x1 .f32) (j : S1x1.Idx) :
    tile (F := Ideal) x0 x1 x2 x3 x4 x5 xo j = xo j + ∑ b : Fin 8, ∑ n : Fin 256, ∑ m : Fin 256, pairTerm x0 x1 x2 x3 x4 x5 b n m := by
  unfold tile k0_pay1
  simp only [shapeCast_self]
  refine congrArg (xo j + ·) ((tile_sum _ j).trans ?_)
  refine Finset.sum_congr rfl fun b _ => Finset.sum_congr rfl fun n _ => Finset.sum_congr rfl fun m _ => ?_
  change k0_pay19 (F := Ideal) (k0_pay10 x0) (k0_pay11 x1) (k0_pay16 x0) (k0_pay17 x1) (ix3 b n m)
      * ((lit 0x41200000#32 * k0_pay21 (F := Ideal) (k0_pay7 x3) (k0_pay8 x4) (k0_pay9 x5) (k0_pay12 x2) (k0_pay13 x3) (k0_pay14 x4) (k0_pay15 x5) (k0_pay18 x2) (ix3 b n m)
        + broadcastTo S8x256x256 (shapeCast S1x256x256 _ shapeCasts_S256x256_S1x256x256) broadcasts_S1x256x256_S8x256x256 (ix3 b n m)) - lit 0x00000000#32) = _
  rw [UnitAxes.along_leading _ _ _ b n m, featDist_apply, expFactor_apply]
  change _ * ((_ + lit 0x40400000#32 * Ideal.exp (Ideal.div (lit 0x00000000#32 - k0_pay20 (F := Ideal) (k0_pay8 x4) (k0_pay9 x5) (k0_pay14 x4) (k0_pay15 x5) (ix2 n m)) (lit 0x3C23D70A#32))) - lit 0x00000000#32) = _
  rw [coordDist_apply]
  unfold pairTerm PairSpec.term
  show _ * ((_ + _ * Ideal.exp (Ideal.div (Ideal.ofBits .f32 0x00000000#32 - _) _)) - Ideal.ofBits .f32 0x00000000#32) = _
  rw [Ideal.ofBits_zero_f32]

end Cert.KernelIdeal.Hand
end
-- ==== Proof.KiValue.lean ====
/-
  The kernel's result as a value. The accumulator after point 0 is the cleared accumulator plus the first tile's
  contribution; after every later point it is the previous accumulator plus that tile's contribution, divided by
  the element count after the last point. The last point's write-back puts it in the 1x1 result array, which the
  host operation after the region reshapes into the scalar result.
-/
import proofs.«102172_j73212012528100_1_alg».proof.Proof.KiLaunch
import proofs.«102172_j73212012528100_1_alg».proof.Proof.KiTile
import Idealize.ShloMosaic.Lib.Pipeline.Value
import Idealize.ShloMosaic.Lib.StableHlo.Run
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point leaves the accumulator plus the point's contribution. -/
theorem out_mid (c : Dev nD) (i : grid0.Coords)
    (arg2 : Memref sig .tc .vmem S8x256x128 .f32) (harg2 : arg2.IsWhole) (arg3 : Memref sig .tc .vmem S8x256x128 .f32) (harg3 : arg3.IsWhole)
    (arg4 : Memref sig .tc .vmem S8x256x3 .f32) (harg4 : arg4.IsWhole) (arg5 : Memref sig .tc .vmem S8x256x3 .f32) (harg5 : arg5.IsWhole)
    (arg6 : Memref sig .tc .vmem S256x2 .f32) (harg6 : arg6.IsWhole) (arg7 : Memref sig .tc .vmem S256x2 .f32) (harg7 : arg7.IsWhole)
    (arg8 : Memref sig .tc .vmem S1x1 .f32) (harg8 : arg8.IsWhole)
    (x0 x1 : Vec F S8x256x128 .f32) (x2 x3 : Vec F S8x256x3 .f32) (x4 x5 : Vec F S256x2 .f32) (hc0 : ¬condFirst i) (hc1 : ¬condLast i) (xo : Vec F S1x1 .f32) :
    outMid (F := F) c i arg2 harg2 arg3 harg3 arg4 harg4 arg5 harg5 arg6 harg6 arg7 harg7 arg8 harg8 x0 x1 x2 x3 x4 x5 hc0 hc1 xo = tile x0 x1 x2 x3 x4 x5 xo := by
  unfold outMid
  rw [View.read_writes_eq_canon _ _ _ (coverMid c i arg2 harg2 arg3 harg3 arg4 harg4 arg5 harg5 arg6 harg6 arg7 harg7 arg8 harg8 x0 x1 x2 x3 x4 x5 hc0 hc1 xo)]
  unfold runMid
  dsimp only
  sl_unfold_words
  rw [View.canon_unit_zero hz2]
  unfold tile
  simp only [View.readAt_eq_ld, harg2.read_unread, harg3.read_unread, harg4.read_unread, harg5.read_unread, harg6.read_unread, harg7.read_unread, harg8.read_unread,
    View.ld_unit_zero (S := S8x256x128) hz3, View.ld_unit_zero (S := S8x256x3) hz3, View.ld_unit_zero (S := S256x2) hz2, View.ld_unit_zero (S := S1x1) hz2]

/-- The first point leaves the cleared accumulator plus the point's contribution. -/
theorem out_first (c : Dev nD) (i : grid0.Coords)
    (arg2 : Memref sig .tc .vmem S8x256x128 .f32) (harg2 : arg2.IsWhole) (arg3 : Memref sig .tc .vmem S8x256x128 .f32) (harg3 : arg3.IsWhole)
    (arg4 : Memref sig .tc .vmem S8x256x3 .f32) (harg4 : arg4.IsWhole) (arg5 : Memref sig .tc .vmem S8x256x3 .f32) (harg5 : arg5.IsWhole)
    (arg6 : Memref sig .tc .vmem S256x2 .f32) (harg6 : arg6.IsWhole) (arg7 : Memref sig .tc .vmem S256x2 .f32) (harg7 : arg7.IsWhole)
    (arg8 : Memref sig .tc .vmem S1x1 .f32) (harg8 : arg8.IsWhole)
    (x0 x1 : Vec F S8x256x128 .f32) (x2 x3 : Vec F S8x256x3 .f32) (x4 x5 : Vec F S256x2 .f32) (hc0 : condFirst i) (hc1 : ¬condLast i) :
    outFirst (F := F) c i arg2 harg2 arg3 harg3 arg4 harg4 arg5 harg5 arg6 harg6 arg7 harg7 arg8 harg8 x0 x1 x2 x3 x4 x5 hc0 hc1 = tile x0 x1 x2 x3 x4 x5 (k0_pay3 (F := F)) := by
  unfold outFirst
  rw [View.read_writes_eq_canon _ _ _ (coverFirst c i arg2 harg2 arg3 harg3 arg4 harg4 arg5 harg5 arg6 harg6 arg7 harg7 arg8 harg8 x0 x1 x2 x3 x4 x5 hc0 hc1)]
  unfold runFirst
  dsimp only
  sl_unfold_words
  rw [View.canon_cons_unit_zero (S := S1x1) hz2, View.readCov_unit_zero (S := S1x1) _ hz2]
  unfold tile
  simp only [View.readAt_eq_ld, harg2.read_unread, harg3.read_unread, harg4.read_unread, harg5.read_unread, harg6.read_unread, harg7.read_unread, harg8.read_unread,
    View.ld_unit_zero (S := S8x256x128) hz3, View.ld_unit_zero (S := S8x256x3) hz3, View.ld_unit_zero (S := S256x2) hz2, View.ld_unit_zero (S := S1x1) hz2]

/-- The last point leaves the accumulator plus the point's contribution, divided by the element count. -/
theorem out_last (c : Dev nD) (i : grid0.Coords)
    (arg2 : Memref sig .tc .vmem S8x256x128 .f32) (harg2 : arg2.IsWhole) (arg3 : Memref sig .tc .vmem S8x256x128 .f32) (harg3 : arg3.IsWhole)
    (arg4 : Memref sig .tc .vmem S8x256x3 .f32) (harg4 : arg4.IsWhole) (arg5 : Memref sig .tc .vmem S8x256x3 .f32) (harg5 : arg5.IsWhole)
    (arg6 : Memref sig .tc .vmem S256x2 .f32) (harg6 : arg6.IsWhole) (arg7 : Memref sig .tc .vmem S256x2 .f32) (harg7 : arg7.IsWhole)
    (arg8 : Memref sig .tc .vmem S1x1 .f32) (harg8 : arg8.IsWhole)
    (x0 x1 : Vec F S8x256x128 .f32) (x2 x3 : Vec F S8x256x3 .f32) (x4 x5 : Vec F S256x2 .f32) (hc0 : ¬condFirst i) (hc1 : condLast i) (xo : Vec F S1x1 .f32) :
    outLast (F := F) c i arg2 harg2 arg3 harg3 arg4 harg4 arg5 harg5 arg6 harg6 arg7 harg7 arg8 harg8 x0 x1 x2 x3 x4 x5 hc0 hc1 xo = k0_pay2 (tile x0 x1 x2 x3 x4 x5 xo) := by
  unfold outLast
  rw [View.read_writes_eq_canon _ _ _ (coverLast c i arg2 harg2 arg3 harg3 arg4 harg4 arg5 harg5 arg6 harg6 arg7 harg7 arg8 harg8 x0 x1 x2 x3 x4 x5 hc0 hc1 xo)]
  unfold runLast
  dsimp only
  sl_unfold_words
  rw [View.canon_cons_unit_zero (S := S1x1) hz2, View.readCov_unit_zero (S := S1x1) _ hz2]
  unfold tile
  simp only [View.readAt_eq_ld, harg2.read_unread, harg3.read_unread, harg4.read_unread, harg5.read_unread, harg6.read_unread, harg7.read_unread, harg8.read_unread,
    View.ld_unit_zero (S := S8x256x128) hz3, View.ld_unit_zero (S := S8x256x3) hz3, View.ld_unit_zero (S := S256x2) hz2, View.ld_unit_zero (S := S1x1) hz2]

variable (m : (ℓ : Loc nD τ sig) → Buf (Elt F) ℓ) (ρ : Dev nD → PrngReg)

/-- Point `t`'s contribution added to `xo`, over the point's six blocks. -/
def tileAt (c : Dev nD) (t : Fin cfg0.N) (xo : Vec F S1x1 .f32) : Vec F S1x1 .f32 :=
  tile (iblk m ρ c 0 t) (iblk m ρ c 1 t) (iblk m ρ c 2 t) (iblk m ρ c 3 t) (iblk m ρ c 4 t) (iblk m ρ c 5 t) xo

theorem acc_zero (c : Dev nD) (h : 0 < cfg0.N) : accAt m ρ c 0 h = tileAt m ρ c ⟨0, h⟩ (k0_pay3 (F := F)) :=
  (accAt_first m ρ c ⟨0, h⟩ rfl).trans (out_first ..)

theorem acc_succ (c : Dev nD) (n : ℕ) (h : n + 1 < cfg0.N) (h63 : n + 1 ≠ 63) :
    accAt m ρ c (n + 1) h = tileAt m ρ c ⟨n + 1, h⟩ (accAt m ρ c n (Nat.lt_of_succ_lt h)) := by
  rw [accAt_mid m ρ c ⟨n + 1, h⟩ (Nat.succ_ne_zero n) h63, out_mid]
  rfl

theorem acc_last (c : Dev nD) (h : 63 < cfg0.N) :
    accAt m ρ c 63 h = k0_pay2 (tileAt m ρ c ⟨63, h⟩ (accAt m ρ c 62 (Nat.lt_of_succ_lt h))) := by
  rw [accAt_last m ρ c ⟨63, h⟩ (show (63 : ℕ) ≠ 0 by decide) rfl, out_last]
  rfl

end Cert.KernelIdeal.Hand

end
-- ==== Proof.KiFinal.lean ====
/-
  The accumulator after the last grid point reaches the program's result: the last point's write-back puts it in the
  1x1 result array, whose one block is the whole array, and the host operation after the region reshapes that array
  into the scalar result.
-/
import proofs.«102172_j73212012528100_1_alg».proof.Proof.KiValue
import Idealize.ShloMosaic.Lib.Pipeline.Value
import Idealize.ShloMosaic.Lib.StableHlo.Run
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

attribute [local irreducible] accAt

/-- The last grid point. -/
abbrev t63 : Fin cfg0.N := ⟨63, by rw [show cfg0.N = 64 from N_0]; decide⟩

/-- The accumulator after the last point, as contents of the 1x1 result array. -/
abbrev result (c : Dev nD) : Buf (Elt F) ((c : Thread nD τ).loc main_v51) := accAt m ρ c t63.val t63.isLt

/-- The one write-back, after point 63, writes it: the block is the whole array. -/
theorem flushed_eq (c : Dev nD) (t : Fin cfg0.N) (hf : (cfg0.win 6).flush t = true) :
    (dats m ρ 0 c).flushed 6 t = ((cfg0.win 6).blk t).view.read (Elt F) (result m ρ c) := by
  have hN : cfg0.N = 64 := N_0
  have h3 : t.val = 63 := by have := (flush0_6 t).mp hf; have := t.isLt; omega
  obtain rfl : t = t63 := Fin.ext h3
  show (cfg0.win 6).cut (grid0.coords t63) ((dats m ρ 0 c).after 6 t63) = _
  rw [after6]
  show (cfg0.win 6).cut (grid0.coords t63) (accAt m ρ c t63.val t63.isLt) = ((cfg0.win 6).blk t63).view.read (Elt F) (accAt m ρ c t63.val t63.isLt)
  generalize accAt m ρ c t63.val t63.isLt = X
  have hz' : (fun a => win0_6.index t63 a * main_v51.ty.shape.size a) = fun _ => 0 := funext fun a => by fin_cases a <;> decide
  exact (Memref.read_access_unit_zero (Elt F) main_v51 hz' (fun a => by rw [congrFun hz' a]; simp) X).symm

/-- So the result array ends holding the accumulator after the last point. -/
theorem final_acc (c : Dev nD) : (dats m ρ 0 c).arrAt 6 cfg0.N = result m ρ c :=
  (dats m ρ 0 c).arrAt_eq_of_cover 6 (result m ρ c) (flushed_eq m ρ c) fun i =>
    ⟨t63, (flush0_6 t63).mpr rfl, by
      show i ∈ ((View.whole main_v51).slice (win0_6.rect t63)).set
      rw [View.set_slice_whole, Rect.mem_set_unit]
      intro a
      have h0 : (i 0 : Nat) < 1 := (i 0).isLt
      have h1 : (i 1 : Nat) < 1 := (i 1).isLt
      match a with
      | ⟨0, _⟩ => show win0_6.index t63 0 * win0_6.size 0 ≤ (i 0 : Nat) ∧ (i 0 : Nat) < win0_6.index t63 0 * win0_6.size 0 + win0_6.xsize (grid0.coords t63) 0
                  rw [show win0_6.index t63 0 * win0_6.size 0 = 0 from by decide +kernel, show win0_6.xsize (grid0.coords t63) 0 = 1 from by decide +kernel]; omega
      | ⟨1, _⟩ => show win0_6.index t63 1 * win0_6.size 1 ≤ (i 1 : Nat) ∧ (i 1 : Nat) < win0_6.index t63 1 * win0_6.size 1 + win0_6.xsize (grid0.coords t63) 1
                  rw [show win0_6.index t63 1 * win0_6.size 1 = 0 from by decide +kernel, show win0_6.xsize (grid0.coords t63) 1 = 1 from by decide +kernel]; omega⟩

/-- The host operation after the region, on any contents: the reshape of the 1x1 array to a scalar. -/
theorem reshape_after (W : Valuation τ sig (Elt F)) :
    StableHlo.after hostOps1 W (Proc.devRef .tc main_v52) = shapeCast S_ (W (Proc.devRef .tc main_v51)) shapeCasts_S1x1_S_ := by
  after_results
  rfl

/-- The program's result: the reshape of that array to a scalar. -/
theorem result_v52 (c : Dev nD) :
    StableHlo.after hostOps1 (V1 m ρ c) (Proc.devRef .tc main_v52) = shapeCast S_ (result m ρ c) shapeCasts_S1x1_S_ := by
  rw [reshape_after, V1_v51, final_acc]

end Cert.KernelIdeal.Hand

end
-- ==== Proof.KiIdeal.lean ====
/-
  The kernel's result over the extended reals, in closed form. Each grid point's contribution is the sum of the pair
  terms of the point's 256 row positions and 256 column positions; the accumulator after the last point, divided by the
  element count, is therefore the sum of the pair terms over all 2048 × 2048 pairs of sampled positions and the batch,
  divided by their number, every term a function of the three arrays the host operations before the region prepared.
-/
import proofs.«102172_j73212012528100_1_alg».proof.Proof.KiFinal
import proofs.«102172_j73212012528100_1_alg».proof.Proof.KiTile
import proofs.«102172_j73212012528100_1_alg».proof.Proof.PairSpec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

attribute [local irreducible] accAt

/-- The one index of a 1x1 array. -/
abbrev j0 : S1x1.Idx := ix2 (0 : Fin 1) (0 : Fin 1)

/-! ## The blocks in the arrays -/

theorem idx_w0 : ∀ t : Fin cfg0.N, win0_0.index t 0 = 0 ∧ win0_0.index t 1 = t.val / 8 ∧ win0_0.index t 2 = 0 :=
  (by decide +kernel : ∀ t : Fin grid0.N, win0_0.index t 0 = 0 ∧ win0_0.index t 1 = t.val / 8 ∧ win0_0.index t 2 = 0)

/-- Window 0's block at point `t`, element by element, in the array the window reads. -/
theorem blk0 (c : Dev nD) (t : Fin cfg0.N) (b : Fin 8) (n : Fin 256) (k : Fin 128) :
    (iblk m ρ c 0 t : Vec Ideal S8x256x128 .f32) (ix3 b n k) = (V m ρ c main_v50) (ix3 b (PairSpec.tix (t.val / 8) n.val) k) := by
  have hi := idx_w0 t
  have hN : t.val < 64 := lt_of_lt_of_eq t.isLt (show cfg0.N = 64 from N_0)
  unfold iblk
  rw [View.read_apply]
  show V m ρ c main_v50 _ = V m ρ c main_v50 _
  congr 1
  funext a
  apply Fin.ext
  match a with
  | ⟨0, _⟩ => show win0_0.index t 0 * 8 + 1 * b.val = b.val; rw [hi.1]; omega
  | ⟨1, _⟩ => show win0_0.index t 1 * 256 + 1 * n.val = (256 * (t.val / 8) + n.val) % 2048; rw [hi.2.1]; omega
  | ⟨2, _⟩ => show win0_0.index t 2 * 128 + 1 * k.val = k.val; rw [hi.2.2]; omega

theorem idx_w1 : ∀ t : Fin cfg0.N, win0_1.index t 0 = 0 ∧ win0_1.index t 1 = t.val % 8 ∧ win0_1.index t 2 = 0 :=
  (by decide +kernel : ∀ t : Fin grid0.N, win0_1.index t 0 = 0 ∧ win0_1.index t 1 = t.val % 8 ∧ win0_1.index t 2 = 0)

/-- Window 1's block at point `t`, element by element, in the array the window reads. -/
theorem blk1 (c : Dev nD) (t : Fin cfg0.N) (b : Fin 8) (n : Fin 256) (k : Fin 128) :
    (iblk m ρ c 1 t : Vec Ideal S8x256x128 .f32) (ix3 b n k) = (V m ρ c main_v50) (ix3 b (PairSpec.tix (t.val % 8) n.val) k) := by
  have hi := idx_w1 t
  have hN : t.val < 64 := lt_of_lt_of_eq t.isLt (show cfg0.N = 64 from N_0)
  unfold iblk
  rw [View.read_apply]
  show V m ρ c main_v50 _ = V m ρ c main_v50 _
  congr 1
  funext a
  apply Fin.ext
  match a with
  | ⟨0, _⟩ => show win0_1.index t 0 * 8 + 1 * b.val = b.val; rw [hi.1]; omega
  | ⟨1, _⟩ => show win0_1.index t 1 * 256 + 1 * n.val = (256 * (t.val % 8) + n.val) % 2048; rw [hi.2.1]; omega
  | ⟨2, _⟩ => show win0_1.index t 2 * 128 + 1 * k.val = k.val; rw [hi.2.2]; omega

theorem idx_w2 : ∀ t : Fin cfg0.N, win0_2.index t 0 = 0 ∧ win0_2.index t 1 = t.val / 8 ∧ win0_2.index t 2 = 0 :=
  (by decide +kernel : ∀ t : Fin grid0.N, win0_2.index t 0 = 0 ∧ win0_2.index t 1 = t.val / 8 ∧ win0_2.index t 2 = 0)

/-- Window 2's block at point `t`, element by element, in the array the window reads. -/
theorem blk2 (c : Dev nD) (t : Fin cfg0.N) (b : Fin 8) (n : Fin 256) (k : Fin 3) :
    (iblk m ρ c 2 t : Vec Ideal S8x256x3 .f32) (ix3 b n k) = (V m ρ c main_v49) (ix3 b (PairSpec.tix (t.val / 8) n.val) k) := by
  have hi := idx_w2 t
  have hN : t.val < 64 := lt_of_lt_of_eq t.isLt (show cfg0.N = 64 from N_0)
  unfold iblk
  rw [View.read_apply]
  show V m ρ c main_v49 _ = V m ρ c main_v49 _
  congr 1
  funext a
  apply Fin.ext
  match a with
  | ⟨0, _⟩ => show win0_2.index t 0 * 8 + 1 * b.val = b.val; rw [hi.1]; omega
  | ⟨1, _⟩ => show win0_2.index t 1 * 256 + 1 * n.val = (256 * (t.val / 8) + n.val) % 2048; rw [hi.2.1]; omega
  | ⟨2, _⟩ => show win0_2.index t 2 * 3 + 1 * k.val = k.val; rw [hi.2.2]; omega

theorem idx_w3 : ∀ t : Fin cfg0.N, win0_3.index t 0 = 0 ∧ win0_3.index t 1 = t.val % 8 ∧ win0_3.index t 2 = 0 :=
  (by decide +kernel : ∀ t : Fin grid0.N, win0_3.index t 0 = 0 ∧ win0_3.index t 1 = t.val % 8 ∧ win0_3.index t 2 = 0)

/-- Window 3's block at point `t`, element by element, in the array the window reads. -/
theorem blk3 (c : Dev nD) (t : Fin cfg0.N) (b : Fin 8) (n : Fin 256) (k : Fin 3) :
    (iblk m ρ c 3 t : Vec Ideal S8x256x3 .f32) (ix3 b n k) = (V m ρ c main_v49) (ix3 b (PairSpec.tix (t.val % 8) n.val) k) := by
  have hi := idx_w3 t
  have hN : t.val < 64 := lt_of_lt_of_eq t.isLt (show cfg0.N = 64 from N_0)
  unfold iblk
  rw [View.read_apply]
  show V m ρ c main_v49 _ = V m ρ c main_v49 _
  congr 1
  funext a
  apply Fin.ext
  match a with
  | ⟨0, _⟩ => show win0_3.index t 0 * 8 + 1 * b.val = b.val; rw [hi.1]; omega
  | ⟨1, _⟩ => show win0_3.index t 1 * 256 + 1 * n.val = (256 * (t.val % 8) + n.val) % 2048; rw [hi.2.1]; omega
  | ⟨2, _⟩ => show win0_3.index t 2 * 3 + 1 * k.val = k.val; rw [hi.2.2]; omega

theorem idx_w4 : ∀ t : Fin cfg0.N, win0_4.index t 0 = t.val / 8 ∧ win0_4.index t 1 = 0 :=
  (by decide +kernel : ∀ t : Fin grid0.N, win0_4.index t 0 = t.val / 8 ∧ win0_4.index t 1 = 0)

/-- Window 4's block at point `t`, element by element, in the array the window reads. -/
theorem blk4 (c : Dev nD) (t : Fin cfg0.N) (n : Fin 256) (k : Fin 2) :
    (iblk m ρ c 4 t : Vec Ideal S256x2 .f32) (ix2 n k) = (V m ρ c main_v12) (ix2 (PairSpec.tix (t.val / 8) n.val) k) := by
  have hi := idx_w4 t
  have hN : t.val < 64 := lt_of_lt_of_eq t.isLt (show cfg0.N = 64 from N_0)
  unfold iblk
  rw [View.read_apply]
  show V m ρ c main_v12 _ = V m ρ c main_v12 _
  congr 1
  funext a
  apply Fin.ext
  match a with
  | ⟨0, _⟩ => show win0_4.index t 0 * 256 + 1 * n.val = (256 * (t.val / 8) + n.val) % 2048; rw [hi.1]; omega
  | ⟨1, _⟩ => show win0_4.index t 1 * 2 + 1 * k.val = k.val; rw [hi.2]; omega

theorem idx_w5 : ∀ t : Fin cfg0.N, win0_5.index t 0 = t.val % 8 ∧ win0_5.index t 1 = 0 :=
  (by decide +kernel : ∀ t : Fin grid0.N, win0_5.index t 0 = t.val % 8 ∧ win0_5.index t 1 = 0)

/-- Window 5's block at point `t`, element by element, in the array the window reads. -/
theorem blk5 (c : Dev nD) (t : Fin cfg0.N) (n : Fin 256) (k : Fin 2) :
    (iblk m ρ c 5 t : Vec Ideal S256x2 .f32) (ix2 n k) = (V m ρ c main_v12) (ix2 (PairSpec.tix (t.val % 8) n.val) k) := by
  have hi := idx_w5 t
  have hN : t.val < 64 := lt_of_lt_of_eq t.isLt (show cfg0.N = 64 from N_0)
  unfold iblk
  rw [View.read_apply]
  show V m ρ c main_v12 _ = V m ρ c main_v12 _
  congr 1
  funext a
  apply Fin.ext
  match a with
  | ⟨0, _⟩ => show win0_5.index t 0 * 256 + 1 * n.val = (256 * (t.val % 8) + n.val) % 2048; rw [hi.1]; omega
  | ⟨1, _⟩ => show win0_5.index t 1 * 2 + 1 * k.val = k.val; rw [hi.2]; omega

/-! ## The accumulator, point by point -/

/-- Point `t`'s contribution: the sum of its tile's pair terms. -/
def Tk (c : Dev nD) (t : ℕ) : EReal :=
  if h : t < cfg0.N then ∑ b : Fin 8, ∑ n : Fin 256, ∑ k : Fin 256,
    pairTerm (iblk m ρ c 0 ⟨t, h⟩) (iblk m ρ c 1 ⟨t, h⟩) (iblk m ρ c 2 ⟨t, h⟩) (iblk m ρ c 3 ⟨t, h⟩) (iblk m ρ c 4 ⟨t, h⟩) (iblk m ρ c 5 ⟨t, h⟩) b n k else 0

theorem pay3_zero (j : S1x1.Idx) : k0_pay3 (F := Ideal) j = 0 := by
  unfold k0_pay3
  show Ideal.ofBits .f32 0x00000000#32 = 0
  exact Ideal.ofBits_zero_f32

theorem acc_val (c : Dev nD) : ∀ (n : ℕ) (h : n < cfg0.N), n ≤ 62 → accAt m ρ c n h j0 = PairSpec.chainSum (Tk m ρ c) n
  | 0, h, _ => by
    rw [acc_zero]
    refine (tile_apply _ _ _ _ _ _ _ j0).trans ?_
    rw [pay3_zero]
    unfold PairSpec.chainSum Tk
    rw [dif_pos h]
  | n + 1, h, hle => by
    rw [acc_succ m ρ c n h (by omega)]
    refine (tile_apply _ _ _ _ _ _ _ j0).trans ?_
    rw [acc_val c n (Nat.lt_of_succ_lt h) (by omega)]
    show _ = PairSpec.chainSum (Tk m ρ c) n + Tk m ρ c (n + 1)
    unfold Tk
    rw [dif_pos h]

/-- The result array's one entry: the sum of all 64 contributions divided by the element count. -/
theorem result_val (c : Dev nD) :
    result m ρ c j0 = Ideal.div (PairSpec.chainSum (Tk m ρ c) 63) (lit 0x4C000000#32) := by
  have h63 : 63 < cfg0.N := t63.isLt
  show accAt m ρ c 63 h63 j0 = _
  rw [acc_last m ρ c h63]
  unfold k0_pay2
  simp only [shapeCast_self]
  show Ideal.div (tileAt m ρ c ⟨63, h63⟩ (accAt m ρ c 62 (Nat.lt_of_succ_lt h63)) j0) (lit 0x4C000000#32) = _
  refine congrArg (Ideal.div · (lit 0x4C000000#32)) ?_
  refine (tile_apply _ _ _ _ _ _ _ j0).trans ?_
  rw [acc_val m ρ c 62 (Nat.lt_of_succ_lt h63) (le_refl 62)]
  show _ = PairSpec.chainSum (Tk m ρ c) 62 + Tk m ρ c 63
  unfold Tk
  rw [dif_pos h63]

/-! ## The contributions over the arrays -/

/-- The pair term of batch `b` and sampled positions `N`, `M`, from the three arrays the region reads. -/
def Ek (c : Dev nD) (b : Fin 8) (N M : Fin 2048) : EReal :=
  PairSpec.term (lit 0x41200000#32) (lit 0x3E4CCCCD#32) (lit 0x3E99999A#32) (lit 0x40400000#32) (lit 0x3C23D70A#32)
    (PairSpec.gramDist (lit 0x40000000#32) (fun k : Fin 128 => V m ρ c main_v50 (ix3 b N k)) (fun k : Fin 128 => V m ρ c main_v50 (ix3 b M k)))
    (PairSpec.gramDist (lit 0x40000000#32) (fun k : Fin 3 => V m ρ c main_v49 (ix3 b N k)) (fun k : Fin 3 => V m ρ c main_v49 (ix3 b M k)))
    (PairSpec.gramDist (lit 0x40000000#32) (fun k : Fin 2 => V m ρ c main_v12 (ix2 N k)) (fun k : Fin 2 => V m ρ c main_v12 (ix2 M k)))

theorem Tk_eq (c : Dev nD) (t : ℕ) (h : t ≤ 63) :
    Tk m ρ c t = ∑ b : Fin 8, ∑ n : Fin 256, ∑ k : Fin 256, Ek m ρ c b (PairSpec.tix (t / 8) n.val) (PairSpec.tix (t % 8) k.val) := by
  have ht : t < cfg0.N := by rw [show cfg0.N = 64 from N_0]; omega
  unfold Tk
  rw [dif_pos ht]
  refine Finset.sum_congr rfl fun b _ => Finset.sum_congr rfl fun n _ => Finset.sum_congr rfl fun k _ => ?_
  unfold pairTerm Ek
  simp only [blk0, blk1, blk2, blk3, blk4, blk5]

/-- The kernel's result array's entry, in closed form. -/
theorem result_closed (c : Dev nD) :
    result m ρ c j0 = Ideal.div (∑ b : Fin 8, ∑ N : Fin 2048, ∑ M : Fin 2048, Ek m ρ c b N M) (lit 0x4C000000#32) := by
  rw [result_val, PairSpec.chainSum_congr 63 (fun t ht => Tk_eq m ρ c t ht), PairSpec.kernel_total]

end Cert.KernelIdeal.Hand

end
-- ==== Proof.RefValue.lean ====
/-
  The reference program read index by index over the extended reals: its product term at batch b and sampled
  positions N, M is the feature distance times the affinity of the coordinate and guidance distances, the feature and
  guidance distances clamped Gram expansions over the channels of the gathered arrays, the coordinate distance the sum
  of the two squared differences of the normalized coordinates; the result is the sum of all terms divided by their
  number.
-/
import proofs.«102172_j73212012528100_1_alg».proof.Proof.Gen.ReferenceIdeal.Run
import proofs.«102172_j73212012528100_1_alg».proof.Proof.Gen.ReferenceIdeal.Read
import proofs.«102172_j73212012528100_1_alg».proof.Proof.PairSpec
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Read
open Idealize.ShloMosaic Idealize.ShloMosaic.TcCoe Idealize.ShloMosaic.ValueIdx

/-- The extended real an f32 word denotes. -/
abbrev lit (w : BitVec 32) : EReal := Ideal.ofBits .f32 w

variable (x0 : (⟨S8x3x224x224, .f32⟩ : BufTy).Contents (Elt Ideal)) (x1 : (⟨S8x128x224x224, .f32⟩ : BufTy).Contents (Elt Ideal))
  (x2 : (⟨S2x2048, .i32⟩ : BufTy).Contents (Elt Ideal))

/-- A sampled position's sum of squares over the channels. -/
theorem sqF (b : Fin 8) (N : Fin 2048) :
    val_main_v61 (F := Ideal) x1 x2 (ix2 b N) = ∑ k : Fin 128, val_main_v46 (F := Ideal) x1 x2 (ix3 b k N) * val_main_v46 (F := Ideal) x1 x2 (ix3 b k N) := by
  rw [val_main_v61_apply]
  have e : ∀ k : Fin 128, idx_main_v61 (ix2 b N) k = ix3 b k N := fun k => funext fun a => Fin.ext (by match a with | ⟨0, _⟩ => rfl | ⟨1, _⟩ => rfl | ⟨2, _⟩ => rfl)
  simp only [e]
  show Ideal.ofBits .f32 0x00000000#32 + _ = _
  rw [Ideal.ofBits_zero_f32, zero_add]
  rfl

/-- Two sampled positions' inner product over the channels. -/
theorem gramF (b : Fin 8) (N M : Fin 2048) :
    val_main_v62 (F := Ideal) x1 x2 (ix3 b N M) = ∑ k : Fin 128, val_main_v46 (F := Ideal) x1 x2 (ix3 b k N) * val_main_v46 (F := Ideal) x1 x2 (ix3 b k M) := by
  rw [val_main_v62_apply]
  have el : ∀ k : Fin 128, lidx_main_v62 (ix3 b N M) k = ix3 b k N := fun k => funext fun a => Fin.ext (by match a with | ⟨0, _⟩ => rfl | ⟨1, _⟩ => rfl | ⟨2, _⟩ => rfl)
  have er : ∀ k : Fin 128, ridx_main_v62 (ix3 b N M) k = ix3 b k M := fun k => funext fun a => Fin.ext (by match a with | ⟨0, _⟩ => rfl | ⟨1, _⟩ => rfl | ⟨2, _⟩ => rfl)
  simp only [el, er]

/-- Their squared distance through the Gram expansion. -/
theorem distF (b : Fin 8) (N M : Fin 2048) :
    val_main_v72 (F := Ideal) x1 x2 (ix3 b N M)
      = PairSpec.gramDist (lit 0x40000000#32) (fun k : Fin 128 => val_main_v46 (F := Ideal) x1 x2 (ix3 b k N)) (fun k : Fin 128 => val_main_v46 (F := Ideal) x1 x2 (ix3 b k M)) := by
  have e1 : idx_main_v63 (idx_main_v65 (ix3 b N M)) = ix2 b N := funext fun a => Fin.ext (by match a with | ⟨0, _⟩ => rfl | ⟨1, _⟩ => rfl)
  have e2 : idx_main_v64 (idx_main_v66 (ix3 b N M)) = ix2 b M := funext fun a => Fin.ext (by match a with | ⟨0, _⟩ => rfl | ⟨1, _⟩ => rfl)
  show max ((val_main_v65 (F := Ideal) x1 x2 (ix3 b N M) + val_main_v66 (F := Ideal) x1 x2 (ix3 b N M))
      - val_main_v68 (F := Ideal) (ix3 b N M) * val_main_v62 (F := Ideal) x1 x2 (ix3 b N M)) (val_main_v71 (F := Ideal) (ix3 b N M)) = _
  rw [val_main_v65_apply, val_main_v63_apply, e1, val_main_v66_apply, val_main_v64_apply, e2, sqF, sqF, gramF,
    val_main_v68_apply, val_main_v71_apply]
  show max (_ - Ideal.ofBits .f32 0x40000000#32 * _) (Ideal.ofBits .f32 0x00000000#32) = _
  rw [Ideal.ofBits_zero_f32]
  rfl

/-- A sampled position's sum of squares over the channels. -/
theorem sqG (b : Fin 8) (N : Fin 2048) :
    val_main_v48 (F := Ideal) x0 x2 (ix2 b N) = ∑ k : Fin 3, val_main_v28 (F := Ideal) x0 x2 (ix3 b k N) * val_main_v28 (F := Ideal) x0 x2 (ix3 b k N) := by
  rw [val_main_v48_apply]
  have e : ∀ k : Fin 3, idx_main_v48 (ix2 b N) k = ix3 b k N := fun k => funext fun a => Fin.ext (by match a with | ⟨0, _⟩ => rfl | ⟨1, _⟩ => rfl | ⟨2, _⟩ => rfl)
  simp only [e]
  show Ideal.ofBits .f32 0x00000000#32 + _ = _
  rw [Ideal.ofBits_zero_f32, zero_add]
  rfl

/-- Two sampled positions' inner product over the channels. -/
theorem gramG (b : Fin 8) (N M : Fin 2048) :
    val_main_v49 (F := Ideal) x0 x2 (ix3 b N M) = ∑ k : Fin 3, val_main_v28 (F := Ideal) x0 x2 (ix3 b k N) * val_main_v28 (F := Ideal) x0 x2 (ix3 b k M) := by
  rw [val_main_v49_apply]
  have el : ∀ k : Fin 3, lidx_main_v49 (ix3 b N M) k = ix3 b k N := fun k => funext fun a => Fin.ext (by match a with | ⟨0, _⟩ => rfl | ⟨1, _⟩ => rfl | ⟨2, _⟩ => rfl)
  have er : ∀ k : Fin 3, ridx_main_v49 (ix3 b N M) k = ix3 b k M := fun k => funext fun a => Fin.ext (by match a with | ⟨0, _⟩ => rfl | ⟨1, _⟩ => rfl | ⟨2, _⟩ => rfl)
  simp only [el, er]

/-- Their squared distance through the Gram expansion. -/
theorem distG (b : Fin 8) (N M : Fin 2048) :
    val_main_v59 (F := Ideal) x0 x2 (ix3 b N M)
      = PairSpec.gramDist (lit 0x40000000#32) (fun k : Fin 3 => val_main_v28 (F := Ideal) x0 x2 (ix3 b k N)) (fun k : Fin 3 => val_main_v28 (F := Ideal) x0 x2 (ix3 b k M)) := by
  have e1 : idx_main_v50 (idx_main_v52 (ix3 b N M)) = ix2 b N := funext fun a => Fin.ext (by match a with | ⟨0, _⟩ => rfl | ⟨1, _⟩ => rfl)
  have e2 : idx_main_v51 (idx_main_v53 (ix3 b N M)) = ix2 b M := funext fun a => Fin.ext (by match a with | ⟨0, _⟩ => rfl | ⟨1, _⟩ => rfl)
  show max ((val_main_v52 (F := Ideal) x0 x2 (ix3 b N M) + val_main_v53 (F := Ideal) x0 x2 (ix3 b N M))
      - val_main_v55 (F := Ideal) (ix3 b N M) * val_main_v49 (F := Ideal) x0 x2 (ix3 b N M)) (val_main_v58 (F := Ideal) (ix3 b N M)) = _
  rw [val_main_v52_apply, val_main_v50_apply, e1, val_main_v53_apply, val_main_v51_apply, e2, sqG, sqG, gramG,
    val_main_v55_apply, val_main_v58_apply]
  show max (_ - Ideal.ofBits .f32 0x40000000#32 * _) (Ideal.ofBits .f32 0x00000000#32) = _
  rw [Ideal.ofBits_zero_f32]
  rfl

/-! ## The coordinate distance -/

/-- The squared distance of two sampled positions' normalized coordinates, as the sum of the two squared differences. -/
theorem coordR (u : Fin 1) (N M : Fin 2048) :
    val_main_v10 (F := Ideal) x2 (ix3 u N M)
      = PairSpec.diffDist (fun k : Fin 2 => val_main_v2 (F := Ideal) x2 (ix2 k N)) (fun k : Fin 2 => val_main_v2 (F := Ideal) x2 (ix2 k M)) := by
  have e10 : idx_main_v10 (ix3 u N M) = ix2 N M := funext fun a => Fin.ext (by match a with | ⟨0, _⟩ => rfl | ⟨1, _⟩ => rfl)
  have e9 : ∀ k : Fin 2, idx_main_v9 (ix2 N M) k = ix3 k N M := fun k => funext fun a => Fin.ext (by match a with | ⟨0, _⟩ => rfl | ⟨1, _⟩ => rfl | ⟨2, _⟩ => rfl)
  have e5 : ∀ k : Fin 2, idx_main_v3 (idx_main_v5 (ix3 k N M)) = ix2 k N := fun k => funext fun a => Fin.ext (by match a with | ⟨0, _⟩ => rfl | ⟨1, _⟩ => rfl)
  have e6 : ∀ k : Fin 2, idx_main_v4 (idx_main_v6 (ix3 k N M)) = ix2 k M := fun k => funext fun a => Fin.ext (by match a with | ⟨0, _⟩ => rfl | ⟨1, _⟩ => rfl)
  rw [val_main_v10_apply, e10, val_main_v9_apply]
  simp only [e9]
  have hk : ∀ k : Fin 2, val_main_v8 (F := Ideal) x2 (ix3 k N M)
      = (val_main_v2 (F := Ideal) x2 (ix2 k N) - val_main_v2 (F := Ideal) x2 (ix2 k M)) * (val_main_v2 (F := Ideal) x2 (ix2 k N) - val_main_v2 (F := Ideal) x2 (ix2 k M)) := fun k => by
    show (val_main_v5 (F := Ideal) x2 (ix3 k N M) - val_main_v6 (F := Ideal) x2 (ix3 k N M)) * (val_main_v5 (F := Ideal) x2 (ix3 k N M) - val_main_v6 (F := Ideal) x2 (ix3 k N M)) = _
    rw [val_main_v5_apply, val_main_v3_apply, e5, val_main_v6_apply, val_main_v4_apply, e6]
  simp only [hk]
  show Ideal.ofBits .f32 0x00000000#32 + _ = _
  rw [Ideal.ofBits_zero_f32]
  rfl

/-! ## One pair's term and the total -/

/-- The reference's product term of batch `b` and sampled positions `N`, `M`. -/
theorem termR (b : Fin 8) (N M : Fin 2048) :
    val_main_v93 (F := Ideal) x0 x1 x2 (ix3 b N M)
      = PairSpec.term (lit 0x41200000#32) (lit 0x3E4CCCCD#32) (lit 0x3E99999A#32) (lit 0x40400000#32) (lit 0x3C23D70A#32)
          (PairSpec.gramDist (lit 0x40000000#32) (fun k : Fin 128 => val_main_v46 (F := Ideal) x1 x2 (ix3 b k N)) (fun k : Fin 128 => val_main_v46 (F := Ideal) x1 x2 (ix3 b k M)))
          (PairSpec.gramDist (lit 0x40000000#32) (fun k : Fin 3 => val_main_v28 (F := Ideal) x0 x2 (ix3 b k N)) (fun k : Fin 3 => val_main_v28 (F := Ideal) x0 x2 (ix3 b k M)))
          (PairSpec.diffDist (fun k : Fin 2 => val_main_v2 (F := Ideal) x2 (ix2 k N)) (fun k : Fin 2 => val_main_v2 (F := Ideal) x2 (ix2 k M))) := by
  have e78 : idx_main_v78 (ix3 b N M) = ix3 (0 : Fin 1) N M := funext fun a => Fin.ext (by match a with | ⟨0, _⟩ => rfl | ⟨1, _⟩ => rfl | ⟨2, _⟩ => rfl)
  have e89 : idx_main_v89 (ix3 b N M) = ix3 (0 : Fin 1) N M := funext fun a => Fin.ext (by match a with | ⟨0, _⟩ => rfl | ⟨1, _⟩ => rfl | ⟨2, _⟩ => rfl)
  show val_main_v72 (F := Ideal) x1 x2 (ix3 b N M)
      * ((val_main_v81 (F := Ideal) (ix3 b N M) * Ideal.exp (val_main_v78 (F := Ideal) x2 (ix3 b N M)
            - Ideal.div (val_main_v59 (F := Ideal) x0 x2 (ix3 b N M)) (val_main_v76 (F := Ideal) (ix3 b N M)))
          + val_main_v89 (F := Ideal) x2 (ix3 b N M)) - val_main_v91 (F := Ideal) (ix3 b N M)) = _
  rw [val_main_v78_apply, e78, val_main_v89_apply, e89, distF, distG]
  show _ * ((_ * Ideal.exp (Ideal.div (-(val_main_v10 (F := Ideal) x2 (ix3 (0 : Fin 1) N M))) (val_main_v74 (F := Ideal) (ix3 (0 : Fin 1) N M)) - _)
          + val_main_v87 (F := Ideal) (ix3 (0 : Fin 1) N M) * Ideal.exp (Ideal.div (-(val_main_v10 (F := Ideal) x2 (ix3 (0 : Fin 1) N M))) (val_main_v84 (F := Ideal) (ix3 (0 : Fin 1) N M)))) - _) = _
  rw [coordR, val_main_v81_apply, val_main_v76_apply, val_main_v74_apply, val_main_v87_apply, val_main_v84_apply, val_main_v91_apply]
  unfold PairSpec.term
  rw [PairSpec.zero_sub_eq_neg]
  show _ * ((_ + _) - Ideal.ofBits .f32 0x00000000#32) = _
  rw [Ideal.ofBits_zero_f32]
  rfl

/-- A rank-3 index set is the product of its three coordinate ranges, so a sum over it is the triple sum. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The reference's result: the sum of all pair terms divided by their number. -/
theorem totalR (i : S_.Idx) :
    val_main_v95 (F := Ideal) x0 x1 x2 i
      = Ideal.div (0 + ∑ b : Fin 8, ∑ N : Fin 2048, ∑ M : Fin 2048, val_main_v93 (F := Ideal) x0 x1 x2 (ix3 b N M)) (lit 0x4C000000#32) := by
  rw [val_main_v95_apply, val_main_v94_apply, sum_idx3]
  show Ideal.div (Ideal.ofBits .f32 0x00000000#32 + _) _ = _
  rw [Ideal.ofBits_zero_f32]
  rfl

end Cert.ReferenceIdeal.RefValue

end
-- ==== Proof.Bridge.lean ====
/-
  The two results are one extended real. The kernel's closed form sums, over the batch and all pairs of sampled
  positions, the pair term read off the three arrays the host operations before the region prepared: the gathered
  feature and guidance arrays with the channel axis moved last, and the normalized coordinates as a 2048 × 2 array.
  These are the reference's gathered arrays and its 2 × 2048 coordinates read at transposed indices. The coordinates
  are real numbers (an integer over 224), so the kernel's clamped Gram expansion of the coordinate distance is the
  reference's sum of squared differences, and the reference's leading zero summand changes nothing.
-/
import proofs.«102172_j73212012528100_1_alg».proof.Proof.KiIdeal
import proofs.«102172_j73212012528100_1_alg».proof.Proof.RefValue
import Idealize.ShloMosaic.Lib.ValueLayout
import Idealize.ShloMosaic.Lib.StableHlo.Run

set_option maxRecDepth 16384

noncomputable section

namespace Cert.Proof.Bridge

open Idealize.ShloMosaic Idealize.ShloMosaic.TcCoe Idealize.ShloMosaic.ValueIdx Idealize.SL.Sem
open Cert.ReferenceIdeal.Read
open Cert.KernelIdeal (nD τ sig main_arg0 main_arg1 main_arg2 main_v50 main_v49 main_v12)
open Cert.KernelIdeal.Hand (V lit)

variable (m : (ℓ : Loc nD τ sig) → Buf (Elt Ideal) ℓ) (ρ : Dev nD → PrngReg)

/-- The three argument arrays on core `c`. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)

/-! ## The arrays the region reads -/

set_option maxHeartbeats 8000000 in
/-- The feature array the region reads is the gathered features with the channel axis moved last. -/
theorem V50_eq (c : Dev nD) : (V m ρ c main_v50 : Cert.KernelIdeal.S8x2048x128.Idx → EReal)
    = transpose Cert.KernelIdeal.S8x2048x128 [0, 2, 1] (val_main_v46 (F := Ideal) (a1 m c) (a2 m c))
        Cert.KernelIdeal.Facts₀.transposes_S8x128x2048_S8x2048x128_0_2_1 := by
  dsimp only [V, Cert.KernelIdeal.Gen.hostOps0]
  after_results
  rfl

set_option maxHeartbeats 8000000 in
/-- The guidance array likewise. -/
theorem V49_eq (c : Dev nD) : (V m ρ c main_v49 : Cert.KernelIdeal.S8x2048x3.Idx → EReal)
    = transpose Cert.KernelIdeal.S8x2048x3 [0, 2, 1] (val_main_v28 (F := Ideal) (a0 m c) (a2 m c))
        Cert.KernelIdeal.Facts₀.transposes_S8x3x2048_S8x2048x3_0_2_1 := by
  dsimp only [V, Cert.KernelIdeal.Gen.hostOps0]
  after_results
  rfl

/-- One coordinate row of the integer argument, converted, divided by 224 and stood up as a column. -/
def col (x2 : Cert.KernelIdeal.S2x2048.Idx → BitVec 32) (off : Fin 2 → ℕ) (hs : Cert.KernelIdeal.S2x2048.Slices off Cert.KernelIdeal.S1x2048) : Cert.KernelIdeal.S2048x1.Idx → EReal :=
  broadcastInDim Cert.KernelIdeal.S2048x1 ![0] Cert.KernelIdeal.Facts₀.bcast_S2048_S2048x1_0
    (Host.divf (F := Ideal) (sitofp (F := Ideal) .f32 (shapeCast Cert.KernelIdeal.S2048 (extractStridedSlice Cert.KernelIdeal.S1x2048 off x2 hs) Cert.KernelIdeal.Facts₀.shapeCasts_S1x2048_S2048))
      (broadcastInDim Cert.KernelIdeal.S2048 ![] Cert.KernelIdeal.Facts₀.bcast_S_S2048 (constant (F := Ideal) Cert.KernelIdeal.S_ .f32 0x43600000#32)))

/-- The coordinate array the region reads: the two columns side by side. -/
theorem V12_eq (c : Dev nD) : (V m ρ c main_v12 : Cert.KernelIdeal.S2048x2.Idx → EReal)
    = concatenate Cert.KernelIdeal.S2048x2 1 [⟨Cert.KernelIdeal.S2048x1, col (a2 m c) ![0, 0] Cert.KernelIdeal.Facts₀.slices_S2x2048_S1x2048_0_0⟩,
        ⟨Cert.KernelIdeal.S2048x1, col (a2 m c) ![1, 0] Cert.KernelIdeal.Facts₀.slices_S2x2048_S1x2048_1_0⟩] Cert.KernelIdeal.Facts₀.concatenates_S2048x1_S2048x1_S2048x2_d1 := by
  dsimp only [V, Cert.KernelIdeal.Gen.hostOps0]
  after_results
  rfl

theorem col_apply (x2 : Cert.KernelIdeal.S2x2048.Idx → BitVec 32) (r : Fin 2) (hs : Cert.KernelIdeal.S2x2048.Slices ![r.val, 0] Cert.KernelIdeal.S1x2048) (N : Fin 2048) (u : Fin 1) :
    col x2 ![r.val, 0] hs (ix2 N u) = Ideal.div (((x2 (ix2 r N)).toInt : ℝ) : EReal) (lit 0x43600000#32) := by
  unfold col
  rw [broadcastInDim_apply _ _ _ (ix2 N u) (ix1 N) (fun a => by
    match a with
    | ⟨0, _⟩ => exact (show N.val = if (2048 : ℕ) = 1 then 0 else N.val by rw [if_neg (by decide)]))]
  show Ideal.div ((((shapeCast Cert.KernelIdeal.S2048 (extractStridedSlice Cert.KernelIdeal.S1x2048 ![r.val, 0] x2 hs) Cert.KernelIdeal.Facts₀.shapeCasts_S1x2048_S2048) (ix1 N)).toInt : ℝ) : EReal)
      (broadcastInDim Cert.KernelIdeal.S2048 ![] Cert.KernelIdeal.Facts₀.bcast_S_S2048 (constant (F := Ideal) Cert.KernelIdeal.S_ .f32 0x43600000#32) (ix1 N)) = _
  rw [shapeCast_1a_a_apply, extractStridedSlice_apply ![r.val, 0] x2 hs (ix2 (0 : Fin 1) N) (ix2 r N) (fun a => by
      match a with
      | ⟨0, _⟩ => exact (show r.val = r.val + 0 by omega)
      | ⟨1, _⟩ => exact (show N.val = 0 + N.val by omega)),
    broadcastInDim_apply _ _ _ (ix1 N) ix0 (fun a => a.elim0)]
  rfl

/-- The reference's normalized coordinate: the same integer over 224. -/
theorem U_apply (x2 : Cert.KernelIdeal.S2x2048.Idx → BitVec 32) (r : Fin 2) (N : Fin 2048) :
    val_main_v2 (F := Ideal) x2 (ix2 r N) = Ideal.div (((x2 (ix2 r N)).toInt : ℝ) : EReal) (lit 0x43600000#32) := by
  rw [val_main_v2_apply, val_main_v0_apply, val_main_v1_apply, val_main_cst_apply]
  rfl

/-- It is a real number. -/
theorem U_real (x2 : Cert.KernelIdeal.S2x2048.Idx → BitVec 32) (r : Fin 2) (N : Fin 2048) :
    ∃ q : ℝ, val_main_v2 (F := Ideal) x2 (ix2 r N) = (q : EReal) :=
  ⟨((x2 (ix2 r N)).toInt : ℝ) * (1 / 224), by
    rw [U_apply]
    show Ideal.div _ (Ideal.ofBits .f32 0x43600000#32) = _
    rw [PairSpec.lit_224, Ideal.div_coe (by norm_num), ← EReal.coe_mul]⟩

theorem V12_apply (c : Dev nD) (N : Fin 2048) (k : Fin 2) :
    V m ρ c main_v12 (ix2 N k) = val_main_v2 (F := Ideal) (a2 m c) (ix2 k N) := by
  rw [V12_eq, U_apply]
  match k with
  | ⟨0, _⟩ =>
    exact (concatenate_pair_apply_left (t := Cert.KernelIdeal.S2048x2) (s₁ := Cert.KernelIdeal.S2048x1) (s₂ := Cert.KernelIdeal.S2048x1) (1 : Fin 2) _ _ _ _ rfl (ix2 N (0 : Fin 1)) (fun b => by
      match b with
      | ⟨0, _⟩ => rfl
      | ⟨1, _⟩ => rfl)).trans (col_apply _ 0 _ N 0)
  | ⟨1, _⟩ =>
    exact (concatenate_pair_apply_right (t := Cert.KernelIdeal.S2048x2) (s₁ := Cert.KernelIdeal.S2048x1) (s₂ := Cert.KernelIdeal.S2048x1) (1 : Fin 2) _ _ _ _ rfl rfl (ix2 N (0 : Fin 1)) (fun b hb => by
      match b with
      | ⟨0, _⟩ => rfl
      | ⟨1, _⟩ => exact absurd rfl hb) (by rfl)).trans (col_apply _ 1 _ N 0)

theorem V50_apply (c : Dev nD) (b : Fin 8) (N : Fin 2048) (k : Fin 128) :
    V m ρ c main_v50 (ix3 b N k) = val_main_v46 (F := Ideal) (a1 m c) (a2 m c) (ix3 b k N) := by
  rw [V50_eq]
  exact transpose_ix3_021_apply _ _ b N k

theorem V49_apply (c : Dev nD) (b : Fin 8) (N : Fin 2048) (k : Fin 3) :
    V m ρ c main_v49 (ix3 b N k) = val_main_v28 (F := Ideal) (a0 m c) (a2 m c) (ix3 b k N) := by
  rw [V49_eq]
  exact transpose_ix3_021_apply _ _ b N k

/-! ## The pair terms agree -/

/-- On the real coordinates the kernel's clamped Gram expansion is the reference's sum of squared differences. -/
theorem coord_eq (c : Dev nD) (N M : Fin 2048) :
    PairSpec.gramDist (lit 0x40000000#32) (fun k : Fin 2 => V m ρ c main_v12 (ix2 N k)) (fun k : Fin 2 => V m ρ c main_v12 (ix2 M k))
      = PairSpec.diffDist (fun k : Fin 2 => val_main_v2 (F := Ideal) (a2 m c) (ix2 k N)) (fun k : Fin 2 => val_main_v2 (F := Ideal) (a2 m c) (ix2 k M)) := by
  rw [show (fun k : Fin 2 => V m ρ c main_v12 (ix2 N k)) = fun k : Fin 2 => val_main_v2 (F := Ideal) (a2 m c) (ix2 k N) from funext fun k => V12_apply m ρ c N k,
    show (fun k : Fin 2 => V m ρ c main_v12 (ix2 M k)) = fun k : Fin 2 => val_main_v2 (F := Ideal) (a2 m c) (ix2 k M) from funext fun k => V12_apply m ρ c M k]
  choose qN hN using fun k : Fin 2 => U_real (a2 m c) k N
  choose qM hM using fun k : Fin 2 => U_real (a2 m c) k M
  simp only [hN, hM]
  show PairSpec.gramDist (Ideal.ofBits .f32 0x40000000#32) _ _ = _
  rw [PairSpec.lit_two]
  exact PairSpec.gramDist_eq_diffDist qN qM

theorem Ek_eq (c : Dev nD) (b : Fin 8) (N M : Fin 2048) :
    Cert.KernelIdeal.Hand.Ek m ρ c b N M = val_main_v93 (F := Ideal) (a0 m c) (a1 m c) (a2 m c) (ix3 b N M) := by
  rw [Cert.ReferenceIdeal.RefValue.termR]
  unfold Cert.KernelIdeal.Hand.Ek
  rw [coord_eq]
  rw [show (fun k : Fin 128 => V m ρ c main_v50 (ix3 b N k)) = fun k : Fin 128 => val_main_v46 (F := Ideal) (a1 m c) (a2 m c) (ix3 b k N) from funext fun k => V50_apply m ρ c b N k,
    show (fun k : Fin 128 => V m ρ c main_v50 (ix3 b M k)) = fun k : Fin 128 => val_main_v46 (F := Ideal) (a1 m c) (a2 m c) (ix3 b k M) from funext fun k => V50_apply m ρ c b M k,
    show (fun k : Fin 3 => V m ρ c main_v49 (ix3 b N k)) = fun k : Fin 3 => val_main_v28 (F := Ideal) (a0 m c) (a2 m c) (ix3 b k N) from funext fun k => V49_apply m ρ c b N k,
    show (fun k : Fin 3 => V m ρ c main_v49 (ix3 b M k)) = fun k : Fin 3 => val_main_v28 (F := Ideal) (a0 m c) (a2 m c) (ix3 b k M) from funext fun k => V49_apply m ρ c b M k]

/-! ## The results agree -/

theorem values_eq (c : Dev nD) (i : Cert.KernelIdeal.S_.Idx) :
    StableHlo.after Cert.KernelIdeal.Gen.hostOps1 (Cert.KernelIdeal.Hand.V1 m ρ c) (Proc.devRef .tc Cert.KernelIdeal.main_v52) i
      = val_main_v95 (F := Ideal) (a0 m c) (a1 m c) (a2 m c) i := by
  rw [Cert.KernelIdeal.Hand.result_v52, Cert.ReferenceIdeal.RefValue.totalR]
  rw [shapeCast_apply _ _ i Cert.KernelIdeal.Hand.j0 (by
    have h1 := (Cert.KernelIdeal.S1x1.rowMajor Cert.KernelIdeal.Hand.j0).isLt
    have h2 := (Cert.KernelIdeal.S_.rowMajor i).isLt
    have e1 : Cert.KernelIdeal.S1x1.numel = 1 := rfl
    have e2 : Cert.KernelIdeal.S_.numel = 1 := rfl
    omega)]
  rw [Cert.KernelIdeal.Hand.result_closed, zero_add]
  simp only [Ek_eq]

end Cert.Proof.Bridge

end
-- ==== Proof.lean ====
/-
  The kernel computes the mean, over the batch and all pairs of 2048 sampled pixel positions, of the pairwise
  feature distance weighted by a two-scale Gaussian affinity of the positions' coordinate and guidance distances,
  tile by tile of 256 × 256 positions into a 1x1 accumulator; the reference computes the same mean at once. The
  three programs run to the end without a fault and leave their arguments unchanged; the idealization rewrote
  nothing; and over the extended reals the two idealized programs return the same number.
-/
import proofs.«102172_j73212012528100_1_alg».proof.Defs
import proofs.«102172_j73212012528100_1_alg».proof.Proof.Gen.Kernel
import proofs.«102172_j73212012528100_1_alg».proof.Proof.Gen.KernelIdeal
import proofs.«102172_j73212012528100_1_alg».proof.Proof.Gen.ReferenceIdeal
import proofs.«102172_j73212012528100_1_alg».proof.Proof.Gen.Pre_finite_inputs
import proofs.«102172_j73212012528100_1_alg».proof.Proof.KbLaunch
import proofs.«102172_j73212012528100_1_alg».proof.Proof.KiLaunch
import proofs.«102172_j73212012528100_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ =>
  (θ_run Cert.Kernel.defs _ _).mono (fun _ h c => (h c).2) (Cert.Kernel.Hand.run_main (F := Bits) m ρ)

/-- So does the idealized kernel, -/
theorem frame_ki : Cert.frame_KernelIdeal := fun m ρ _ =>
  (θ_run Cert.KernelIdeal.defs _ _).mono (fun _ h c => (h c).2) (Cert.KernelIdeal.Hand.run_main (F := Ideal) m ρ)

/-- and the idealized reference. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the two idealized programs end with the same result. -/
theorem algebraic : Cert.algebraic_KernelIdeal_ReferenceIdeal := by
  intro m ρ m' ρ' _ hagree
  refine ⟨fun c => StableHlo.after Cert.KernelIdeal.Gen.hostOps1 (Cert.KernelIdeal.Hand.V1 m ρ c) (Proc.devRef .tc Cert.KernelIdeal.main_v52), ?_, ?_⟩
  · exact (θ_run Cert.KernelIdeal.defs _ _).mono (fun _ h c => h c) (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v95_eq, (hagree c).1, (hagree c).2.1, (hagree c).2.2]
    exact funext fun i => (Cert.Proof.Bridge.values_eq m ρ c i).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
